-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x16 : Shape := ⟨2, ![800000, 16]⟩
abbrev S64x96 : Shape := ⟨2, ![64, 96]⟩
abbrev S96 : Shape := ⟨1, ![96]⟩
abbrev S96x96 : Shape := ⟨2, ![96, 96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S2x800000 : Shape := ⟨2, ![2, 800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S192x96 : S_.BroadcastsInDim S192x96 (![] : Fin 0 → Fin S192x96.rank)
  reducesTo_S192x96_S_d0_1 : S192x96.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg25 : FVec F S96 .f32) (main_arg26 : FVec F S96x1 .f32) (main_arg27 : FVec F S1 .f32) (main_v118 : IVec S_ 1) (main_v119 : FVec F S96x96 .f32) : IVec S_ 1 :=
  let main_cst_46 : FVec F S_ .f32 := constant S_ .f32 0x7F800000#32
  let main_v120 : FVec F S96x96 .f32 := broadcastInDim S96x96 ![] bcast_S_S96x96 main_cst_46
  let main_v121 : IVec S96x96 1 := cmpf .olt main_v119 main_v120
  let main_c_47 : IVec S_ 1 := constantI S_ 1 1#1
  let main_v122 : IVec S_ 1 := (fun x v => Host.reduce IntOp.andi x v reducesTo_S96x96_S_d0_1 h_S_) main_v121 main_c_47
  let main_v123 : IVec S_ 1 := andi main_v118 main_v122
  let main_v124 : FVec F S96 .f32 := Host.absf main_arg25
  let main_cst_48 : FVec F S_ .f32 := constant S_ .f32 0x7F800000#32
  let main_v125 : FVec F S96 .f32 := broadcastInDim S96 ![] bcast_S_S96 main_cst_48
  let main_v126 : IVec S96 1 := cmpf .olt main_v124 main_v125
  let main_c_49 : IVec S_ 1 := constantI S_ 1 1#1
  let main_v127 : IVec S_ 1 := (fun x v => Host.reduce IntOp.andi x v reducesTo_S96_S_d0 h_S_) main_v126 main_c_49
  let main_v128 : IVec S_ 1 := andi main_v123 main_v127
  let main_v129 : FVec F S96x1 .f32 := Host.absf main_arg26
  let main_cst_50 : FVec F S_ .f32 := constant S_ .f32 0x7F800000#32
  let main_v130 : FVec F S96x1 .f32 := broadcastInDim S96x1 ![] bcast_S_S96x1 main_cst_50
  let main_v131 : IVec S96x1 1 := cmpf .olt main_v129 main_v130
  let main_c_51 : IVec S_ 1 := constantI S_ 1 1#1
  let main_v132 : IVec S_ 1 := (fun x v => Host.reduce IntOp.andi x v reducesTo_S96x1_S_d0_1 h_S_) main_v131 main_c_51
  let main_v133 : IVec S_ 1 := andi main_v128 main_v132
  let main_v134 : FVec F S1 .f32 := Host.absf main_arg27
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v98 : IVec S_ 1) (main_v101 : IVec S192x96 1) (main_c_39 : IVec S_ 1) : IVec S_ 1 :=
  let main_v102 : IVec S_ 1 := (fun x v => Host.reduce IntOp.andi x v reducesTo_S192x96_S_d0_1 h_S_) main_v101 main_c_39
  let main_v103 : IVec S_ 1 := andi main_v98 main_v102
  let main_v104 : FVec F S96 .f32 := Host.absf main_arg21
  let main_cst_40 : FVec F S_ .f32 := constant S_ .f32 0x7F800000#32
  let main_v105 : FVec F S96 .f32 := broadcastInDim S96 ![] bcast_S_S96 main_cst_40
  let main_v106 : IVec S96 1 := cmpf .olt main_v104 main_v105
  let main_c_41 : IVec S_ 1 := constantI S_ 1 1#1
  let main_v107 : IVec S_ 1 := (fun x v => Host.reduce IntOp.andi x v reducesTo_S96_S_d0 h_S_) main_v106 main_c_41
  let main_v108 : IVec S_ 1 := andi main_v103 main_v107
  let main_v109 : FVec F S96x96 .f32 := Host.absf main_arg22
  let main_cst_42 : FVec F S_ .f32 := constant S_ .f32 0x7F800000#32
  let main_v110 : FVec F S96x96 .f32 := broadcastInDim S96x96 ![] bcast_S_S96x96 main_cst_42
  let main_v111 : IVec S96x96 1 := cmpf .olt main_v109 main_v110
  let main_c_43 : IVec S_ 1 := constantI S_ 1 1#1
  let main_v112 : IVec S_ 1 := (fun x v => Host.reduce IntOp.andi x v reducesTo_S96x96_S_d0_1 h_S_) main_v111 main_c_43
  let main_v113 : IVec S_ 1 := andi main_v108 main_v112
  let main_v114 : FVec F S96 .f32 := Host.absf main_arg23
  let main_cst_44 : FVec F S_ .f32 := constant S_ .f32 0x7F800000#32
  let main_v115 : FVec F S96 .f32 := broadcastInDim S96 ![] bcast_S_S96 main_cst_44
  let main_v116 : IVec S96 1 := cmpf .olt main_v114 main_v115
  let main_c_45 : IVec S_ 1 := constantI S_ 1 1#1
  let main_v117 : IVec S_ 1 := (fun x v => Host.reduce IntOp.andi x v reducesTo_S96_S_d0 h_S_) main_v116 main_c_45
  let main_v118 : IVec S_ 1 := andi main_v113 main_v117
  let main_v119 : FVec F S96x96 .f32 := Host.absf main_arg24
  fn_part7 (F := F) main_arg25 main_arg26 main_arg27 main_v118 main_v119

def fn_part5 {F : FTy → Type} [FloatOps F] (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v83 : IVec S_ 1) (main_v84 : FVec F S3x96 .f32) (main_cst_32 : FVec F S_ .f32) : IVec S_ 1 :=
  let main_v85 : FVec F S3x96 .f32 := broadcastInDim S3x96 ![] bcast_S_S3x96 main_cst_32
  let main_v86 : IVec S3x96 1 := cmpf .olt main_v84 main_v85
  let main_c_33 : IVec S_ 1 := constantI S_ 1 1#1
  let main_v87 : IVec S_ 1 := (fun x v => Host.reduce IntOp.andi x v reducesTo_S3x96_S_d0_1 h_S_) main_v86 main_c_33
  let main_v88 : IVec S_ 1 := andi main_v83 main_v87
  let main_v89 : FVec F S3x96x96 .f32 := Host.absf main_arg18
  let main_cst_34 : FVec F S_ .f32 := constant S_ .f32 0x7F800000#32
  let main_v90 : FVec F S3x96x96 .f32 := broadcastInDim S3x96x96 ![] bcast_S_S3x96x96 main_cst_34
  let main_v91 : IVec S3x96x96 1 := cmpf .olt main_v89 main_v90
  let main_c_35 : IVec S_ 1 := constantI S_ 1 1#1
  let main_v92 : IVec S_ 1 := (fun x v => Host.reduce IntOp.andi x v reducesTo_S3x96x96_S_d0_1_2 h_S_) main_v91 main_c_35
  let main_v93 : IVec S_ 1 := andi main_v88 main_v92
  let main_v94 : FVec F S3x96 .f32 := Host.absf main_arg19
  let main_cst_36 : FVec F S_ .f32 := constant S_ .f32 0x7F800000#32
  let main_v95 : FVec F S3x96 .f32 := broadcastInDim S3x96 ![] bcast_S_S3x96 main_cst_36
  let main_v96 : IVec S3x96 1 := cmpf .olt main_v94 main_v95
  let main_c_37 : IVec S_ 1 := constantI S_ 1 1#1
  let main_v97 : IVec S_ 1 := (fun x v => Host.reduce IntOp.andi x v reducesTo_S3x96_S_d0_1 h_S_) main_v96 main_c_37
  let main_v98 : IVec S_ 1 := andi main_v93 main_v97
  let main_v99 : FVec F S192x96 .f32 := Host.absf main_arg20
  let main_cst_38 : FVec F S_ .f32 := constant S_ .f32 0x7F800000#32
  let main_v100 : FVec F S192x96 .f32 := broadcastInDim S192x96 ![] bcast_S_S192x96 main_cst_38
  let main_v101 : IVec S192x96 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S96x96 .f32) (main_arg15 : FVec F S96 .f32) (main_arg16 : FVec F S3x96x96 .f32) (main_arg17 : FVec F S3x96 .f32) (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v63 : IVec S_ 1) (main_v67 : IVec S_ 1) : IVec S_ 1 :=
  let main_v68 : IVec S_ 1 := andi main_v63 main_v67
  let main_v69 : FVec F S96x96 .f32 := Host.absf main_arg14
  let main_cst_26 : FVec F S_ .f32 := constant S_ .f32 0x7F800000#32
  let main_v70 : FVec F S96x96 .f32 := broadcastInDim S96x96 ![] bcast_S_S96x96 main_cst_26
  let main_v71 : IVec S96x96 1 := cmpf .olt main_v69 main_v70
  let main_c_27 : IVec S_ 1 := constantI S_ 1 1#1
  let main_v72 : IVec S_ 1 := (fun x v => Host.reduce IntOp.andi x v reducesTo_S96x96_S_d0_1 h_S_) main_v71 main_c_27
  let main_v73 : IVec S_ 1 := andi main_v68 main_v72
  let main_v74 : FVec F S96 .f32 := Host.absf main_arg15
  let main_cst_28 : FVec F S_ .f32 := constant S_ .f32 0x7F800000#32
  let main_v75 : FVec F S96 .f32 := broadcastInDim S96 ![] bcast_S_S96 main_cst_28
  let main_v76 : IVec S96 1 := cmpf .olt main_v74 main_v75
  let main_c_29 : IVec S_ 1 := constantI S_ 1 1#1
  let main_v77 : IVec S_ 1 := (fun x v => Host.reduce IntOp.andi x v reducesTo_S96_S_d0 h_S_) main_v76 main_c_29
  let main_v78 : IVec S_ 1 := andi main_v73 main_v77
  let main_v79 : FVec F S3x96x96 .f32 := Host.absf main_arg16
  let main_cst_30 : FVec F S_ .f32 := constant S_ .f32 0x7F800000#32
  let main_v80 : FVec F S3x96x96 .f32 := broadcastInDim S3x96x96 ![] bcast_S_S3x96x96 main_cst_30
  let main_v81 : IVec S3x96x96 1 := cmpf .olt main_v79 main_v80
  let main_c_31 : IVec S_ 1 := constantI S_ 1 1#1
  let main_v82 : IVec S_ 1 := (fun x v => Host.reduce IntOp.andi x v reducesTo_S3x96x96_S_d0_1_2 h_S_) main_v81 main_c_31
  let main_v83 : IVec S_ 1 := andi main_v78 main_v82
  let main_v84 : FVec F S3x96 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S3x96 .f32) (main_arg12 : FVec F S64x96 .f32) (main_arg13 : FVec F S96 .f32) (main_arg14 : FVec F S96x96 .f32) (main_arg15 : FVec F S96 .f32) (main_arg16 : FVec F S3x96x96 .f32) (main_arg17 : FVec F S3x96 .f32) (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v48 : IVec S_ 1) (main_v49 : FVec F S3x96x96 .f32) (main_v50 : FVec F S3x96x96 .f32) : IVec S_ 1 :=
  let main_v51 : IVec S3x96x96 1 := cmpf .olt main_v49 main_v50
  let main_c_19 : IVec S_ 1 := constantI S_ 1 1#1
  let main_v52 : IVec S_ 1 := (fun x v => Host.reduce IntOp.andi x v reducesTo_S3x96x96_S_d0_1_2 h_S_) main_v51 main_c_19
  let main_v53 : IVec S_ 1 := andi main_v48 main_v52
  let main_v54 : FVec F S3x96 .f32 := Host.absf main_arg11
  let main_cst_20 : FVec F S_ .f32 := constant S_ .f32 0x7F800000#32
  let main_v55 : FVec F S3x96 .f32 := broadcastInDim S3x96 ![] bcast_S_S3x96 main_cst_20
  let main_v56 : IVec S3x96 1 := cmpf .olt main_v54 main_v55
  let main_c_21 : IVec S_ 1 := constantI S_ 1 1#1
  let main_v57 : IVec S_ 1 := (fun x v => Host.reduce IntOp.andi x v reducesTo_S3x96_S_d0_1 h_S_) main_v56 main_c_21
  let main_v58 : IVec S_ 1 := andi main_v53 main_v57
  let main_v59 : FVec F S64x96 .f32 := Host.absf main_arg12
  let main_cst_22 : FVec F S_ .f32 := constant S_ .f32 0x7F800000#32
  let main_v60 : FVec F S64x96 .f32 := broadcastInDim S64x96 ![] bcast_S_S64x96 main_cst_22
  let main_v61 : IVec S64x96 1 := cmpf .olt main_v59 main_v60
  let main_c_23 : IVec S_ 1 := constantI S_ 1 1#1
  let main_v62 : IVec S_ 1 := (fun x v => Host.reduce IntOp.andi x v reducesTo_S64x96_S_d0_1 h_S_) main_v61 main_c_23
  let main_v63 : IVec S_ 1 := andi main_v58 main_v62
  let main_v64 : FVec F S96 .f32 := Host.absf main_arg13
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S96 .f32) (main_arg8 : FVec F S3x96x96 .f32) (main_arg9 : FVec F S3x96 .f32) (main_arg10 : FVec F S3x96x96 .f32) (main_arg11 : FVec F S3x96 .f32) (main_arg12 : FVec F S64x96 .f32) (main_arg13 : FVec F S96 .f32) (main_arg14 : FVec F S96x96 .f32) (main_arg15 : FVec F S96 .f32) (main_arg16 : FVec F S3x96x96 .f32) (main_arg17 : FVec F S3x96 .f32) (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S3x96x96 .f32 := Host.absf main_arg8
  let main_cst_14 : FVec F S_ .f32 := constant S_ .f32 0x7F800000#32
  let main_v40 : FVec F S3x96x96 .f32 := broadcastInDim S3x96x96 ![] bcast_S_S3x96x96 main_cst_14
  let main_v41 : IVec S3x96x96 1 := cmpf .olt main_v39 main_v40
  let main_c_15 : IVec S_ 1 := constantI S_ 1 1#1
  let main_v42 : IVec S_ 1 := (fun x v => Host.reduce IntOp.andi x v reducesTo_S3x96x96_S_d0_1_2 h_S_) main_v41 main_c_15
  let main_v43 : IVec S_ 1 := andi main_v38 main_v42
  let main_v44 : FVec F S3x96 .f32 := Host.absf main_arg9
  let main_cst_16 : FVec F S_ .f32 := constant S_ .f32 0x7F800000#32
  let main_v45 : FVec F S3x96 .f32 := broadcastInDim S3x96 ![] bcast_S_S3x96 main_cst_16
  let main_v46 : IVec S3x96 1 := cmpf .olt main_v44 main_v45
  let main_c_17 : IVec S_ 1 := constantI S_ 1 1#1
  let main_v47 : IVec S_ 1 := (fun x v => Host.reduce IntOp.andi x v reducesTo_S3x96_S_d0_1 h_S_) main_v46 main_c_17
  let main_v48 : IVec S_ 1 := andi main_v43 main_v47
  let main_v49 : FVec F S3x96x96 .f32 := Host.absf main_arg10
  let main_cst_18 : FVec F S_ .f32 := constant S_ .f32 0x7F800000#32
  let main_v50 : FVec F S3x96x96 .f32 := broadcastInDim S3x96x96 ![] bcast_S_S3x96x96 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S64x96 .f32) (main_arg5 : FVec F S96 .f32) (main_arg6 : FVec F S96x96 .f32) (main_arg7 : FVec F S96 .f32) (main_arg8 : FVec F S3x96x96 .f32) (main_arg9 : FVec F S3x96 .f32) (main_arg10 : FVec F S3x96x96 .f32) (main_arg11 : FVec F S3x96 .f32) (main_arg12 : FVec F S64x96 .f32) (main_arg13 : FVec F S96 .f32) (main_arg14 : FVec F S96x96 .f32) (main_arg15 : FVec F S96 .f32) (main_arg16 : FVec F S3x96x96 .f32) (main_arg17 : FVec F S3x96 .f32) (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_v13 : IVec S_ 1) (main_v16 : IVec S800000x16 1) : IVec S_ 1 :=
  let main_c_5 : IVec S_ 1 := constantI S_ 1 1#1
  let main_v17 : IVec S_ 1 := (fun x v => Host.reduce IntOp.andi x v reducesTo_S800000x16_S_d0_1 h_S_) main_v16 main_c_5
  let main_v18 : IVec S_ 1 := andi main_v13 main_v17
  let main_v19 : FVec F S64x96 .f32 := Host.absf main_arg4
  let main_cst_6 : FVec F S_ .f32 := constant S_ .f32 0x7F800000#32
  let main_v20 : FVec F S64x96 .f32 := broadcastInDim S64x96 ![] bcast_S_S64x96 main_cst_6
  let main_v21 : IVec S64x96 1 := cmpf .olt main_v19 main_v20
  let main_c_7 : IVec S_ 1 := constantI S_ 1 1#1
  let main_v22 : IVec S_ 1 := (fun x v => Host.reduce IntOp.andi x v reducesTo_S64x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg6
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x64 .f32) (main_arg1 : FVec F S100000x64 .f32) (main_arg2 : FVec F S800000x16 .f32) (main_arg3 : FVec F S800000x16 .f32) (main_arg4 : FVec F S64x96 .f32) (main_arg5 : FVec F S96 .f32) (main_arg6 : FVec F S96x96 .f32) (main_arg7 : FVec F S96 .f32) (main_arg8 : FVec F S3x96x96 .f32) (main_arg9 : FVec F S3x96 .f32) (main_arg10 : FVec F S3x96x96 .f32) (main_arg11 : FVec F S3x96 .f32) (main_arg12 : FVec F S64x96 .f32) (main_arg13 : FVec F S96 .f32) (main_arg14 : FVec F S96x96 .f32) (main_arg15 : FVec F S96 .f32) (main_arg16 : FVec F S3x96x96 .f32) (main_arg17 : FVec F S3x96 .f32) (main_arg18 : FVec F S3x96x96 .f32) (main_arg19 : FVec F S3x96 .f32) (main_arg20 : FVec F S192x96 .f32) (main_arg21 : FVec F S96 .f32) (main_arg22 : FVec F S96x96 .f32) (main_arg23 : FVec F S96 .f32) (main_arg24 : FVec F S96x96 .f32) (main_arg25 : FVec F S96 .f32) (main_arg26 : FVec F S96x1 .f32) (main_arg27 : FVec F S1 .f32) (main_arg28 : IVec S2x800000 32) (main_arg29 : IVec S2x800000 32) (main_arg30 : IVec S100000 32) (main_arg31 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S800000x16 .f32 := Host.absf main_arg3
  let main_cst_4 : FVec F S_ .f32 := constant S_ .f32 0x7F800000#32
  let main_v15 : FVec F S800000x16 .f32 := broadcastInDim S800000x16 ![] bcast_S_S800000x16 main_cst_4
  let main_v16 : IVec S800000x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x64 : Shape := ⟨2, ![100000, 64]⟩
abbrev S800000x16 : Shape := ⟨2, ![800000, 16]⟩
abbrev S64x96 : Shape := ⟨2, ![64, 96]⟩
abbrev S96 : Shape := ⟨1, ![96]⟩
abbrev S96x96 : Shape := ⟨2, ![96, 96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x96 : Shape := ⟨2, ![1, 96]⟩
abbrev S100000x96 : Shape := ⟨2, ![100000, 96]⟩
abbrev S5000x64 : Shape := ⟨2, ![5000, 64]⟩
abbrev S5000x96 : Shape := ⟨2, ![5000, 96]⟩
abbrev S1x96x96 : Shape := ⟨3, ![1, 96, 96]⟩
abbrev S800000x96 : Shape := ⟨2, ![800000, 96]⟩
abbrev S1024x96 : Shape := ⟨2, ![1024, 96]⟩
abbrev S100000x1 : Shape := ⟨2, ![100000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 263
  | .vmem => 76
  | .smem => 0
  | _ => 0

abbrev hbmTy0_0 (i : Nat) : BufTy := match i % 128 with
  | 0 => ⟨S100000x64, .f32⟩
  | 1 => ⟨S100000x64, .f32⟩
  | 2 => ⟨S800000x16, .f32⟩
  | 3 => ⟨S800000x16, .f32⟩
  | 4 => ⟨S64x96, .f32⟩
  | 5 => ⟨S96, .f32⟩
  | 6 => ⟨S96x96, .f32⟩
  | 7 => ⟨S96, .f32⟩
  | 8 => ⟨S3x96x96, .f32⟩
  | 9 => ⟨S3x96, .f32⟩
  | 10 => ⟨S3x96x96, .f32⟩
  | 11 => ⟨S3x96, .f32⟩
  | 12 => ⟨S64x96, .f32⟩
  | 13 => ⟨S96, .f32⟩
  | 14 => ⟨S96x96, .f32⟩
  | 15 => ⟨S96, .f32⟩
  | 16 => ⟨S3x96x96, .f32⟩
  | 17 => ⟨S3x96, .f32⟩
  | 18 => ⟨S3x96x96, .f32⟩
  | 19 => ⟨S3x96, .f32⟩
  | 20 => ⟨S192x96, .f32⟩
  | 21 => ⟨S96, .f32⟩
  | 22 => ⟨S96x96, .f32⟩
  | 23 => ⟨S96, .f32⟩
  | 24 => ⟨S96x96, .f32⟩
  | 25 => ⟨S96, .f32⟩
  | 26 => ⟨S96x1, .f32⟩
  | 27 => ⟨S1, .f32⟩
  | 28 => ⟨S2x800000, .i32⟩
  | 29 => ⟨S2x800000, .i32⟩
  | 30 => ⟨S100000, .i32⟩
  | 31 => ⟨S100000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S_, .f32⟩
  | 46 => ⟨S100000x64, .f32⟩
  | 47 => ⟨S800000x1, .i32⟩
  | 48 => ⟨S100000x64, .f32⟩
  | 49 => ⟨S100000x64, .f32⟩
  | 50 => ⟨S1x96, .f32⟩
  | 51 => ⟨S1x96, .f32⟩
  | 52 => ⟨S100000x96, .f32⟩
  | 53 => ⟨S1x96x96, .f32⟩
  | 54 => ⟨S96x96, .f32⟩
  | 55 => ⟨S1x96, .f32⟩
  | 56 => ⟨S96, .f32⟩
  | 57 => ⟨S1x96x96, .f32⟩
  | 58 => ⟨S96x96, .f32⟩
  | 59 => ⟨S1x96, .f32⟩
  | 60 => ⟨S96, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x96, .f32⟩
  | 70 => ⟨S_, .f32⟩
  | 71 => ⟨S100000x96, .f32⟩
  | 72 => ⟨S800000x1, .i32⟩
  | 73 => ⟨S100000x96, .f32⟩
  | 74 => ⟨S100000x96, .f32⟩
  | 75 => ⟨S1x96, .f32⟩
  | 76 => ⟨S1x96, .f32⟩
  | 77 => ⟨S100000x96, .f32⟩
  | 78 => ⟨S1x96x96, .f32⟩
  | 79 => ⟨S96x96, .f32⟩
  | 80 => ⟨S1x96, .f32⟩
  | 81 => ⟨S96, .f32⟩
  | 82 => ⟨S1x96x96, .f32⟩
  | 83 => ⟨S96x96, .f32⟩
  | 84 => ⟨S1x96, .f32⟩
  | 85 => ⟨S96, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x96, .f32⟩
  | 95 => ⟨S_, .f32⟩
  | 96 => ⟨S100000x96, .f32⟩
  | 97 => ⟨S800000x1, .i32⟩
  | 98 => ⟨S100000x96, .f32⟩
  | 99 => ⟨S100000x96, .f32⟩
  | 100 => ⟨S1x96, .f32⟩
  | 101 => ⟨S1x96, .f32⟩
  | 102 => ⟨S100000x96, .f32⟩
  | 103 => ⟨S1x96x96, .f32⟩
  | 104 => ⟨S96x96, .f32⟩
  | 105 => ⟨S1x96, .f32⟩
  | 106 => ⟨S96, .f32⟩
  | 107 => ⟨S1x96x96, .f32⟩
  | 108 => ⟨S96x96, .f32⟩
  | 109 => ⟨S1x96, .f32⟩
  | 110 => ⟨S96, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x96, .f32⟩
  | 120 => ⟨S_, .f32⟩
  | 121 => ⟨S100000x96, .f32⟩
  | 122 => ⟨S800000x1, .i32⟩
  | 123 => ⟨S100000x96, .f32⟩
  | 124 => ⟨S100000x96, .f32⟩
  | 125 => ⟨S1x96, .f32⟩
  | 126 => ⟨S1x96, .f32⟩
  | 127 => ⟨S100000x96, .f32⟩
  | _ => ⟨S100000x64, .f32⟩

abbrev hbmTy0_1 (i : Nat) : BufTy := match i % 128 with
  | 0 => ⟨S1x800000, .i32⟩
  | 1 => ⟨S800000, .i32⟩
  | 2 => ⟨S1x800000, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S_, .f32⟩
  | 14 => ⟨S100000x64, .f32⟩
  | 15 => ⟨S800000x1, .i32⟩
  | 16 => ⟨S100000x64, .f32⟩
  | 17 => ⟨S100000x64, .f32⟩
  | 18 => ⟨S1x96, .f32⟩
  | 19 => ⟨S1x96, .f32⟩
  | 20 => ⟨S100000x96, .f32⟩
  | 21 => ⟨S1x96x96, .f32⟩
  | 22 => ⟨S96x96, .f32⟩
  | 23 => ⟨S1x96, .f32⟩
  | 24 => ⟨S96, .f32⟩
  | 25 => ⟨S1x96x96, .f32⟩
  | 26 => ⟨S96x96, .f32⟩
  | 27 => ⟨S1x96, .f32⟩
  | 28 => ⟨S96, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x96, .f32⟩
  | 38 => ⟨S_, .f32⟩
  | 39 => ⟨S100000x96, .f32⟩
  | 40 => ⟨S800000x1, .i32⟩
  | 41 => ⟨S100000x96, .f32⟩
  | 42 => ⟨S100000x96, .f32⟩
  | 43 => ⟨S1x96, .f32⟩
  | 44 => ⟨S1x96, .f32⟩
  | 45 => ⟨S100000x96, .f32⟩
  | 46 => ⟨S1x96x96, .f32⟩
  | 47 => ⟨S96x96, .f32⟩
  | 48 => ⟨S1x96, .f32⟩
  | 49 => ⟨S96, .f32⟩
  | 50 => ⟨S1x96x96, .f32⟩
  | 51 => ⟨S96x96, .f32⟩
  | 52 => ⟨S1x96, .f32⟩
  | 53 => ⟨S96, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x96, .f32⟩
  | 63 => ⟨S_, .f32⟩
  | 64 => ⟨S100000x96, .f32⟩
  | 65 => ⟨S800000x1, .i32⟩
  | 66 => ⟨S100000x96, .f32⟩
  | 67 => ⟨S100000x96, .f32⟩
  | 68 => ⟨S1x96, .f32⟩
  | 69 => ⟨S1x96, .f32⟩
  | 70 => ⟨S100000x96, .f32⟩
  | 71 => ⟨S1x96x96, .f32⟩
  | 72 => ⟨S96x96, .f32⟩
  | 73 => ⟨S1x96, .f32⟩
  | 74 => ⟨S96, .f32⟩
  | 75 => ⟨S1x96x96, .f32⟩
  | 76 => ⟨S96x96, .f32⟩
  | 77 => ⟨S1x96, .f32⟩
  | 78 => ⟨S96, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x96, .f32⟩
  | 88 => ⟨S_, .f32⟩
  | 89 => ⟨S100000x96, .f32⟩
  | 90 => ⟨S800000x1, .i32⟩
  | 91 => ⟨S100000x96, .f32⟩
  | 92 => ⟨S100000x96, .f32⟩
  | 93 => ⟨S1x96, .f32⟩
  | 94 => ⟨S1x96, .f32⟩
  | 95 => ⟨S100000x96, .f32⟩
  | 96 => ⟨S_, .f32⟩
  | 97 => ⟨S1024x96, .f32⟩
  | 98 => ⟨S100000x1, .i32⟩
  | 99 => ⟨S1024x96, .f32⟩
  | 100 => ⟨S_, .f32⟩
  | 101 => ⟨S100000, .f32⟩
  | 102 => ⟨S_, .f32⟩
  | 103 => ⟨S1024, .f32⟩
  | 104 => ⟨S100000x1, .i32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x96, .f32⟩
  | 111 => ⟨S1024x96, .f32⟩
  | 112 => ⟨S_, .f32⟩
  | 113 => ⟨S1024x96, .f32⟩
  | 114 => ⟨S100000x1, .i32⟩
  | 115 => ⟨S1024x96, .f32⟩
  | 116 => ⟨S_, .f32⟩
  | 117 => ⟨S100000, .f32⟩
  | 118 => ⟨S_, .f32⟩
  | 119 => ⟨S1024, .f32⟩
  | 120 => ⟨S100000x1, .i32⟩
  | 121 => ⟨S1024, .f32⟩
  | 122 => ⟨S_, .f32⟩
  | 123 => ⟨S1024, .f32⟩
  | 124 => ⟨S1024, .f32⟩
  | 125 => ⟨S1024x1, .f32⟩
  | 126 => ⟨S1024x96, .f32⟩
  | 127 => ⟨S1024x96, .f32⟩
  | _ => ⟨S100000x64, .f32⟩

abbrev hbmTy0_2 (i : Nat) : BufTy := match i % 128 with
  | 0 => ⟨S96x96, .f32⟩
  | 1 => ⟨S96x96, .f32⟩
  | 2 => ⟨S1x96, .f32⟩
  | 3 => ⟨S1x96, .f32⟩
  | 4 => ⟨S1x96, .f32⟩
  | 5 => ⟨S1x1, .f32⟩
  | 6 => ⟨S1024x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S96x96, .f32⟩
  | .local _ .vmem, ⟨19, _⟩ => ⟨S1x96, .f32⟩
  | .local _ .vmem, ⟨20, _⟩ => ⟨S96x96, .f32⟩
  | .local _ .vmem, ⟨21, _⟩ => ⟨S1x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S96x96, .f32⟩
  | .local _ .vmem, ⟨27, _⟩ => ⟨S1x96, .f32⟩
  | .local _ .vmem, ⟨28, _⟩ => ⟨S96x96, .f32⟩
  | .local _ .vmem, ⟨29, _⟩ => ⟨S1x96, .f32⟩
  | .local _ .vmem, ⟨30, _⟩ => ⟨S5000x96, .f32⟩
  | .local _ .vmem, ⟨31, _⟩ => ⟨S5000x96, .f32⟩
  | .local _ .vmem, ⟨32, _⟩ => ⟨S5000x64, .f32⟩
  | .local _ .vmem, ⟨33, _⟩ => ⟨S5000x64, .f32⟩
  | .local _ .vmem, ⟨34, _⟩ => ⟨S64x96, .f32⟩
  | .local _ .vmem, ⟨35, _⟩ => ⟨S1x96, .f32⟩
  | .local _ .vmem, ⟨36, _⟩ => ⟨S96x96, .f32⟩
  | .local _ .vmem, ⟨37, _⟩ => ⟨S1x96, .f32⟩
  | .local _ .vmem, ⟨38, _⟩ => ⟨S5000x96, .f32⟩
  | .local _ .vmem, ⟨39, _⟩ => ⟨S5000x96, .f32⟩
  | .local _ .vmem, ⟨40, _⟩ => ⟨S5000x96, .f32⟩
  | .local _ .vmem, ⟨41, _⟩ => ⟨S5000x96, .f32⟩
  | .local _ .vmem, ⟨42, _⟩ => ⟨S96x96, .f32⟩
  | .local _ .vmem, ⟨43, _⟩ => ⟨S1x96, .f32⟩
  | .local _ .vmem, ⟨44, _⟩ => ⟨S96x96, .f32⟩
  | .local _ .vmem, ⟨45, _⟩ => ⟨S1x96, .f32⟩
  | .local _ .vmem, ⟨46, _⟩ => ⟨S5000x96, .f32⟩
  | .local _ .vmem, ⟨47, _⟩ => ⟨S5000x96, .f32⟩
  | .local _ .vmem, ⟨48, _⟩ => ⟨S5000x96, .f32⟩
  | .local _ .vmem, ⟨49, _⟩ => ⟨S5000x96, .f32⟩
  | .local _ .vmem, ⟨50, _⟩ => ⟨S96x96, .f32⟩
  | .local _ .vmem, ⟨51, _⟩ => ⟨S1x96, .f32⟩
  | .local _ .vmem, ⟨52, _⟩ => ⟨S96x96, .f32⟩
  | .local _ .vmem, ⟨53, _⟩ => ⟨S1x96, .f32⟩
  | .local _ .vmem, ⟨54, _⟩ => ⟨S5000x96, .f32⟩
  | .local _ .vmem, ⟨55, _⟩ => ⟨S5000x96, .f32⟩
  | .local _ .vmem, ⟨56, _⟩ => ⟨S5000x96, .f32⟩
  | .local _ .vmem, ⟨57, _⟩ => ⟨S5000x96, .f32⟩
  | .local _ .vmem, ⟨58, _⟩ => ⟨S96x96, .f32⟩
  | .local _ .vmem, ⟨59, _⟩ => ⟨S1x96, .f32⟩
  | .local _ .vmem, ⟨60, _⟩ => ⟨S96x96, .f32⟩
  | .local _ .vmem, ⟨61, _⟩ => ⟨S1x96, .f32⟩
  | .local _ .vmem, ⟨62, _⟩ => ⟨S5000x96, .f32⟩
  | .local _ .vmem, ⟨63, _⟩ => ⟨S5000x96, .f32⟩
  | .local _ .vmem, ⟨64, _⟩ => ⟨S1024x96, .f32⟩
  | .local _ .vmem, ⟨65, _⟩ => ⟨S1024x96, .f32⟩
  | .local _ .vmem, ⟨66, _⟩ => ⟨S96x96, .f32⟩
  | .local _ .vmem, ⟨67, _⟩ => ⟨S96x96, .f32⟩
  | .local _ .vmem, ⟨68, _⟩ => ⟨S1x96, .f32⟩
  | .local _ .vmem, ⟨69, _⟩ => ⟨S96x96, .f32⟩
  | .local _ .vmem, ⟨70, _⟩ => ⟨S1x96, .f32⟩
  | .local _ .vmem, ⟨71, _⟩ => ⟨S96x96, .f32⟩
  | .local _ .vmem, ⟨72, _⟩ => ⟨S1x96, .f32⟩
  | .local _ .vmem, ⟨73, _⟩ => ⟨S96x1, .f32⟩
  | .local _ .vmem, ⟨74, _⟩ => ⟨S1x1, .f32⟩
  | .local _ .vmem, ⟨75, _⟩ => ⟨S1024x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_1 : Ref sig .tc := ⟨.hbm, 61, rfl⟩
abbrev main_v26 : Ref sig .tc := ⟨.hbm, 62, rfl⟩
abbrev main_v27 : Ref sig .tc := ⟨.hbm, 63, rfl⟩
abbrev main_c_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_4 : Ref sig .tc := ⟨.hbm, 86, rfl⟩
abbrev main_v48 : Ref sig .tc := ⟨.hbm, 87, rfl⟩
abbrev main_v49 : Ref sig .tc := ⟨.hbm, 88, rfl⟩
abbrev main_c_5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_6 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_7 : Ref sig .tc := ⟨.hbm, 111, rfl⟩
abbrev main_v70 : Ref sig .tc := ⟨.hbm, 112, rfl⟩
abbrev main_v71 : Ref sig .tc := ⟨.hbm, 113, rfl⟩
abbrev main_c_8 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_9 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_10 : Ref sig .tc := ⟨.hbm, 132, rfl⟩
abbrev main_v88 : Ref sig .tc := ⟨.hbm, 133, rfl⟩
abbrev main_v89 : Ref sig .tc := ⟨.hbm, 134, rfl⟩
abbrev main_c_11 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_12 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_13 : Ref sig .tc := ⟨.hbm, 157, rfl⟩
abbrev main_v110 : Ref sig .tc := ⟨.hbm, 158, rfl⟩
abbrev main_v111 : Ref sig .tc := ⟨.hbm, 159, rfl⟩
abbrev main_c_14 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_15 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_16 : Ref sig .tc := ⟨.hbm, 182, rfl⟩
abbrev main_v132 : Ref sig .tc := ⟨.hbm, 183, rfl⟩
abbrev main_v133 : Ref sig .tc := ⟨.hbm, 184, rfl⟩
abbrev main_c_17 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_18 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_19 : Ref sig .tc := ⟨.hbm, 207, rfl⟩
abbrev main_v154 : Ref sig .tc := ⟨.hbm, 208, rfl⟩
abbrev main_v155 : Ref sig .tc := ⟨.hbm, 209, rfl⟩
abbrev main_c_20 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_21 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_22 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_23 : Ref sig .tc := ⟨.hbm, 228, rfl⟩
abbrev main_v171 : Ref sig .tc := ⟨.hbm, 229, rfl⟩
abbrev main_cst_24 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_cst_25 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_26 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_27 : Ref sig .tc := ⟨.hbm, 244, rfl⟩
abbrev main_v183 : Ref sig .tc := ⟨.hbm, 245, rfl⟩
abbrev main_cst_28 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_29 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg6_0 : Ref sig .tc := ⟨.vmem, 70, rfl⟩
abbrev cc8_stg7_0 : Ref sig .tc := ⟨.vmem, 71, rfl⟩
abbrev cc8_stg8_0 : Ref sig .tc := ⟨.vmem, 72, rfl⟩
abbrev cc8_stg9_0 : Ref sig .tc := ⟨.vmem, 73, rfl⟩
abbrev cc8_stg10_0 : Ref sig .tc := ⟨.vmem, 74, rfl⟩
abbrev cc8_stg11_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem7_0 : DmaSem sig := 71
abbrev cc8_sem8_0 : DmaSem sig := 72
abbrev cc8_sem9_0 : DmaSem sig := 73
abbrev cc8_sem10_0 : DmaSem sig := 74
abbrev cc8_sem11_0 : DmaSem sig := 75

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x96 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S96x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x96 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S96x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x96 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S96x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S96x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x96 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x96 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1024x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S96x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S96x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x96 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S96x96 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x96 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S96x96 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x96 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S96x1 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x1 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1024x1 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  shapeCasts_S96_S1x96 : S96.ShapeCasts S1x96
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S_S100000x96 : S_.BroadcastsInDim S100000x96 (![] : Fin 0 → Fin S100000x96.rank)
  shapeCasts_S5000x96_S5000x96 : S5000x96.ShapeCasts S5000x96
  shapeCasts_S96x96_S96x96 : S96x96.ShapeCasts S96x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S1024x96 : S_.BroadcastsInDim S1024x96 (![] : Fin 0 → Fin S1024x96.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x96_0_1 : S1024x1.BroadcastsInDim S1024x96 (![0, 1] : Fin 2 → Fin S1024x96.rank)
  slices_S192x96_S96x96_0_0 : S192x96.Slices ![0, 0] S96x96
  slices_S192x96_S96x96_96_0 : S192x96.Slices ![96, 0] S96x96
  shapeCasts_S1_S1x1 : S1.ShapeCasts S1x1
  inb_S1024x96_S1024x96_0_0 : ∀ a, (![0, 0] : Fin 2 → Nat) a + S1024x96.size a ≤ S1024x96.size a
  h_S1024x96 : 0 < S1024x96.numel
  shapeCasts_S1024x96_S1024x96 : S1024x96.ShapeCasts S1024x96
  broadcasts_S1x96_S1024x96 : S1x96.Broadcasts S1024x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x96_S5000x96_1_0_0_1_n_n_wf : DotDims.WF S5000x64 S64x96 S5000x96 [1] [0] [0] [1] [] []
  dot_S5000x96_S96x96_S5000x96_1_0_0_1_n_n_wf : DotDims.WF S5000x96 S96x96 S5000x96 [1] [0] [0] [1] [] []
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S1024x96_S100000x1_S100000x96_1_0_0_1_wf : ScatterDims.WF S1024x96 S100000x1 S100000x96 [1] [0] [0] 1
  scatter_S1024_S100000x1_S100000_n_0_0_1_wf : ScatterDims.WF S1024 S100000x1 S100000 [] [0] [0] 1
  dot_S1024x96_S96x96_S1024x96_1_0_0_1_n_n_wf : DotDims.WF S1024x96 S96x96 S1024x96 [1] [0] [0] [1] [] []
  dot_S1024x96_S96x1_S1024x1_1_0_0_1_n_n_wf : DotDims.WF S1024x96 S96x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S100000x96.size a
  hwx0_5 : ∀ i : grid0.Coords, EltTy.bits .f32 = 32 ∨ (Rect.block (s := S100000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S100000x96.size a
  hwx1_5 : ∀ i : grid1.Coords, EltTy.bits .f32 = 32 ∨ (Rect.block (s := S100000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S100000x96.size a
  hwx2_0 : ∀ i : grid2.Coords, EltTy.bits .f32 = 32 ∨ (Rect.block (s := S100000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S100000x96.size a
  hwx2_5 : ∀ i : grid2.Coords, EltTy.bits .f32 = 32 ∨ (Rect.block (s := S100000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S100000x96.size a
  hwx3_0 : ∀ i : grid3.Coords, EltTy.bits .f32 = 32 ∨ (Rect.block (s := S100000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x96.size a ≤ S96x96.size a
  hwx3_3 : ∀ i : grid3.Coords, EltTy.bits .f32 = 32 ∨ (Rect.block (s := S96x96) S96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S100000x96.size a
  hwx3_5 : ∀ i : grid3.Coords, EltTy.bits .f32 = 32 ∨ (Rect.block (s := S100000x96) S5000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x96.size a ≤ S64x96.size a
  hwx4_1 : ∀ i : grid4.Coords, EltTy.bits .f32 = 32 ∨ (Rect.block (s := S64x96) S64x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x96.size a ≤ S96x96.size a
  hwx4_3 : ∀ i : grid4.Coords, EltTy.bits .f32 = 32 ∨ (Rect.block (s := S96x96) S96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x96.size a ≤ S100000x96.size a
  hwx4_5 : ∀ i : grid4.Coords, EltTy.bits .f32 = 32 ∨ (Rect.block (s := S100000x96) S5000x96.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S100000x96.size a
  hwx5_0 : ∀ i : grid5.Coords, EltTy.bits .f32 = 32 ∨ (Rect.block (s := S100000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96x96.size a ≤ S96x96.size a
  hwx5_1 : ∀ i : grid5.Coords, EltTy.bits .f32 = 32 ∨ (Rect.block (s := S96x96) S96x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S96x96.size a ≤ S96x96.size a
  hwx5_3 : ∀ i : grid5.Coords, EltTy.bits .f32 = 32 ∨ (Rect.block (s := S96x96) S96x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x96.size a ≤ S1x96.size a
  hwx5_4 : ∀ i : grid5.Coords, EltTy.bits .f32 = 32 ∨ (Rect.block (s := S1x96) S1x96.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x96.size a ≤ S100000x96.size a
  hwx5_5 : ∀ i : grid5.Coords, EltTy.bits .f32 = 32 ∨ (Rect.block (s := S100000x96) S5000x96.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S100000x96.size a
  hwx6_0 : ∀ i : grid6.Coords, EltTy.bits .f32 = 32 ∨ (Rect.block (s := S100000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S96x96.size a ≤ S96x96.size a
  hwx6_3 : ∀ i : grid6.Coords, EltTy.bits .f32 = 32 ∨ (Rect.block (s := S96x96) S96x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x96.size a ≤ S100000x96.size a
  hwx6_5 : ∀ i : grid6.Coords, EltTy.bits .f32 = 32 ∨ (Rect.block (s := S100000x96) S5000x96.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S100000x96.size a
  hwx7_0 : ∀ i : grid7.Coords, EltTy.bits .f32 = 32 ∨ (Rect.block (s := S100000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x96.size a ≤ S96x96.size a
  hwx7_1 : ∀ i : grid7.Coords, EltTy.bits .f32 = 32 ∨ (Rect.block (s := S96x96) S96x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S96x96.size a ≤ S96x96.size a
  hwx7_3 : ∀ i : grid7.Coords, EltTy.bits .f32 = 32 ∨ (Rect.block (s := S96x96) S96x96.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x96.size a ≤ S1x96.size a
  hwx7_4 : ∀ i : grid7.Coords, EltTy.bits .f32 = 32 ∨ (Rect.block (s := S1x96) S1x96.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x96.size a ≤ S100000x96.size a
  hwx7_5 : ∀ i : grid7.Coords, EltTy.bits .f32 = 32 ∨ (Rect.block (s := S100000x96) S5000x96.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x96.size a ≤ S1024x96.size a
  hwx8_0 : ∀ i : grid8.Coords, EltTy.bits .f32 = 32 ∨ (Rect.block (s := S1024x96) S1024x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x96.size a ≤ S1024x96.size a
  hwx8_1 : ∀ i : grid8.Coords, EltTy.bits .f32 = 32 ∨ (Rect.block (s := S1024x96) S1024x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S96x96.size a ≤ S96x96.size a
  hwx8_2 : ∀ i : grid8.Coords, EltTy.bits .f32 = 32 ∨ (Rect.block (s := S96x96) S96x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S96x96.size a ≤ S96x96.size a
  hwx8_3 : ∀ i : grid8.Coords, EltTy.bits .f32 = 32 ∨ (Rect.block (s := S96x96) S96x96.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x96.size a ≤ S1x96.size a
  hwx8_4 : ∀ i : grid8.Coords, EltTy.bits .f32 = 32 ∨ (Rect.block (s := S1x96) S1x96.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S96x96.size a ≤ S96x96.size a
  hwx8_5 : ∀ i : grid8.Coords, EltTy.bits .f32 = 32 ∨ (Rect.block (s := S96x96) S96x96.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x96.size a ≤ S1x96.size a
  hwx8_6 : ∀ i : grid8.Coords, EltTy.bits .f32 = 32 ∨ (Rect.block (s := S1x96) S1x96.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S96x96.size a ≤ S96x96.size a
  hwx8_7 : ∀ i : grid8.Coords, EltTy.bits .f32 = 32 ∨ (Rect.block (s := S96x96) S96x96.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x96.size a ≤ S1x96.size a
  hwx8_8 : ∀ i : grid8.Coords, EltTy.bits .f32 = 32 ∨ (Rect.block (s := S1x96) S1x96.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S96x1.size a ≤ S96x1.size a
  hwx8_9 : ∀ i : grid8.Coords, EltTy.bits .f32 = 32 ∨ (Rect.block (s := S96x1) S96x1.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x1.size a ≤ S1x1.size a
  hwx8_10 : ∀ i : grid8.Coords, EltTy.bits .f32 = 32 ∨ (Rect.block (s := S1x1) S1x1.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1024x1.size a ≤ S1024x1.size a
  hwx8_11 : ∀ i : grid8.Coords, EltTy.bits .f32 = 32 ∨ (Rect.block (s := S1024x1) S1024x1.size (cc8_transform_11 i) (hinb8_11 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S1024x96_S100000x1_S100000x96_1_0_0_1 : ScatterDims S1024x96 S100000x1 S100000x96 where
  updateWindowDims := [1]
  insertedWindowDims := [0]
  scatterDimsToOperandDims := [0]
  indexVectorDim := 1
  wf := scatter_S1024x96_S100000x1_S100000x96_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x96_S96x96_S1024x96_1_0_0_1_n_n : DotDims S1024x96 S96x96 S1024x96 where
  lhsContracting := [1]
  rhsContracting := [0]
  lhsNonContracting := [0]
  rhsNonContracting := [1]
  lhsBatch := []
  rhsBatch := []
  wf := dot_S1024x96_S96x96_S1024x96_1_0_0_1_n_n_wf
def dot_S1024x96_S96x1_S1024x1_1_0_0_1_n_n : DotDims S1024x96 S96x1 S1024x1 where
  lhsContracting := [1]
  rhsContracting := [0]
  lhsNonContracting := [0]
  rhsNonContracting := [1]
  lhsBatch := []
  rhsBatch := []
  wf := dot_S1024x96_S96x1_S1024x1_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S5000x96.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v120) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S96x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S96x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S1x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v123) S5000x96.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v142) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v143) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S96x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v144) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v145) S5000x96.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v164) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v147) S96x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v165) S1x96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v151) S96x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v166) S1x96.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v167) S5000x96.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v179) S1024x96.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v191) S1024x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v192) S96x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v193) S96x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v194) S1x96.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg22) S96x96.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v195) S1x96.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg24) S96x96.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v196) S1x96.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_arg26) S96x1.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v197) S1x1.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v198) S1024x1.size cc8_transform_11 reads8_11 true true 1 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

class Facts : Prop extends Facts₀ where

variable [Facts]
-- ==== ReferenceIdeal.lean ====
abbrev S100000x64 : Shape := ⟨2, ![100000, 64]⟩
abbrev S800000x16 : Shape := ⟨2, ![800000, 16]⟩
abbrev S64x96 : Shape := ⟨2, ![64, 96]⟩
abbrev S96 : Shape := ⟨1, ![96]⟩
abbrev S96x96 : Shape := ⟨2, ![96, 96]⟩
abbrev S3x96x96 : Shape := ⟨3, ![3, 96, 96]⟩
abbrev S3x96 : Shape := ⟨2, ![3, 96]⟩
abbrev S192x96 : Shape := ⟨2, ![192, 96]⟩
abbrev S96x1 : Shape := ⟨2, ![96, 1]⟩
abbrev S1 : Shape := ⟨1, ![1]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000x96 : Shape := ⟨2, ![100000, 96]⟩
abbrev S1x96 : Shape := ⟨2, ![1, 96]⟩
abbrev S1x96x96 : Shape := ⟨3, ![1, 96, 96]⟩
abbrev S800000x96 : Shape := ⟨2, ![800000, 96]⟩
abbrev S1024x96 : Shape := ⟨2, ![1024, 96]⟩
abbrev S100000x1 : Shape := ⟨2, ![100000, 1]⟩
abbrev S1024 : Shape := ⟨1, ![1024]⟩
abbrev S1024x1 : Shape := ⟨2, ![1024, 1]⟩
abbrev S1024x192 : Shape := ⟨2, ![1024, 192]⟩
abbrev S1x1 : Shape := ⟨2, ![1, 1]⟩

abbrev nBuf : Space → Nat
  | .hbm => 364
  | .vmem => 0
  | .smem => 0
  | _ => 0

abbrev hbmTy0_0 (i : Nat) : BufTy := match i % 128 with
  | 0 => ⟨S100000x64, .f32⟩
  | 1 => ⟨S100000x64, .f32⟩
  | 2 => ⟨S800000x16, .f32⟩
  | 3 => ⟨S800000x16, .f32⟩
  | 4 => ⟨S64x96, .f32⟩
  | 5 => ⟨S96, .f32⟩
  | 6 => ⟨S96x96, .f32⟩
  | 7 => ⟨S96, .f32⟩
  | 8 => ⟨S3x96x96, .f32⟩
  | 9 => ⟨S3x96, .f32⟩
  | 10 => ⟨S3x96x96, .f32⟩
  | 11 => ⟨S3x96, .f32⟩
  | 12 => ⟨S64x96, .f32⟩
  | 13 => ⟨S96, .f32⟩
  | 14 => ⟨S96x96, .f32⟩
  | 15 => ⟨S96, .f32⟩
  | 16 => ⟨S3x96x96, .f32⟩
  | 17 => ⟨S3x96, .f32⟩
  | 18 => ⟨S3x96x96, .f32⟩
  | 19 => ⟨S3x96, .f32⟩
  | 20 => ⟨S192x96, .f32⟩
  | 21 => ⟨S96, .f32⟩
  | 22 => ⟨S96x96, .f32⟩
  | 23 => ⟨S96, .f32⟩
  | 24 => ⟨S96x96, .f32⟩
  | 25 => ⟨S96, .f32⟩
  | 26 => ⟨S96x1, .f32⟩
  | 27 => ⟨S1, .f32⟩
  | 28 => ⟨S2x800000, .i32⟩
  | 29 => ⟨S2x800000, .i32⟩
  | 30 => ⟨S100000, .i32⟩
  | 31 => ⟨S100000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S_, .f32⟩
  | 46 => ⟨S100000x64, .f32⟩
  | 47 => ⟨S800000x1, .i32⟩
  | 48 => ⟨S100000x64, .f32⟩
  | 49 => ⟨S100000x64, .f32⟩
  | 50 => ⟨S100000x96, .f32⟩
  | 51 => ⟨S1x96, .f32⟩
  | 52 => ⟨S100000x96, .f32⟩
  | 53 => ⟨S100000x96, .f32⟩
  | 54 => ⟨S_, .f32⟩
  | 55 => ⟨S100000x96, .f32⟩
  | 56 => ⟨S100000x96, .f32⟩
  | 57 => ⟨S100000x96, .f32⟩
  | 58 => ⟨S1x96, .f32⟩
  | 59 => ⟨S100000x96, .f32⟩
  | 60 => ⟨S100000x96, .f32⟩
  | 61 => ⟨S_, .f32⟩
  | 62 => ⟨S100000x96, .f32⟩
  | 63 => ⟨S100000x96, .f32⟩
  | 64 => ⟨S1x96x96, .f32⟩
  | 65 => ⟨S96x96, .f32⟩
  | 66 => ⟨S1x96, .f32⟩
  | 67 => ⟨S96, .f32⟩
  | 68 => ⟨S1x96x96, .f32⟩
  | 69 => ⟨S96x96, .f32⟩
  | 70 => ⟨S1x96, .f32⟩
  | 71 => ⟨S96, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x96, .f32⟩
  | 81 => ⟨S_, .f32⟩
  | 82 => ⟨S100000x96, .f32⟩
  | 83 => ⟨S800000x1, .i32⟩
  | 84 => ⟨S100000x96, .f32⟩
  | 85 => ⟨S100000x96, .f32⟩
  | 86 => ⟨S100000x96, .f32⟩
  | 87 => ⟨S1x96, .f32⟩
  | 88 => ⟨S100000x96, .f32⟩
  | 89 => ⟨S100000x96, .f32⟩
  | 90 => ⟨S_, .f32⟩
  | 91 => ⟨S100000x96, .f32⟩
  | 92 => ⟨S100000x96, .f32⟩
  | 93 => ⟨S100000x96, .f32⟩
  | 94 => ⟨S1x96, .f32⟩
  | 95 => ⟨S100000x96, .f32⟩
  | 96 => ⟨S100000x96, .f32⟩
  | 97 => ⟨S_, .f32⟩
  | 98 => ⟨S100000x96, .f32⟩
  | 99 => ⟨S100000x96, .f32⟩
  | 100 => ⟨S1x96x96, .f32⟩
  | 101 => ⟨S96x96, .f32⟩
  | 102 => ⟨S1x96, .f32⟩
  | 103 => ⟨S96, .f32⟩
  | 104 => ⟨S1x96x96, .f32⟩
  | 105 => ⟨S96x96, .f32⟩
  | 106 => ⟨S1x96, .f32⟩
  | 107 => ⟨S96, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x96, .f32⟩
  | 117 => ⟨S_, .f32⟩
  | 118 => ⟨S100000x96, .f32⟩
  | 119 => ⟨S800000x1, .i32⟩
  | 120 => ⟨S100000x96, .f32⟩
  | 121 => ⟨S100000x96, .f32⟩
  | 122 => ⟨S100000x96, .f32⟩
  | 123 => ⟨S1x96, .f32⟩
  | 124 => ⟨S100000x96, .f32⟩
  | 125 => ⟨S100000x96, .f32⟩
  | 126 => ⟨S_, .f32⟩
  | 127 => ⟨S100000x96, .f32⟩
  | _ => ⟨S100000x64, .f32⟩

abbrev hbmTy0_1 (i : Nat) : BufTy := match i % 128 with
  | 0 => ⟨S100000x96, .f32⟩
  | 1 => ⟨S100000x96, .f32⟩
  | 2 => ⟨S1x96, .f32⟩
  | 3 => ⟨S100000x96, .f32⟩
  | 4 => ⟨S100000x96, .f32⟩
  | 5 => ⟨S_, .f32⟩
  | 6 => ⟨S100000x96, .f32⟩
  | 7 => ⟨S100000x96, .f32⟩
  | 8 => ⟨S1x96x96, .f32⟩
  | 9 => ⟨S96x96, .f32⟩
  | 10 => ⟨S1x96, .f32⟩
  | 11 => ⟨S96, .f32⟩
  | 12 => ⟨S1x96x96, .f32⟩
  | 13 => ⟨S96x96, .f32⟩
  | 14 => ⟨S1x96, .f32⟩
  | 15 => ⟨S96, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x96, .f32⟩
  | 25 => ⟨S_, .f32⟩
  | 26 => ⟨S100000x96, .f32⟩
  | 27 => ⟨S800000x1, .i32⟩
  | 28 => ⟨S100000x96, .f32⟩
  | 29 => ⟨S100000x96, .f32⟩
  | 30 => ⟨S100000x96, .f32⟩
  | 31 => ⟨S1x96, .f32⟩
  | 32 => ⟨S100000x96, .f32⟩
  | 33 => ⟨S100000x96, .f32⟩
  | 34 => ⟨S_, .f32⟩
  | 35 => ⟨S100000x96, .f32⟩
  | 36 => ⟨S100000x96, .f32⟩
  | 37 => ⟨S100000x96, .f32⟩
  | 38 => ⟨S1x96, .f32⟩
  | 39 => ⟨S100000x96, .f32⟩
  | 40 => ⟨S100000x96, .f32⟩
  | 41 => ⟨S1x800000, .i32⟩
  | 42 => ⟨S800000, .i32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S100000x64, .f32⟩
  | 56 => ⟨S800000x1, .i32⟩
  | 57 => ⟨S100000x64, .f32⟩
  | 58 => ⟨S100000x64, .f32⟩
  | 59 => ⟨S100000x96, .f32⟩
  | 60 => ⟨S1x96, .f32⟩
  | 61 => ⟨S100000x96, .f32⟩
  | 62 => ⟨S100000x96, .f32⟩
  | 63 => ⟨S_, .f32⟩
  | 64 => ⟨S100000x96, .f32⟩
  | 65 => ⟨S100000x96, .f32⟩
  | 66 => ⟨S100000x96, .f32⟩
  | 67 => ⟨S1x96, .f32⟩
  | 68 => ⟨S100000x96, .f32⟩
  | 69 => ⟨S100000x96, .f32⟩
  | 70 => ⟨S_, .f32⟩
  | 71 => ⟨S100000x96, .f32⟩
  | 72 => ⟨S100000x96, .f32⟩
  | 73 => ⟨S1x96x96, .f32⟩
  | 74 => ⟨S96x96, .f32⟩
  | 75 => ⟨S1x96, .f32⟩
  | 76 => ⟨S96, .f32⟩
  | 77 => ⟨S1x96x96, .f32⟩
  | 78 => ⟨S96x96, .f32⟩
  | 79 => ⟨S1x96, .f32⟩
  | 80 => ⟨S96, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x96, .f32⟩
  | 90 => ⟨S_, .f32⟩
  | 91 => ⟨S100000x96, .f32⟩
  | 92 => ⟨S800000x1, .i32⟩
  | 93 => ⟨S100000x96, .f32⟩
  | 94 => ⟨S100000x96, .f32⟩
  | 95 => ⟨S100000x96, .f32⟩
  | 96 => ⟨S1x96, .f32⟩
  | 97 => ⟨S100000x96, .f32⟩
  | 98 => ⟨S100000x96, .f32⟩
  | 99 => ⟨S_, .f32⟩
  | 100 => ⟨S100000x96, .f32⟩
  | 101 => ⟨S100000x96, .f32⟩
  | 102 => ⟨S100000x96, .f32⟩
  | 103 => ⟨S1x96, .f32⟩
  | 104 => ⟨S100000x96, .f32⟩
  | 105 => ⟨S100000x96, .f32⟩
  | 106 => ⟨S_, .f32⟩
  | 107 => ⟨S100000x96, .f32⟩
  | 108 => ⟨S100000x96, .f32⟩
  | 109 => ⟨S1x96x96, .f32⟩
  | 110 => ⟨S96x96, .f32⟩
  | 111 => ⟨S1x96, .f32⟩
  | 112 => ⟨S96, .f32⟩
  | 113 => ⟨S1x96x96, .f32⟩
  | 114 => ⟨S96x96, .f32⟩
  | 115 => ⟨S1x96, .f32⟩
  | 116 => ⟨S96, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x96, .f32⟩
  | 126 => ⟨S_, .f32⟩
  | 127 => ⟨S100000x96, .f32⟩
  | _ => ⟨S100000x64, .f32⟩

abbrev hbmTy0_2 (i : Nat) : BufTy := match i % 128 with
  | 0 => ⟨S800000x1, .i32⟩
  | 1 => ⟨S100000x96, .f32⟩
  | 2 => ⟨S100000x96, .f32⟩
  | 3 => ⟨S100000x96, .f32⟩
  | 4 => ⟨S1x96, .f32⟩
  | 5 => ⟨S100000x96, .f32⟩
  | 6 => ⟨S100000x96, .f32⟩
  | 7 => ⟨S_, .f32⟩
  | 8 => ⟨S100000x96, .f32⟩
  | 9 => ⟨S100000x96, .f32⟩
  | 10 => ⟨S100000x96, .f32⟩
  | 11 => ⟨S1x96, .f32⟩
  | 12 => ⟨S100000x96, .f32⟩
  | 13 => ⟨S100000x96, .f32⟩
  | 14 => ⟨S_, .f32⟩
  | 15 => ⟨S100000x96, .f32⟩
  | 16 => ⟨S100000x96, .f32⟩
  | 17 => ⟨S1x96x96, .f32⟩
  | 18 => ⟨S96x96, .f32⟩
  | 19 => ⟨S1x96, .f32⟩
  | 20 => ⟨S96, .f32⟩
  | 21 => ⟨S1x96x96, .f32⟩
  | 22 => ⟨S96x96, .f32⟩
  | 23 => ⟨S1x96, .f32⟩
  | 24 => ⟨S96, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x96, .f32⟩
  | 34 => ⟨S_, .f32⟩
  | 35 => ⟨S100000x96, .f32⟩
  | 36 => ⟨S800000x1, .i32⟩
  | 37 => ⟨S100000x96, .f32⟩
  | 38 => ⟨S100000x96, .f32⟩
  | 39 => ⟨S100000x96, .f32⟩
  | 40 => ⟨S1x96, .f32⟩
  | 41 => ⟨S100000x96, .f32⟩
  | 42 => ⟨S100000x96, .f32⟩
  | 43 => ⟨S_, .f32⟩
  | 44 => ⟨S100000x96, .f32⟩
  | 45 => ⟨S100000x96, .f32⟩
  | 46 => ⟨S100000x96, .f32⟩
  | 47 => ⟨S1x96, .f32⟩
  | 48 => ⟨S100000x96, .f32⟩
  | 49 => ⟨S100000x96, .f32⟩
  | 50 => ⟨S_, .f32⟩
  | 51 => ⟨S1024x96, .f32⟩
  | 52 => ⟨S100000x1, .i32⟩
  | 53 => ⟨S1024x96, .f32⟩
  | 54 => ⟨S_, .f32⟩
  | 55 => ⟨S100000, .f32⟩
  | 56 => ⟨S_, .f32⟩
  | 57 => ⟨S1024, .f32⟩
  | 58 => ⟨S100000x1, .i32⟩
  | 59 => ⟨S1024, .f32⟩
  | 60 => ⟨S_, .f32⟩
  | 61 => ⟨S1024, .f32⟩
  | 62 => ⟨S1024, .f32⟩
  | 63 => ⟨S1024x1, .f32⟩
  | 64 => ⟨S1024x96, .f32⟩
  | 65 => ⟨S1024x96, .f32⟩
  | 66 => ⟨S_, .f32⟩
  | 67 => ⟨S1024x96, .f32⟩
  | 68 => ⟨S100000x1, .i32⟩
  | 69 => ⟨S1024x96, .f32⟩
  | 70 => ⟨S_, .f32⟩
  | 71 => ⟨S100000, .f32⟩
  | 72 => ⟨S_, .f32⟩
  | 73 => ⟨S1024, .f32⟩
  | 74 => ⟨S100000x1, .i32⟩
  | 75 => ⟨S1024, .f32⟩
  | 76 => ⟨S_, .f32⟩
  | 77 => ⟨S1024, .f32⟩
  | 78 => ⟨S1024, .f32⟩
  | 79 => ⟨S1024x1, .f32⟩
  | 80 => ⟨S1024x96, .f32⟩
  | 81 => ⟨S1024x96, .f32⟩
  | 82 => ⟨S1024x192, .f32⟩
  | 83 => ⟨S1024x96, .f32⟩
  | 84 => ⟨S1x96, .f32⟩
  | 85 => ⟨S1024x96, .f32⟩
  | 86 => ⟨S1024x96, .f32⟩
  | 87 => ⟨S_, .f32⟩
  | 88 => ⟨S1024x96, .f32⟩
  | 89 => ⟨S1024x96, .f32⟩
  | 90 => ⟨S1024x96, .f32⟩
  | 91 => ⟨S1x96, .f32⟩
  | 92 => ⟨S1024x96, .f32⟩
  | 93 => ⟨S1024x96, .f32⟩
  | 94 => ⟨S_, .f32⟩
  | 95 => ⟨S1024x96, .f32⟩
  | 96 => ⟨S1024x96, .f32⟩
  | 97 => ⟨S1024x96, .f32⟩
  | 98 => ⟨S1x96, .f32⟩
  | 99 => ⟨S1024x96, .f32⟩
  | 100 => ⟨S1024x96, .f32⟩
  | 101 => ⟨S_, .f32⟩
  | 102 => ⟨S1024x96, .f32⟩
  | 103 => ⟨S1024x96, .f32⟩
  | 104 => ⟨S1024x1, .f32⟩
  | 105 => ⟨S1x1, .f32⟩
  | 106 => ⟨S1024x1, .f32⟩
  | 107 => ⟨S1024x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call0_cst : Ref sig .tc := ⟨.hbm, 61, rfl⟩
abbrev main_call0_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_2 : Ref sig .tc := ⟨.hbm, 72, rfl⟩
abbrev main_v34 : Ref sig .tc := ⟨.hbm, 73, rfl⟩
abbrev main_v35 : Ref sig .tc := ⟨.hbm, 74, rfl⟩
abbrev main_c_3 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_4 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_5 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call1_cst : Ref sig .tc := ⟨.hbm, 97, rfl⟩
abbrev main_call1_v0 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_6 : Ref sig .tc := ⟨.hbm, 108, rfl⟩
abbrev main_v64 : Ref sig .tc := ⟨.hbm, 109, rfl⟩
abbrev main_v65 : Ref sig .tc := ⟨.hbm, 110, rfl⟩
abbrev main_c_7 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_8 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_9 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call2_cst : Ref sig .tc := ⟨.hbm, 133, rfl⟩
abbrev main_call2_v0 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_10 : Ref sig .tc := ⟨.hbm, 144, rfl⟩
abbrev main_v94 : Ref sig .tc := ⟨.hbm, 145, rfl⟩
abbrev main_v95 : Ref sig .tc := ⟨.hbm, 146, rfl⟩
abbrev main_c_11 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_12 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_13 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_14 : Ref sig .tc := ⟨.hbm, 173, rfl⟩
abbrev main_v119 : Ref sig .tc := ⟨.hbm, 174, rfl⟩
abbrev main_v120 : Ref sig .tc := ⟨.hbm, 175, rfl⟩
abbrev main_c_15 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_16 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_17 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_call3_cst : Ref sig .tc := ⟨.hbm, 198, rfl⟩
abbrev main_call3_v0 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_18 : Ref sig .tc := ⟨.hbm, 209, rfl⟩
abbrev main_v149 : Ref sig .tc := ⟨.hbm, 210, rfl⟩
abbrev main_v150 : Ref sig .tc := ⟨.hbm, 211, rfl⟩
abbrev main_c_19 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_20 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_cst_21 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_call4_cst : Ref sig .tc := ⟨.hbm, 234, rfl⟩
abbrev main_call4_v0 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_c_22 : Ref sig .tc := ⟨.hbm, 245, rfl⟩
abbrev main_v179 : Ref sig .tc := ⟨.hbm, 246, rfl⟩
abbrev main_v180 : Ref sig .tc := ⟨.hbm, 247, rfl⟩
abbrev main_c_23 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_cst_24 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_cst_25 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_call5_cst : Ref sig .tc := ⟨.hbm, 270, rfl⟩
abbrev main_call5_v0 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_c_26 : Ref sig .tc := ⟨.hbm, 281, rfl⟩
abbrev main_v209 : Ref sig .tc := ⟨.hbm, 282, rfl⟩
abbrev main_v210 : Ref sig .tc := ⟨.hbm, 283, rfl⟩
abbrev main_c_27 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_cst_28 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_cst_29 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_cst_30 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_cst_31 : Ref sig .tc := ⟨.hbm, 310, rfl⟩
abbrev main_v233 : Ref sig .tc := ⟨.hbm, 311, rfl⟩
abbrev main_cst_32 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_cst_33 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_cst_34 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_cst_35 : Ref sig .tc := ⟨.hbm, 326, rfl⟩
abbrev main_v245 : Ref sig .tc := ⟨.hbm, 327, rfl⟩
abbrev main_cst_36 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_cst_37 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_cst_38 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_cst_39 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_40 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  bcast_S_S100000x96 : S_.BroadcastsInDim S100000x96 (![] : Fin 0 → Fin S100000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S1024x96 : S_.BroadcastsInDim S1024x96 (![] : Fin 0 → Fin S1024x96.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x96_0_1 : S1024x1.BroadcastsInDim S1024x96 (![0, 1] : Fin 2 → Fin S1024x96.rank)
  concatenates_S1024x96_S1024x96_S1024x192_d1 : Shape.Concatenates [S1024x96, S1024x96] S1024x192 1
  bcast_S1x96_S1024x96_0_1 : S1x96.BroadcastsInDim S1024x96 (![0, 1] : Fin 2 → Fin S1024x96.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x96_S100000x96_1_0_0_1_n_n_wf : DotDims.WF S100000x64 S64x96 S100000x96 [1] [0] [0] [1] [] []
  dot_S100000x96_S96x96_S100000x96_1_0_0_1_n_n_wf : DotDims.WF S100000x96 S96x96 S100000x96 [1] [0] [0] [1] [] []
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S1024x96_S100000x1_S100000x96_1_0_0_1_wf : ScatterDims.WF S1024x96 S100000x1 S100000x96 [1] [0] [0] 1
  scatter_S1024_S100000x1_S100000_n_0_0_1_wf : ScatterDims.WF S1024 S100000x1 S100000 [] [0] [0] 1
  dot_S1024x192_S192x96_S1024x96_1_0_0_1_n_n_wf : DotDims.WF S1024x192 S192x96 S1024x96 [1] [0] [0] [1] [] []
  dot_S1024x96_S96x96_S1024x96_1_0_0_1_n_n_wf : DotDims.WF S1024x96 S96x96 S1024x96 [1] [0] [0] [1] [] []
  dot_S1024x96_S96x1_S1024x1_1_0_0_1_n_n_wf : DotDims.WF S1024x96 S96x1 S1024x1 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x96_S100000x96_1_0_0_1_n_n : DotDims S100000x64 S64x96 S100000x96 where
  lhsContracting := [1]
  rhsContracting := [0]
  lhsNonContracting := [0]
  rhsNonContracting := [1]
  lhsBatch := []
  rhsBatch := []
  wf := dot_S100000x64_S64x96_S100000x96_1_0_0_1_n_n_wf
def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S1024x96_S100000x1_S100000x96_1_0_0_1 : ScatterDims S1024x96 S100000x1 S100000x96 where
  updateWindowDims := [1]
  insertedWindowDims := [0]
  scatterDimsToOperandDims := [0]
  indexVectorDim := 1
  wf := scatter_S1024x96_S100000x1_S100000x96_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x192_S192x96_S1024x96_1_0_0_1_n_n : DotDims S1024x192 S192x96 S1024x96 where
  lhsContracting := [1]
  rhsContracting := [0]
  lhsNonContracting := [0]
  rhsNonContracting := [1]
  lhsBatch := []
  rhsBatch := []
  wf := dot_S1024x192_S192x96_S1024x96_1_0_0_1_n_n_wf
def dot_S1024x96_S96x96_S1024x96_1_0_0_1_n_n : DotDims S1024x96 S96x96 S1024x96 where
  lhsContracting := [1]
  rhsContracting := [0]
  lhsNonContracting := [0]
  rhsNonContracting := [1]
  lhsBatch := []
  rhsBatch := []
  wf := dot_S1024x96_S96x96_S1024x96_1_0_0_1_n_n_wf
def dot_S1024x96_S96x1_S1024x1_1_0_0_1_n_n : DotDims S1024x96 S96x1 S1024x1 where
  lhsContracting := [1]
  rhsContracting := [0]
  lhsNonContracting := [0]
  rhsNonContracting := [1]
  lhsBatch := []
  rhsBatch := []
  wf := dot_S1024x96_S96x1_S1024x1_1_0_0_1_n_n_wf

class Facts : Prop extends Facts₀ where

variable [Facts]
-- ==== Proof.KRun.lean ====
/-
  The idealized kernel program's run with its RESULT kept: every weakly fair execution of @main terminates, nothing
  faulting, the argument arrays unchanged, and the result buffer holds what the last segment boundary's contents
  assign to it — the fold of the nine host stretches and the nine regions' write-backs from the launch memory.
  The statement differs from the frame only in its first conjunct; the launch over the eighteen segments is the same.
-/
import proofs.«178575_j10024453669558_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main, its result read at the last boundary's contents. -/
theorem run_value : θ_run defs (onTc (τ := τ) (main (F := F))) ⟨m, fun _ => 0, ρ⟩ (fun r => ∀ c : Dev nD,
      r.2.mem ((c.tc : Thread nD τ).loc main_v198) = W18 m ρ c (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v198 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c),
       (h c _ (mem_uc main_arg25 (by decide))).trans (W18_main_arg25 m ρ c),
       (h c _ (mem_uc main_arg26 (by decide))).trans (W18_main_arg26 m ρ c),
       (h c _ (mem_uc main_arg27 (by decide))).trans (W18_main_arg27 m ρ c),
       (h c _ (mem_uc main_arg28 (by decide))).trans (W18_main_arg28 m ρ c),
       (h c _ (mem_uc main_arg29 (by decide))).trans (W18_main_arg29 m ρ c),
       (h c _ (mem_uc main_arg30 (by decide))).trans (W18_main_arg30 m ρ c),
       (h c _ (mem_uc main_arg31 (by decide))).trans (W18_main_arg31 m ρ c)⟩)

end Cert.KernelIdeal.RunValue

end
-- ==== Proof.KKeep.lean ====
/-
  The argument arrays through the program: no host operation writes an argument, and a region either does not touch an
  argument's array or reads it through an input window, which is never written back. So at every segment boundary an
  argument's buffer still holds its launch contents.
-/
import proofs.«178575_j10024453669558_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The thirty-two argument arrays of @main. -/
def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31]

/-- Host stretch 0 writes no argument. -/
theorem keep_s0 (W : Valuation τ sig (Elt F)) (r : Ref sig .tc) (hr : r ∈ argRefs) :
    StableHlo.after hostOps0 W (Proc.devRef .tc r) = W (Proc.devRef .tc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 1 writes no argument. -/
theorem keep_s1 (W : Valuation τ sig (Elt F)) (r : Ref sig .tc) (hr : r ∈ argRefs) :
    StableHlo.after hostOps1 W (Proc.devRef .tc r) = W (Proc.devRef .tc r) :=
  StableHlo.after_of_forall_not_mem (b := Proc.devRef .tc r) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 2 writes no argument. -/
theorem keep_s2 (W : Valuation τ sig (Elt F)) (r : Ref sig .tc) (hr : r ∈ argRefs) :
    StableHlo.after hostOps2 W (Proc.devRef .tc r) = W (Proc.devRef .tc r) :=
  StableHlo.after_of_forall_not_mem (b := Proc.devRef .tc r) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 3 writes no argument. -/
theorem keep_s3 (W : Valuation τ sig (Elt F)) (r : Ref sig .tc) (hr : r ∈ argRefs) :
    StableHlo.after hostOps3 W (Proc.devRef .tc r) = W (Proc.devRef .tc r) :=
  StableHlo.after_of_forall_not_mem (b := Proc.devRef .tc r) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 4 writes no argument. -/
theorem keep_s4 (W : Valuation τ sig (Elt F)) (r : Ref sig .tc) (hr : r ∈ argRefs) :
    StableHlo.after hostOps4 W (Proc.devRef .tc r) = W (Proc.devRef .tc r) :=
  StableHlo.after_of_forall_not_mem (b := Proc.devRef .tc r) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 5 writes no argument. -/
theorem keep_s5 (W : Valuation τ sig (Elt F)) (r : Ref sig .tc) (hr : r ∈ argRefs) :
    StableHlo.after hostOps5 W (Proc.devRef .tc r) = W (Proc.devRef .tc r) :=
  StableHlo.after_of_forall_not_mem (b := Proc.devRef .tc r) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 6 writes no argument. -/
theorem keep_s6 (W : Valuation τ sig (Elt F)) (r : Ref sig .tc) (hr : r ∈ argRefs) :
    StableHlo.after hostOps6 W (Proc.devRef .tc r) = W (Proc.devRef .tc r) :=
  StableHlo.after_of_forall_not_mem (b := Proc.devRef .tc r) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 7 writes no argument. -/
theorem keep_s7 (W : Valuation τ sig (Elt F)) (r : Ref sig .tc) (hr : r ∈ argRefs) :
    StableHlo.after hostOps7 W (Proc.devRef .tc r) = W (Proc.devRef .tc r) :=
  StableHlo.after_of_forall_not_mem (b := Proc.devRef .tc r) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Host stretch 8 writes no argument. -/
theorem keep_s8 (W : Valuation τ sig (Elt F)) (r : Ref sig .tc) (hr : r ∈ argRefs) :
    StableHlo.after hostOps8 W (Proc.devRef .tc r) = W (Proc.devRef .tc r) :=
  StableHlo.after_of_forall_not_mem (b := Proc.devRef .tc r) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hr) (by decide))))

/-- Region 0 leaves every argument as it found it: an argument is not among its arrays, or is the array of an input
    window, which no write-back touches. -/
theorem keep_r0 (c : Dev nD) (r : Ref sig .tc) (hr : r ∈ argRefs) :
    W2 m ρ c (Proc.devRef .tc r) = W1 m ρ c (Proc.devRef .tc r) := by
  by_cases h : ∀ w, Pipeline.arrRef spec0 w ≠ r
  · exact W2_of_ne m ρ c r h
  · obtain ⟨w, hw0⟩ := not_forall.mp h
    obtain rfl := not_not.mp hw0
    have hw : (cfg0.win w).isOut = false := by
      revert hr; revert w; decide
    exact (W2_arr m ρ c w).trans (((dat0 (V1 m ρ) c).arrAt_in w hw _).trans (A_eq0 (V1 m ρ) c w))

/-- Region 1 has no argument among its arrays. -/
theorem keep_r1 (c : Dev nD) (r : Ref sig .tc) (hr : r ∈ argRefs) :
    W4 m ρ c (Proc.devRef .tc r) = W3 m ρ c (Proc.devRef .tc r) :=
  W4_of_ne m ρ c r (fun w e => (by decide : ∀ w : Fin 6, Pipeline.arrRef spec1 w ∉ argRefs) w (e.symm ▸ hr))

/-- Region 2 has no argument among its arrays. -/
theorem keep_r2 (c : Dev nD) (r : Ref sig .tc) (hr : r ∈ argRefs) :
    W6 m ρ c (Proc.devRef .tc r) = W5 m ρ c (Proc.devRef .tc r) :=
  W6_of_ne m ρ c r (fun w e => (by decide : ∀ w : Fin 6, Pipeline.arrRef spec2 w ∉ argRefs) w (e.symm ▸ hr))

/-- Region 3 has no argument among its arrays. -/
theorem keep_r3 (c : Dev nD) (r : Ref sig .tc) (hr : r ∈ argRefs) :
    W8 m ρ c (Proc.devRef .tc r) = W7 m ρ c (Proc.devRef .tc r) :=
  W8_of_ne m ρ c r (fun w e => (by decide : ∀ w : Fin 6, Pipeline.arrRef spec3 w ∉ argRefs) w (e.symm ▸ hr))

/-- Region 4 leaves every argument as it found it: an argument is not among its arrays, or is the array of an input
    window, which no write-back touches. -/
theorem keep_r4 (c : Dev nD) (r : Ref sig .tc) (hr : r ∈ argRefs) :
    W10 m ρ c (Proc.devRef .tc r) = W9 m ρ c (Proc.devRef .tc r) := by
  by_cases h : ∀ w, Pipeline.arrRef spec4 w ≠ r
  · exact W10_of_ne m ρ c r h
  · obtain ⟨w, hw0⟩ := not_forall.mp h
    obtain rfl := not_not.mp hw0
    have hw : (cfg4.win w).isOut = false := by
      revert hr; revert w; decide
    exact (W10_arr m ρ c w).trans (((dat4 (V9 m ρ) c).arrAt_in w hw _).trans (A_eq4 (V9 m ρ) c w))

/-- Region 5 has no argument among its arrays. -/
theorem keep_r5 (c : Dev nD) (r : Ref sig .tc) (hr : r ∈ argRefs) :
    W12 m ρ c (Proc.devRef .tc r) = W11 m ρ c (Proc.devRef .tc r) :=
  W12_of_ne m ρ c r (fun w e => (by decide : ∀ w : Fin 6, Pipeline.arrRef spec5 w ∉ argRefs) w (e.symm ▸ hr))

/-- Region 6 has no argument among its arrays. -/
theorem keep_r6 (c : Dev nD) (r : Ref sig .tc) (hr : r ∈ argRefs) :
    W14 m ρ c (Proc.devRef .tc r) = W13 m ρ c (Proc.devRef .tc r) :=
  W14_of_ne m ρ c r (fun w e => (by decide : ∀ w : Fin 6, Pipeline.arrRef spec6 w ∉ argRefs) w (e.symm ▸ hr))

/-- Region 7 has no argument among its arrays. -/
theorem keep_r7 (c : Dev nD) (r : Ref sig .tc) (hr : r ∈ argRefs) :
    W16 m ρ c (Proc.devRef .tc r) = W15 m ρ c (Proc.devRef .tc r) :=
  W16_of_ne m ρ c r (fun w e => (by decide : ∀ w : Fin 6, Pipeline.arrRef spec7 w ∉ argRefs) w (e.symm ▸ hr))

/-- Region 8 leaves every argument as it found it: an argument is not among its arrays, or is the array of an input
    window, which no write-back touches. -/
theorem keep_r8 (c : Dev nD) (r : Ref sig .tc) (hr : r ∈ argRefs) :
    W18 m ρ c (Proc.devRef .tc r) = W17 m ρ c (Proc.devRef .tc r) := by
  by_cases h : ∀ w, Pipeline.arrRef spec8 w ≠ r
  · exact W18_of_ne m ρ c r h
  · obtain ⟨w, hw0⟩ := not_forall.mp h
    obtain rfl := not_not.mp hw0
    have hw : (cfg8.win w).isOut = false := by
      revert hr; revert w; decide
    exact (W18_arr m ρ c w).trans (((dat8 (V17 m ρ) c).arrAt_in w hw _).trans (A_eq8 (V17 m ρ) c w))

/-! ## At every boundary an argument holds its launch contents -/

theorem args1 (c : Dev nD) (r : Ref sig .tc) (hr : r ∈ argRefs) :
    W1 m ρ c (Proc.devRef .tc r) = m ((c : Thread nD τ).loc r) := keep_s0 (W0 m ρ c) r hr
theorem args2 (c : Dev nD) (r : Ref sig .tc) (hr : r ∈ argRefs) :
    W2 m ρ c (Proc.devRef .tc r) = m ((c : Thread nD τ).loc r) := (keep_r0 m ρ c r hr).trans (args1 m ρ c r hr)
theorem args3 (c : Dev nD) (r : Ref sig .tc) (hr : r ∈ argRefs) :
    W3 m ρ c (Proc.devRef .tc r) = m ((c : Thread nD τ).loc r) := (keep_s1 (W2 m ρ c) r hr).trans (args2 m ρ c r hr)
theorem args4 (c : Dev nD) (r : Ref sig .tc) (hr : r ∈ argRefs) :
    W4 m ρ c (Proc.devRef .tc r) = m ((c : Thread nD τ).loc r) := (keep_r1 m ρ c r hr).trans (args3 m ρ c r hr)
theorem args5 (c : Dev nD) (r : Ref sig .tc) (hr : r ∈ argRefs) :
    W5 m ρ c (Proc.devRef .tc r) = m ((c : Thread nD τ).loc r) := (keep_s2 (W4 m ρ c) r hr).trans (args4 m ρ c r hr)
theorem args6 (c : Dev nD) (r : Ref sig .tc) (hr : r ∈ argRefs) :
    W6 m ρ c (Proc.devRef .tc r) = m ((c : Thread nD τ).loc r) := (keep_r2 m ρ c r hr).trans (args5 m ρ c r hr)
theorem args7 (c : Dev nD) (r : Ref sig .tc) (hr : r ∈ argRefs) :
    W7 m ρ c (Proc.devRef .tc r) = m ((c : Thread nD τ).loc r) := (keep_s3 (W6 m ρ c) r hr).trans (args6 m ρ c r hr)
theorem args8 (c : Dev nD) (r : Ref sig .tc) (hr : r ∈ argRefs) :
    W8 m ρ c (Proc.devRef .tc r) = m ((c : Thread nD τ).loc r) := (keep_r3 m ρ c r hr).trans (args7 m ρ c r hr)
theorem args9 (c : Dev nD) (r : Ref sig .tc) (hr : r ∈ argRefs) :
    W9 m ρ c (Proc.devRef .tc r) = m ((c : Thread nD τ).loc r) := (keep_s4 (W8 m ρ c) r hr).trans (args8 m ρ c r hr)
theorem args10 (c : Dev nD) (r : Ref sig .tc) (hr : r ∈ argRefs) :
    W10 m ρ c (Proc.devRef .tc r) = m ((c : Thread nD τ).loc r) := (keep_r4 m ρ c r hr).trans (args9 m ρ c r hr)
theorem args11 (c : Dev nD) (r : Ref sig .tc) (hr : r ∈ argRefs) :
    W11 m ρ c (Proc.devRef .tc r) = m ((c : Thread nD τ).loc r) := (keep_s5 (W10 m ρ c) r hr).trans (args10 m ρ c r hr)
theorem args12 (c : Dev nD) (r : Ref sig .tc) (hr : r ∈ argRefs) :
    W12 m ρ c (Proc.devRef .tc r) = m ((c : Thread nD τ).loc r) := (keep_r5 m ρ c r hr).trans (args11 m ρ c r hr)
theorem args13 (c : Dev nD) (r : Ref sig .tc) (hr : r ∈ argRefs) :
    W13 m ρ c (Proc.devRef .tc r) = m ((c : Thread nD τ).loc r) := (keep_s6 (W12 m ρ c) r hr).trans (args12 m ρ c r hr)
theorem args14 (c : Dev nD) (r : Ref sig .tc) (hr : r ∈ argRefs) :
    W14 m ρ c (Proc.devRef .tc r) = m ((c : Thread nD τ).loc r) := (keep_r6 m ρ c r hr).trans (args13 m ρ c r hr)
theorem args15 (c : Dev nD) (r : Ref sig .tc) (hr : r ∈ argRefs) :
    W15 m ρ c (Proc.devRef .tc r) = m ((c : Thread nD τ).loc r) := (keep_s7 (W14 m ρ c) r hr).trans (args14 m ρ c r hr)
theorem args16 (c : Dev nD) (r : Ref sig .tc) (hr : r ∈ argRefs) :
    W16 m ρ c (Proc.devRef .tc r) = m ((c : Thread nD τ).loc r) := (keep_r7 m ρ c r hr).trans (args15 m ρ c r hr)
theorem args17 (c : Dev nD) (r : Ref sig .tc) (hr : r ∈ argRefs) :
    W17 m ρ c (Proc.devRef .tc r) = m ((c : Thread nD τ).loc r) := (keep_s8 (W16 m ρ c) r hr).trans (args16 m ρ c r hr)
theorem args18 (c : Dev nD) (r : Ref sig .tc) (hr : r ∈ argRefs) :
    W18 m ρ c (Proc.devRef .tc r) = m ((c : Thread nD τ).loc r) := (keep_r8 m ρ c r hr).trans (args17 m ρ c r hr)

end Cert.KernelIdeal.Keep

end
-- ==== Proof.Spec.lean ====
/-
  What both programs compute, as functions of whole arrays, index by index, over the extended reals.

  A graph-isomorphism layer sends a node's aggregated feature row z through a two-layer perceptron,
  relu(z · W1 + b1) · W2 + b2, optionally followed by a relu; the prediction head sends a graph's two pooled
  rows (gp, gd) through relu(gp · W0a + gd · W0b + b0), two more relu-linear layers and a final linear layer
  with one output. A change of float format is the identity on the extended reals, so no rounding appears.
-/
import Idealize.ShloMosaic.Lib.ValueIdx
import Idealize.ShloMosaic.PureOps.Ideal.Laws

noncomputable section

namespace Cert.GinSpec

open Idealize.ShloMosaic Idealize.ShloMosaic.ValueIdx

/-- A linear layer at output coordinate k: the sum over a of x a · w a k, plus the bias. -/
def lin {K H : ℕ} (x : Fin K → EReal) (w : Fin K → Fin H → EReal) (b : Fin H → EReal) (k : Fin H) : EReal :=
  (∑ a : Fin K, x a * w a k) + b k

/-- A linear layer followed by relu. -/
def reluLin {K H : ℕ} (x : Fin K → EReal) (w : Fin K → Fin H → EReal) (b : Fin H → EReal) (k : Fin H) : EReal :=
  max (lin x w b k) 0

/-- The optional relu after a layer. -/
def act (relu : Bool) (x : EReal) : EReal := if relu then max x 0 else x

/-- The node perceptron on one row: relu(z · W1 + b1) · W2 + b2 at output coordinate j. -/
def mlpAt {K H O : ℕ} (z : Fin K → EReal) (w1 : Fin K → Fin H → EReal) (b1 : Fin H → EReal)
    (w2 : Fin H → Fin O → EReal) (b2 : Fin O → EReal) (j : Fin O) : EReal :=
  lin (reluLin z w1 b1) w2 b2 j

/-- The node perceptron on every row of an [N, K] array, the biases given as [1, 96] rows. -/
def conv (relu : Bool) {N K : ℕ} (z : FVec Ideal ⟨2, ![N, K]⟩ .f32) (w1 : FVec Ideal ⟨2, ![K, 96]⟩ .f32)
    (b1 : FVec Ideal ⟨2, ![1, 96]⟩ .f32) (w2 : FVec Ideal ⟨2, ![96, 96]⟩ .f32) (b2 : FVec Ideal ⟨2, ![1, 96]⟩ .f32) :
    FVec Ideal ⟨2, ![N, 96]⟩ .f32 :=
  fun i => act relu (mlpAt (fun a => z (ix2 (i 0) a)) (fun a k => w1 (ix2 a k)) (fun k => b1 (ix2 0 k))
    (fun k j => w2 (ix2 k j)) (fun j => b2 (ix2 0 j)) (i 1))

theorem conv_ix2 (relu : Bool) {N K : ℕ} (z : FVec Ideal ⟨2, ![N, K]⟩ .f32) (w1 : FVec Ideal ⟨2, ![K, 96]⟩ .f32)
    (b1 : FVec Ideal ⟨2, ![1, 96]⟩ .f32) (w2 : FVec Ideal ⟨2, ![96, 96]⟩ .f32) (b2 : FVec Ideal ⟨2, ![1, 96]⟩ .f32)
    (r : Fin N) (j : Fin 96) :
    conv relu z w1 b1 w2 b2 (ix2 r j) = act relu (mlpAt (fun a => z (ix2 r a)) (fun a k => w1 (ix2 a k))
      (fun k => b1 (ix2 0 k)) (fun k j => w2 (ix2 k j)) (fun j => b2 (ix2 0 j)) j) := rfl

/-- The head's first hidden row: relu(gp · W0a + gd · W0b + b0) at coordinate k. -/
def head0 (gp gd : Fin 96 → EReal) (w0a w0b : Fin 96 → Fin 96 → EReal) (b0 : Fin 96 → EReal) (k : Fin 96) : EReal :=
  max ((∑ a : Fin 96, gp a * w0a a k) + (∑ a : Fin 96, gd a * w0b a k) + b0 k) 0

/-- The prediction head on every row of two [B, 96] arrays; the result is [B, 1]. -/
def head {B : ℕ} (gp gd : FVec Ideal ⟨2, ![B, 96]⟩ .f32) (w0a w0b : FVec Ideal ⟨2, ![96, 96]⟩ .f32)
    (b0 : FVec Ideal ⟨2, ![1, 96]⟩ .f32) (w1 : FVec Ideal ⟨2, ![96, 96]⟩ .f32) (b1 : FVec Ideal ⟨2, ![1, 96]⟩ .f32)
    (w2 : FVec Ideal ⟨2, ![96, 96]⟩ .f32) (b2 : FVec Ideal ⟨2, ![1, 96]⟩ .f32)
    (wf : FVec Ideal ⟨2, ![96, 1]⟩ .f32) (bf : FVec Ideal ⟨2, ![1, 1]⟩ .f32) : FVec Ideal ⟨2, ![B, 1]⟩ .f32 :=
  fun i => lin
    (reluLin (reluLin
      (head0 (fun a => gp (ix2 (i 0) a)) (fun a => gd (ix2 (i 0) a)) (fun a k => w0a (ix2 a k)) (fun a k => w0b (ix2 a k))
        (fun k => b0 (ix2 0 k)))
      (fun a k => w1 (ix2 a k)) (fun k => b1 (ix2 0 k)))
      (fun a k => w2 (ix2 a k)) (fun k => b2 (ix2 0 k)))
    (fun a (_ : Fin 1) => wf (ix2 a 0)) (fun _ => bf (ix2 0 0)) 0

theorem head_ix2 {B : ℕ} (gp gd : FVec Ideal ⟨2, ![B, 96]⟩ .f32) (w0a w0b : FVec Ideal ⟨2, ![96, 96]⟩ .f32)
    (b0 : FVec Ideal ⟨2, ![1, 96]⟩ .f32) (w1 : FVec Ideal ⟨2, ![96, 96]⟩ .f32) (b1 : FVec Ideal ⟨2, ![1, 96]⟩ .f32)
    (w2 : FVec Ideal ⟨2, ![96, 96]⟩ .f32) (b2 : FVec Ideal ⟨2, ![1, 96]⟩ .f32)
    (wf : FVec Ideal ⟨2, ![96, 1]⟩ .f32) (bf : FVec Ideal ⟨2, ![1, 1]⟩ .f32) (r : Fin B) (u : Fin 1) :
    head gp gd w0a w0b b0 w1 b1 w2 b2 wf bf (ix2 r u) = lin
      (reluLin (reluLin
        (head0 (fun a => gp (ix2 r a)) (fun a => gd (ix2 r a)) (fun a k => w0a (ix2 a k)) (fun a k => w0b (ix2 a k))
          (fun k => b0 (ix2 0 k)))
        (fun a k => w1 (ix2 a k)) (fun k => b1 (ix2 0 k)))
        (fun a k => w2 (ix2 a k)) (fun k => b2 (ix2 0 k)))
      (fun a (_ : Fin 1) => wf (ix2 a 0)) (fun _ => bf (ix2 0 0)) 0 := rfl

end Cert.GinSpec

end
-- ==== Proof.KTerm.lean ====
/-
  The idealized kernel program's values, stage by stage, as functions of the argument arrays.

  One tower: the edge list e gives source and destination node numbers; a layer adds to every node's feature row the sum
  of the rows of the nodes with an edge into it (gather the source rows, scatter-add them at the destinations), and
  sends the result through the node perceptron. Four layers (the last without relu), then a mean over each graph's
  nodes (sum of rows per graph divided by the node count, at least one), for each of the two towers; the head maps
  the two pooled arrays to the prediction.
-/
import proofs.«178575_j10024453669558_1_alg».proof.Proof.Gen.KernelIdeal
import proofs.«178575_j10024453669558_1_alg».proof.Proof.Spec

noncomputable section

namespace Cert.KernelIdeal.KTerm

open Cert.KernelIdeal Cert.KernelIdeal.Facts₀ Cert.KernelIdeal.Facts Idealize.ShloMosaic

abbrev I32 (s : Shape) := IVec s 32
abbrev F32 (s : Shape) := FVec Ideal s .f32

/-- The source node of every edge (row 0 of the edge list). -/
def srcRaw (e : I32 S2x800000) : I32 S800000 :=
  shapeCast _ (extractStridedSlice S1x800000 ![0, 0] e slices_S2x800000_S1x800000_0_0) shapeCasts_S1x800000_S800000
/-- The destination node of every edge (row 1 of the edge list). -/
def dstRaw (e : I32 S2x800000) : I32 S800000 :=
  shapeCast _ (extractStridedSlice S1x800000 ![1, 0] e slices_S2x800000_S1x800000_1_0) shapeCasts_S1x800000_S800000
/-- The source numbers as gather indices: a negative number counts from the end. -/
def srcIdx (s : I32 S800000) : I32 S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)
/-- The destination numbers as scatter indices. -/
def dstIdx (d : I32 S800000) : I32 S800000x1 := broadcastInDim S800000x1 ![0] bcast_S800000_S800000x1_0 d

/-- h plus, at every node, the sum of the source rows of the edges into it (64 features). -/
def agg64 (h : F32 S100000x64) (s d : I32 S800000) : F32 S100000x64 :=
  addf h (Host.scatterAdd scatter_S100000x64_S800000x1_S800000x64_1_0_0_1
    (broadcastInDim S100000x64 ![] bcast_S_S100000x64 (constant (F := Ideal) S_ .f32 0x00000000#32)) (dstIdx d)
    (Host.gather gather_S100000x64_S800000x1_S800000x64_1_0_n_n_0_1_164 h (srcIdx s)))
/-- The same with 96 features. -/
def agg96 (h : F32 S100000x96) (s d : I32 S800000) : F32 S100000x96 :=
  addf h (Host.scatterAdd scatter_S100000x96_S800000x1_S800000x96_1_0_0_1
    (broadcastInDim S100000x96 ![] bcast_S_S100000x96 (constant (F := Ideal) S_ .f32 0x00000000#32)) (dstIdx d)
    (Host.gather gather_S100000x96_S800000x1_S800000x96_1_0_n_n_0_1_196 h (srcIdx s)))

/-- A bias vector as a [1, 96] row. -/
def row (b : F32 S96) : F32 S1x96 := shapeCast _ b shapeCasts_S96_S1x96
/-- The head's last bias as a [1, 1] array. -/
def row1 (b : F32 S1) : F32 S1x1 := shapeCast _ b shapeCasts_S1_S1x1

/-- Layer k's weight matrix out of the stacked [3, 96, 96] array. -/
def mat0 (w : F32 S3x96x96) : F32 S96x96 :=
  shapeCast _ (extractStridedSlice S1x96x96 ![0, 0, 0] w slices_S3x96x96_S1x96x96_0_0_0) shapeCasts_S1x96x96_S96x96
def mat1 (w : F32 S3x96x96) : F32 S96x96 :=
  shapeCast _ (extractStridedSlice S1x96x96 ![1, 0, 0] w slices_S3x96x96_S1x96x96_1_0_0) shapeCasts_S1x96x96_S96x96
def mat2 (w : F32 S3x96x96) : F32 S96x96 :=
  shapeCast _ (extractStridedSlice S1x96x96 ![2, 0, 0] w slices_S3x96x96_S1x96x96_2_0_0) shapeCasts_S1x96x96_S96x96
/-- Layer k's bias out of the stacked [3, 96] array. -/
def vec0 (b : F32 S3x96) : F32 S96 :=
  shapeCast _ (extractStridedSlice S1x96 ![0, 0] b slices_S3x96_S1x96_0_0) shapeCasts_S1x96_S96
def vec1 (b : F32 S3x96) : F32 S96 :=
  shapeCast _ (extractStridedSlice S1x96 ![1, 0] b slices_S3x96_S1x96_1_0) shapeCasts_S1x96_S96
def vec2 (b : F32 S3x96) : F32 S96 :=
  shapeCast _ (extractStridedSlice S1x96 ![2, 0] b slices_S3x96_S1x96_2_0) shapeCasts_S1x96_S96

/-- The mean of the rows of h over each graph's nodes (bt: every node's graph number). -/
def pool (h : F32 S100000x96) (bt : I32 S100000) : F32 S1024x96 :=
  Host.divf
    (Host.scatterAdd scatter_S1024x96_S100000x1_S100000x96_1_0_0_1
      (broadcastInDim S1024x96 ![] bcast_S_S1024x96 (constant (F := Ideal) S_ .f32 0x00000000#32))
      (broadcastInDim S100000x1 ![0] bcast_S100000_S100000x1_0 bt) h)
    (broadcastInDim S1024x96 ![0, 1] bcast_S1024x1_S1024x96_0_1 (broadcastInDim S1024x1 ![0] bcast_S1024_S1024x1_0
      (maximumf
        (Host.scatterAdd scatter_S1024_S100000x1_S100000_n_0_0_1
          (broadcastInDim S1024 ![] bcast_S_S1024 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S1024 ![] bcast_S_S1024 (constant (F := Ideal) S_ .f32 0x3F800000#32)))))

/-- The two halves of the head's first weight matrix. -/
def top (w : F32 S192x96) : F32 S96x96 := extractStridedSlice S96x96 ![0, 0] w slices_S192x96_S96x96_0_0
def bot (w : F32 S192x96) : F32 S96x96 := extractStridedSlice S96x96 ![96, 0] w slices_S192x96_S96x96_96_0

/-- The first layer: 64 input features, relu after the perceptron. -/
def lay1 (x : F32 S100000x64) (e : I32 S2x800000) (w1 : F32 S64x96) (b1 : F32 S96) (w2 : F32 S96x96) (b2 : F32 S96) :
    F32 S100000x96 :=
  Cert.GinSpec.conv true (agg64 x (srcRaw e) (dstRaw e)) w1 (row b1) w2 (row b2)
/-- The second layer (slice 0 of the stacked parameters), relu after. -/
def lay2 (h : F32 S100000x96) (e : I32 S2x800000) (cw1 : F32 S3x96x96) (cb1 : F32 S3x96) (cw2 : F32 S3x96x96) (cb2 : F32 S3x96) :
    F32 S100000x96 :=
  Cert.GinSpec.conv true (agg96 h (srcRaw e) (dstRaw e)) (mat0 cw1) (row (vec0 cb1)) (mat0 cw2) (row (vec0 cb2))
/-- The third layer (slice 1), relu after. -/
def lay3 (h : F32 S100000x96) (e : I32 S2x800000) (cw1 : F32 S3x96x96) (cb1 : F32 S3x96) (cw2 : F32 S3x96x96) (cb2 : F32 S3x96) :
    F32 S100000x96 :=
  Cert.GinSpec.conv true (agg96 h (srcRaw e) (dstRaw e)) (mat1 cw1) (row (vec1 cb1)) (mat1 cw2) (row (vec1 cb2))
/-- The fourth layer (slice 2), no relu after. -/
def lay4 (h : F32 S100000x96) (e : I32 S2x800000) (cw1 : F32 S3x96x96) (cb1 : F32 S3x96) (cw2 : F32 S3x96x96) (cb2 : F32 S3x96) :
    F32 S100000x96 :=
  Cert.GinSpec.conv false (agg96 h (srcRaw e) (dstRaw e)) (mat2 cw1) (row (vec2 cb1)) (mat2 cw2) (row (vec2 cb2))

/-- One tower: four layers from the node features x along the edges e. -/
def tower (x : F32 S100000x64) (e : I32 S2x800000) (w1 : F32 S64x96) (b1 : F32 S96) (w2 : F32 S96x96) (b2 : F32 S96)
    (cw1 : F32 S3x96x96) (cb1 : F32 S3x96) (cw2 : F32 S3x96x96) (cb2 : F32 S3x96) : F32 S100000x96 :=
  lay4 (lay3 (lay2 (lay1 x e w1 b1 w2 b2) e cw1 cb1 cw2 cb2) e cw1 cb1 cw2 cb2) e cw1 cb1 cw2 cb2

/-- The whole program: two towers, each pooled per graph, into the head. -/
def out (xp xd : F32 S100000x64)
    (pw1 : F32 S64x96) (pb1 : F32 S96) (pw2 : F32 S96x96) (pb2 : F32 S96)
    (pcw1 : F32 S3x96x96) (pcb1 : F32 S3x96) (pcw2 : F32 S3x96x96) (pcb2 : F32 S3x96)
    (dw1 : F32 S64x96) (db1 : F32 S96) (dw2 : F32 S96x96) (db2 : F32 S96)
    (dcw1 : F32 S3x96x96) (dcb1 : F32 S3x96) (dcw2 : F32 S3x96x96) (dcb2 : F32 S3x96)
    (l0w : F32 S192x96) (l0b : F32 S96) (l1w : F32 S96x96) (l1b : F32 S96) (l2w : F32 S96x96) (l2b : F32 S96)
    (fw : F32 S96x1) (fb : F32 S1) (ep ed : I32 S2x800000) (bp bd : I32 S100000) : F32 S1024x1 :=
  Cert.GinSpec.head (pool (tower xp ep pw1 pb1 pw2 pb2 pcw1 pcb1 pcw2 pcb2) bp)
    (pool (tower xd ed dw1 db1 dw2 db2 dcw1 dcb1 dcw2 dcb2) bd)
    (top l0w) (bot l0w) (row l0b) l1w (row l1b) l2w (row l2b) fw (row1 fb)

end Cert.KernelIdeal.KTerm

end
-- ==== Proof.Congr.lean ====
/-
  Equal arguments give equal stages: the perceptron, the head, a neighbourhood sum and a per-graph mean are functions.
-/
import proofs.«178575_j10024453669558_1_alg».proof.Proof.Spec
import proofs.«178575_j10024453669558_1_alg».proof.Proof.KTerm

noncomputable section

namespace Cert.KernelIdeal.Chain

open Cert.KernelIdeal Cert.KernelIdeal.KTerm Idealize.ShloMosaic

theorem conv_congr (relu : Bool) {N K : ℕ} {z z' : FVec Ideal ⟨2, ![N, K]⟩ .f32} {w1 w1' : FVec Ideal ⟨2, ![K, 96]⟩ .f32}
    {b1 b1' : FVec Ideal ⟨2, ![1, 96]⟩ .f32} {w2 w2' : FVec Ideal ⟨2, ![96, 96]⟩ .f32} {b2 b2' : FVec Ideal ⟨2, ![1, 96]⟩ .f32}
    (hz : z = z') (hw1 : w1 = w1') (hb1 : b1 = b1') (hw2 : w2 = w2') (hb2 : b2 = b2') :
    Cert.GinSpec.conv relu z w1 b1 w2 b2 = Cert.GinSpec.conv relu z' w1' b1' w2' b2' := by
  subst hz hw1 hb1 hw2 hb2; rfl

theorem head_congr {B : ℕ} {gp gp' gd gd' : FVec Ideal ⟨2, ![B, 96]⟩ .f32} {w0a w0a' w0b w0b' : FVec Ideal ⟨2, ![96, 96]⟩ .f32}
    {b0 b0' : FVec Ideal ⟨2, ![1, 96]⟩ .f32} {w1 w1' : FVec Ideal ⟨2, ![96, 96]⟩ .f32} {b1 b1' : FVec Ideal ⟨2, ![1, 96]⟩ .f32}
    {w2 w2' : FVec Ideal ⟨2, ![96, 96]⟩ .f32} {b2 b2' : FVec Ideal ⟨2, ![1, 96]⟩ .f32}
    {wf wf' : FVec Ideal ⟨2, ![96, 1]⟩ .f32} {bf bf' : FVec Ideal ⟨2, ![1, 1]⟩ .f32}
    (h0 : gp = gp') (h1 : gd = gd') (h2 : w0a = w0a') (h3 : w0b = w0b') (h4 : b0 = b0') (h5 : w1 = w1') (h6 : b1 = b1')
    (h7 : w2 = w2') (h8 : b2 = b2') (h9 : wf = wf') (h10 : bf = bf') :
    Cert.GinSpec.head gp gd w0a w0b b0 w1 b1 w2 b2 wf bf = Cert.GinSpec.head gp' gd' w0a' w0b' b0' w1' b1' w2' b2' wf' bf' := by
  subst h0 h1 h2 h3 h4 h5 h6 h7 h8 h9 h10; rfl

theorem agg96_congr {h h' : F32 S100000x96} {s s' d d' : I32 S800000} (e1 : h = h') (e2 : s = s') (e3 : d = d') :
    agg96 h s d = agg96 h' s' d' := by subst e1 e2 e3; rfl

theorem pool_congr {h h' : F32 S100000x96} {b b' : I32 S100000} (e1 : h = h') (e2 : b = b') : pool h b = pool h' b' := by
  subst e1 e2; rfl

end Cert.KernelIdeal.Chain

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.ConvPay.lean ====
/-
  The arithmetic of a node-perceptron body, read entry by entry. A body takes a block z of 5000 feature rows, two weight
  matrices W1, W2 and two bias rows b1, b2, and forms relu(z · W1 + b1) · W2 + b2 (followed, in six of the eight layers,
  by another relu). Over the extended reals a change of float format is the identity and a product into a zero
  accumulator is the plain sum over the contracted coordinate, so entry (p, q) of the result is the perceptron of row p
  of z at output coordinate q.
-/
import proofs.«178575_j10024453669558_1_alg».proof.Proof.Spec
import proofs.«178575_j10024453669558_1_alg».proof.Proof.LibPlainDot
import proofs.«178575_j10024453669558_1_alg».proof.Proof.Gen.KernelIdeal.Skeleton
import Idealize.ShloMosaic.Lib.ValueLayout

noncomputable section

namespace Cert.KernelIdeal.ConvValue

open Idealize.ShloMosaic Idealize.ShloMosaic.ValueIdx Cert.KernelIdeal

/-- The 96-wide product into the zero accumulator, at an entry: the sum over the contracted coordinate. -/
theorem mm96 {φ₁ φ₂ : FTy} (A : FVec Ideal S5000x96 φ₁) (B : FVec Ideal S96x96 φ₂) (p : Fin 5000) (q : Fin 96) :
    matmul dot_S5000x96_S96x96_S5000x96_1_0_0_1_n_n none A B (constant S5000x96 .f32 0x00000000#32) (ix2 p q)
      = ∑ c : Fin 96, A (ix2 p c) * B (ix2 c q) :=
  Cert.LibPlainDot.matmul_zero_apply _ none A B p q

/-- The 64-wide product of the first layers, likewise. -/
theorem mm64 {φ₁ φ₂ : FTy} (A : FVec Ideal S5000x64 φ₁) (B : FVec Ideal S64x96 φ₂) (p : Fin 5000) (q : Fin 96) :
    matmul dot_S5000x64_S64x96_S5000x96_1_0_0_1_n_n none A B (constant S5000x96 .f32 0x00000000#32) (ix2 p q)
      = ∑ c : Fin 64, A (ix2 p c) * B (ix2 c q) :=
  Cert.LibPlainDot.matmul_zero_apply _ none A B p q

/-- The zero literal is the number zero. -/
theorem zero_lit : (Scalar.ofBits .f32 0x00000000#32 : Ideal .f32) = 0 := Ideal.ofBits_zero_f32

/-- Layer 0's body: every entry of its result is the perceptron of the block's row, followed by relu. -/
theorem pay0 (z : Vec Ideal S5000x64 .f32) (w1 : Vec Ideal S64x96 .f32) (w2 : Vec Ideal S96x96 .f32)
    (b1 b2 : Vec Ideal S1x96 .f32) :
    Gen.k0_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k0_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 1's body: every entry of its result is the perceptron of the block's row, followed by relu. -/
theorem pay1 (z : Vec Ideal S5000x96 .f32) (w1 : Vec Ideal S96x96 .f32) (w2 : Vec Ideal S96x96 .f32)
    (b1 b2 : Vec Ideal S1x96 .f32) :
    Gen.k1_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k1_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 2's body: every entry of its result is the perceptron of the block's row, followed by relu. -/
theorem pay2 (z : Vec Ideal S5000x96 .f32) (w1 : Vec Ideal S96x96 .f32) (w2 : Vec Ideal S96x96 .f32)
    (b1 b2 : Vec Ideal S1x96 .f32) :
    Gen.k2_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k2_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 3's body: every entry of its result is the perceptron of the block's row (no final relu). -/
theorem pay3 (z : Vec Ideal S5000x96 .f32) (w1 : Vec Ideal S96x96 .f32) (w2 : Vec Ideal S96x96 .f32)
    (b1 b2 : Vec Ideal S1x96 .f32) :
    Gen.k3_pay1 (F := Ideal) z w1 w2 b1 b2 = Cert.GinSpec.conv false z w1 b1 w2 b2 := by
  funext j
  obtain ⟨p, q, rfl⟩ : ∃ (p : Fin 5000) (q : Fin 96), j = ix2 p q := ⟨j 0, j 1, eq_ix2 j⟩
  unfold Gen.k3_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 4's body: every entry of its result is the perceptron of the block's row, followed by relu. -/
theorem pay4 (z : Vec Ideal S5000x64 .f32) (w1 : Vec Ideal S64x96 .f32) (w2 : Vec Ideal S96x96 .f32)
    (b1 b2 : Vec Ideal S1x96 .f32) :
    Gen.k4_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k4_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 5's body: every entry of its result is the perceptron of the block's row, followed by relu. -/
theorem pay5 (z : Vec Ideal S5000x96 .f32) (w1 : Vec Ideal S96x96 .f32) (w2 : Vec Ideal S96x96 .f32)
    (b1 b2 : Vec Ideal S1x96 .f32) :
    Gen.k5_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k5_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 6's body: every entry of its result is the perceptron of the block's row, followed by relu. -/
theorem pay6 (z : Vec Ideal S5000x96 .f32) (w1 : Vec Ideal S96x96 .f32) (w2 : Vec Ideal S96x96 .f32)
    (b1 b2 : Vec Ideal S1x96 .f32) :
    Gen.k6_pay1 (F := Ideal) z w1 w2 b1 b2 = Cert.GinSpec.conv true z w1 b1 w2 b2 := by
  funext j
  obtain ⟨p, q, rfl⟩ : ∃ (p : Fin 5000) (q : Fin 96), j = ix2 p q := ⟨j 0, j 1, eq_ix2 j⟩
  unfold Gen.k6_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

/-- Layer 7's body: every entry of its result is the perceptron of the block's row (no final relu). -/
theorem pay7 (z : Vec Ideal S5000x96 .f32) (w1 : Vec Ideal S96x96 .f32) (w2 : Vec Ideal S96x96 .f32)
    (b1 b2 : Vec Ideal S1x96 .f32) :
    Gen.k7_pay1 (F := Ideal) z w1 w2 b1 b2 = Cert.GinSpec.conv false z w1 b1 w2 b2 := by
  funext j
  obtain ⟨p, q, rfl⟩ : ∃ (p : Fin 5000) (q : Fin 96), j = ix2 p q := ⟨j 0, j 1, eq_ix2 j⟩
  unfold Gen.k7_pay1
  simp only [maximumf_apply, addf_apply, broadcast_apply, mm96, mm64, truncf_apply, shapeCast_self,
    broadcastTo_1b_ab_apply, zero_lit]
  rw [Cert.GinSpec.conv_ix2]
  simp only [Cert.GinSpec.act, Cert.GinSpec.mlpAt, Cert.GinSpec.lin, Cert.GinSpec.reluLin, if_true, Bool.false_eq_true, if_false]

end Cert.KernelIdeal.ConvValue

end
-- ==== Proof.ConvRows.lean ====
/-
  The perceptron of a whole array, read on a block of its rows. Entry (r, q) of the perceptron depends only on row r of the
  feature array and on the weights, so on a block whose rows are rows of the whole array (with the same weights and the
  same output coordinate) the perceptron of the block is the perceptron of the whole array at the corresponding row.
-/
import proofs.«178575_j10024453669558_1_alg».proof.Proof.Spec

noncomputable section

namespace Cert.KernelIdeal.ConvValue

open Idealize.ShloMosaic Idealize.ShloMosaic.ValueIdx

/-- If row `y 0` of the block `z` is row `i 0` of the array `Z`, the weights agree and the output coordinates agree, the
    perceptron of the block at `y` is the perceptron of the array at `i`. -/
theorem conv_rows (relu : Bool) {N B K : ℕ} (Z : FVec Ideal ⟨2, ![N, K]⟩ .f32) (z : FVec Ideal ⟨2, ![B, K]⟩ .f32)
    (W1 w1 : FVec Ideal ⟨2, ![K, 96]⟩ .f32) (B1 b1 : FVec Ideal ⟨2, ![1, 96]⟩ .f32)
    (W2 w2 : FVec Ideal ⟨2, ![96, 96]⟩ .f32) (B2 b2 : FVec Ideal ⟨2, ![1, 96]⟩ .f32)
    (y : (⟨2, ![B, 96]⟩ : Shape).Idx) (i : (⟨2, ![N, 96]⟩ : Shape).Idx)
    (hz : ∀ a : Fin K, z (ix2 (y 0) a) = Z (ix2 (i 0) a))
    (hw1 : w1 = W1) (hb1 : b1 = B1) (hw2 : w2 = W2) (hb2 : b2 = B2) (hcol : (y 1 : Fin 96) = i 1) :
    Cert.GinSpec.conv relu z w1 b1 w2 b2 y = Cert.GinSpec.conv relu Z W1 B1 W2 B2 i := by
  subst hw1 hb1 hw2 hb2
  unfold Cert.GinSpec.conv
  rw [hcol, funext hz]

end Cert.KernelIdeal.ConvValue

end
-- ==== Proof.ConvFinal0.lean ====
/-
  The output array of the first 64-feature node-perceptron region after the region, as a function of its five input arrays.

  The grid has twenty points. At point t the feature window holds rows 5000 t … 5000 t + 4999 of the [100000, 64] feature
  array, the two weight matrices and the two bias rows are whole at every point, and the output window is rows
  5000 t … 5000 t + 4999 of the [100000, 96] output. The body stores the perceptron (followed by relu) of its block. The
  perceptron is computed row by row, so the block point t writes back is block t of the perceptron of the whole feature
  array; row r of the output lies in the block of point r / 5000, and 20 · 5000 = 100000, so the blocks cover the array.
  The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of every access of the body, as a constant function. -/
theorem r0_zeros : (![0, 0] : Fin 2 → Nat) = fun _ => 0 := funext fun a => by fin_cases a <;> rfl

/-- What the body leaves in the output's staging buffer, as a function of the contents of the five input buffers: every
    load reads a whole buffer and the one store writes the whole output buffer, so it is the perceptron of the block. -/
theorem r0_stored_eq (x0 : Vec Ideal S5000x64 .f32) (x1 : Vec Ideal S64x96 .f32) (x2 : Vec Ideal S1x96 .f32)
    (x3 : Vec Ideal S96x96 .f32) (x4 : Vec Ideal S1x96 .f32) :
    Gen.out0_5 (F := Ideal) x0 x1 x2 x3 x4 = Cert.GinSpec.conv true x0 x1 x2 x3 x4 := by
  unfold Gen.out0_5
  rw [View.canon_unit_zero r0_zeros]
  simp only [View.ld_unit_zero (S := S5000x64) r0_zeros, View.ld_unit_zero (S := S64x96) r0_zeros,
    View.ld_unit_zero (S := S96x96) r0_zeros, View.ld_unit_zero (S := S1x96) r0_zeros]
  exact pay0 x0 x1 x3 x2 x4

/-- The block indices, decided over the grid's twenty points: the feature window and the output window are at block
    (t, 0), the weight and bias windows at block (0, 0). -/
theorem r0_idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The weight and bias windows' blocks are their whole arrays, at every point -/

/-- Window 1's block is its whole array at every point. -/
theorem r0_whole_1 (c : Dev nD) (t : Fin cfg0.N) :
    (iblk0 V c 1 t : Vec Ideal S64x96 .f32) = (V c (Pipeline.arrRef spec0 1) : Vec Ideal S64x96 .f32) := by
  obtain ⟨-, -, -, -, e0, e1, -, -, -, -, -, -⟩ := r0_idx_facts t
  unfold iblk0
  have hz' : (fun a => win0_1.index t a * main_arg4.ty.shape.size a) = fun _ => 0 := funext fun a => by
    match a with
    | ⟨0, _⟩ => show win0_1.index t (0 : Fin 2) * _ = 0; rw [e0, Nat.zero_mul]
    | ⟨1, _⟩ => show win0_1.index t (1 : Fin 2) * _ = 0; rw [e1, Nat.zero_mul]
  exact Memref.read_access_unit_zero (Elt Ideal) main_arg4 hz' (fun a => by rw [congrFun hz' a]; simp) (V c (Pipeline.arrRef spec0 1))

/-- Window 2's block is its whole array at every point. -/
theorem r0_whole_2 (c : Dev nD) (t : Fin cfg0.N) :
    (iblk0 V c 2 t : Vec Ideal S1x96 .f32) = (V c (Pipeline.arrRef spec0 2) : Vec Ideal S1x96 .f32) := by
  obtain ⟨-, -, -, -, -, -, e0, e1, -, -, -, -⟩ := r0_idx_facts t
  unfold iblk0
  have hz' : (fun a => win0_2.index t a * main_v15.ty.shape.size a) = fun _ => 0 := funext fun a => by
    match a with
    | ⟨0, _⟩ => show win0_2.index t (0 : Fin 2) * _ = 0; rw [e0, Nat.zero_mul]
    | ⟨1, _⟩ => show win0_2.index t (1 : Fin 2) * _ = 0; rw [e1, Nat.zero_mul]
  exact Memref.read_access_unit_zero (Elt Ideal) main_v15 hz' (fun a => by rw [congrFun hz' a]; simp) (V c (Pipeline.arrRef spec0 2))

/-- Window 3's block is its whole array at every point. -/
theorem r0_whole_3 (c : Dev nD) (t : Fin cfg0.N) :
    (iblk0 V c 3 t : Vec Ideal S96x96 .f32) = (V c (Pipeline.arrRef spec0 3) : Vec Ideal S96x96 .f32) := by
  obtain ⟨-, -, -, -, -, -, -, -, e0, e1, -, -⟩ := r0_idx_facts t
  unfold iblk0
  have hz' : (fun a => win0_3.index t a * main_arg6.ty.shape.size a) = fun _ => 0 := funext fun a => by
    match a with
    | ⟨0, _⟩ => show win0_3.index t (0 : Fin 2) * _ = 0; rw [e0, Nat.zero_mul]
    | ⟨1, _⟩ => show win0_3.index t (1 : Fin 2) * _ = 0; rw [e1, Nat.zero_mul]
  exact Memref.read_access_unit_zero (Elt Ideal) main_arg6 hz' (fun a => by rw [congrFun hz' a]; simp) (V c (Pipeline.arrRef spec0 3))

/-- Window 4's block is its whole array at every point. -/
theorem r0_whole_4 (c : Dev nD) (t : Fin cfg0.N) :
    (iblk0 V c 4 t : Vec Ideal S1x96 .f32) = (V c (Pipeline.arrRef spec0 4) : Vec Ideal S1x96 .f32) := by
  obtain ⟨-, -, -, -, -, -, -, -, -, -, e0, e1⟩ := r0_idx_facts t
  unfold iblk0
  have hz' : (fun a => win0_4.index t a * main_v16.ty.shape.size a) = fun _ => 0 := funext fun a => by
    match a with
    | ⟨0, _⟩ => show win0_4.index t (0 : Fin 2) * _ = 0; rw [e0, Nat.zero_mul]
    | ⟨1, _⟩ => show win0_4.index t (1 : Fin 2) * _ = 0; rw [e1, Nat.zero_mul]
  exact Memref.read_access_unit_zero (Elt Ideal) main_v16 hz' (fun a => by rw [congrFun hz' a]; simp) (V c (Pipeline.arrRef spec0 4))

/-! ## What a point writes back, and the array after the run -/

/-- Point t writes back block t of the perceptron of the whole feature array: the perceptron is row by row, row y of
    block t of the features is row 5000 t + y of the array, and the weights and biases are whole at every point. -/
theorem r0_writeback_eq (c : Dev nD) (t : Fin cfg0.N) :
    (dat0 V c).flushed 5 t = ((cfg0.win 5).blk t).view.read (Elt Ideal)
      (Cert.GinSpec.conv true (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5, r0_stored_eq]
  obtain ⟨e00, e01, e50, e51, -⟩ := r0_idx_facts t
  funext y
  show Cert.GinSpec.conv true (iblk0 V c 0 t) (iblk0 V c 1 t) (iblk0 V c 2 t) (iblk0 V c 3 t) (iblk0 V c 4 t) y
      = Cert.GinSpec.conv true (V c (Pipeline.arrRef spec0 0)) (V c (Pipeline.arrRef spec0 1)) (V c (Pipeline.arrRef spec0 2)) (V c (Pipeline.arrRef spec0 3)) (V c (Pipeline.arrRef spec0 4)) (((cfg0.win 5).blk t).view.emb y)
  refine conv_rows true _ _ _ _ _ _ _ _ _ _ y _ (fun a => ?_) (r0_whole_1 V c t) (r0_whole_2 V c t) (r0_whole_3 V c t)
    (r0_whole_4 V c t) ?_
  · show V c (Pipeline.arrRef spec0 0) (((cfg0.win 0).blk t).view.emb (ix2 (y 0) a))
      = V c (Pipeline.arrRef spec0 0) (ix2 ((((cfg0.win 5).blk t).view.emb y) 0) a)
    refine congrArg _ (funext fun ax => Fin.ext ?_)
    match ax with
    | ⟨0, _⟩ =>
      show win0_0.index t (0 : Fin 2) * 5000 + 1 * (y 0).val = win0_5.index t (0 : Fin 2) * 5000 + 1 * (y 0).val
      rw [e00, e50]
    | ⟨1, _⟩ =>
      show win0_0.index t (1 : Fin 2) * 64 + 1 * a.val = a.val
      rw [e01]; omega
  · apply Fin.ext
    show (y 1).val = win0_5.index t (1 : Fin 2) * 96 + 1 * (y 1).val
    rw [e51]; omega

/-- An index of the output array is in point t's block iff each coordinate is in the block's range on its axis. -/
theorem r0_mem_blk (t : Fin cfg0.N) (i : S100000x96.Idx) :
    i ∈ ((cfg0.win 5).blk t).view.set ↔ ∀ a : Fin 2, win0_5.index t a * S5000x96.size a ≤ (i a).val
      ∧ (i a).val < win0_5.index t a * S5000x96.size a + S5000x96.size a := by
  show i ∈ ((View.whole main_v17).slice (win0_5.rect t)).set ↔ _
  rw [View.set_slice_whole, Rect.mem_set_unit]
  exact Iff.rfl

/-- Row r of the output lies in the block of point r / 5000: the twenty blocks of 5000 rows cover the 100000 rows. -/
theorem r0_cover (i : S100000x96.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 96 := (i 1).isLt
  refine ⟨⟨(i 0).val / 5000, by rw [hN]; omega⟩, flush0_5 _, ?_⟩
  obtain ⟨-, -, e50, e51, -⟩ := r0_idx_facts ⟨(i 0).val / 5000, by rw [hN]; omega⟩
  rw [r0_mem_blk]
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 96 ≤ (i 1).val ∧ (i 1).val < win0_5.index _ (1 : Fin 2) * 96 + 96
    rw [e51]; omega

/-- The output array after the region: the perceptron, followed by relu, of the feature array, the weights and the bias
    rows as the region finds them. -/
theorem final0 (c : Dev nD) :
    (Gen.dat0 (F := Ideal) V c).arrAt 5 cfg0.N = Cert.GinSpec.conv true (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => r0_writeback_eq V c t) (r0_cover)

end Cert.KernelIdeal.ConvValue

end
-- ==== Proof.ConvFinal1.lean ====
/-
  Layer 1's region, from blocks to the whole array. The region walks 20 grid points; point t stages rows 5000·t … 5000·t + 4999
  of the feature array together with the whole weight and bias arrays, runs the perceptron body on them, and writes the
  result back to the same rows of the output array. The perceptron of a block of rows is the perceptron of the whole array
  on those rows, and the 20 row blocks tile the 100000 rows, so after the last write-back the output array is the
  perceptron of the whole feature array.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The origin of a two-axis block. -/
theorem origin1 : (![0, 0] : Fin 2 → Nat) = fun _ => 0 := funext fun a => by fin_cases a <;> rfl

/-- The printed index maps, decided over the grid: the feature window and the output window are at row block t, the
    weight and bias windows at block (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 1 stages its whole array at every point. -/
theorem whole_block1_1 (c : Dev nD) (t : Fin cfg1.N) :
    (iblk1 V c 1 t : Vec Ideal S96x96 .f32) = (V c (Pipeline.arrRef spec1 1) : Vec Ideal S96x96 .f32) := by
  obtain ⟨-, -, e10, e11, e20, e21, e30, e31, e40, e41, -, -⟩ := block_index1 t
  funext x
  show V c (Pipeline.arrRef spec1 1) (((cfg1.win 1).blk t).view.emb x) = V c (Pipeline.arrRef spec1 1) x
  refine congrArg _ ?_
  funext a; apply Fin.ext
  match a with
  | ⟨0, _⟩ => show win1_1.index t (0 : Fin 2) * 96 + 1 * (x 0).val = (x 0).val; omega
  | ⟨1, _⟩ => show win1_1.index t (1 : Fin 2) * 96 + 1 * (x 1).val = (x 1).val; omega

/-- Window 2 stages its whole array at every point. -/
theorem whole_block1_2 (c : Dev nD) (t : Fin cfg1.N) :
    (iblk1 V c 2 t : Vec Ideal S1x96 .f32) = (V c (Pipeline.arrRef spec1 2) : Vec Ideal S1x96 .f32) := by
  obtain ⟨-, -, e10, e11, e20, e21, e30, e31, e40, e41, -, -⟩ := block_index1 t
  funext x
  show V c (Pipeline.arrRef spec1 2) (((cfg1.win 2).blk t).view.emb x) = V c (Pipeline.arrRef spec1 2) x
  refine congrArg _ ?_
  funext a; apply Fin.ext
  match a with
  | ⟨0, _⟩ => show win1_2.index t (0 : Fin 2) * 1 + 1 * (x 0).val = (x 0).val; omega
  | ⟨1, _⟩ => show win1_2.index t (1 : Fin 2) * 96 + 1 * (x 1).val = (x 1).val; omega

/-- Window 3 stages its whole array at every point. -/
theorem whole_block1_3 (c : Dev nD) (t : Fin cfg1.N) :
    (iblk1 V c 3 t : Vec Ideal S96x96 .f32) = (V c (Pipeline.arrRef spec1 3) : Vec Ideal S96x96 .f32) := by
  obtain ⟨-, -, e10, e11, e20, e21, e30, e31, e40, e41, -, -⟩ := block_index1 t
  funext x
  show V c (Pipeline.arrRef spec1 3) (((cfg1.win 3).blk t).view.emb x) = V c (Pipeline.arrRef spec1 3) x
  refine congrArg _ ?_
  funext a; apply Fin.ext
  match a with
  | ⟨0, _⟩ => show win1_3.index t (0 : Fin 2) * 96 + 1 * (x 0).val = (x 0).val; omega
  | ⟨1, _⟩ => show win1_3.index t (1 : Fin 2) * 96 + 1 * (x 1).val = (x 1).val; omega

/-- Window 4 stages its whole array at every point. -/
theorem whole_block1_4 (c : Dev nD) (t : Fin cfg1.N) :
    (iblk1 V c 4 t : Vec Ideal S1x96 .f32) = (V c (Pipeline.arrRef spec1 4) : Vec Ideal S1x96 .f32) := by
  obtain ⟨-, -, e10, e11, e20, e21, e30, e31, e40, e41, -, -⟩ := block_index1 t
  funext x
  show V c (Pipeline.arrRef spec1 4) (((cfg1.win 4).blk t).view.emb x) = V c (Pipeline.arrRef spec1 4) x
  refine congrArg _ ?_
  funext a; apply Fin.ext
  match a with
  | ⟨0, _⟩ => show win1_4.index t (0 : Fin 2) * 1 + 1 * (x 0).val = (x 0).val; omega
  | ⟨1, _⟩ => show win1_4.index t (1 : Fin 2) * 96 + 1 * (x 1).val = (x 1).val; omega

set_option maxHeartbeats 2000000 in
/-- What point t writes back is block t of the perceptron of the whole arrays. -/
theorem flushed_conv1 (c : Dev nD) (t : Fin cfg1.N) :
    (dat1 (F := Ideal) V c).flushed 5 t = ((cfg1.win 5).blk t).view.read (Elt Ideal)
      (Cert.GinSpec.conv true (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero origin1]
  simp only [View.ld_unit_zero (S := S5000x96) origin1, View.ld_unit_zero (S := S96x96) origin1,
    View.ld_unit_zero (S := S1x96) origin1]
  rw [pay1]
  obtain ⟨e00, e01, -, -, -, -, -, -, -, -, e50, e51⟩ := block_index1 t
  funext y
  show Cert.GinSpec.conv true (iblk1 V c 0 t) (iblk1 V c 1 t) (iblk1 V c 2 t) (iblk1 V c 3 t) (iblk1 V c 4 t) y
    = Cert.GinSpec.conv true (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb y)
  refine conv_rows true _ _ _ _ _ _ _ _ _ _ y _ (fun a => ?_) (whole_block1_1 V c t) (whole_block1_2 V c t)
    (whole_block1_3 V c t) (whole_block1_4 V c t) ?_
  · show V c (Pipeline.arrRef spec1 0) _ = V c (Pipeline.arrRef spec1 0) _
    refine congrArg _ ?_
    funext ax; apply Fin.ext
    match ax with
    | ⟨0, _⟩ => show win1_0.index t (0 : Fin 2) * 5000 + 1 * (y 0).val = win1_5.index t (0 : Fin 2) * 5000 + 1 * (y 0).val; omega
    | ⟨1, _⟩ => show win1_0.index t (1 : Fin 2) * 96 + 1 * a.val = a.val; omega
  · apply Fin.ext
    show (y 1).val = win1_5.index t (1 : Fin 2) * 96 + 1 * (y 1).val
    omega

/-- After the region's 20 write-backs the output array is the perceptron of the whole feature array: row r is written
    by point r / 5000. -/
theorem final1 (c : Dev nD) :
    (dat1 (F := Ideal) V c).arrAt 5 cfg1.N
      = (Cert.GinSpec.conv true (V c (Pipeline.arrRef spec1 0)) (V c (Pipeline.arrRef spec1 1)) (V c (Pipeline.arrRef spec1 2))
        (V c (Pipeline.arrRef spec1 3)) (V c (Pipeline.arrRef spec1 4))) :=
  (dat1 (F := Ideal) V c).arrAt_eq_of_cover 5 _ (fun t _ => flushed_conv1 V c t) fun i => by
    have hN : cfg1.N = 20 := N_1
    have hi0 : (i 0).val < 100000 := (i 0).isLt
    have hi1 : (i 1).val < 96 := (i 1).isLt
    obtain ⟨t, ht⟩ : ∃ t : Fin cfg1.N, t.val = (i 0).val / 5000 := ⟨⟨(i 0).val / 5000, by rw [hN]; omega⟩, rfl⟩
    obtain ⟨-, -, -, -, -, -, -, -, -, -, e50, e51⟩ := block_index1 t
    refine ⟨t, flush1_5 t, ?_⟩
    show i ∈ ((View.whole main_v39).slice (win1_5.rect t)).set
    rw [View.set_slice_whole, Rect.mem_set_unit]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 96 ≤ (i 1).val ∧ (i 1).val < win1_5.index t (1 : Fin 2) * 96 + 96; omega

end Cert.KernelIdeal.ConvValue

end
-- ==== Proof.ConvFinal2.lean ====
/-
  The output array of the second 96-feature node-perceptron region of the first tower after the region, as a function of
  its five input arrays.

  The grid has twenty points. At point t the feature window holds rows 5000 t … 5000 t + 4999 of the [100000, 96] feature
  array, the two weight matrices and the two bias rows are whole at every point, and the output window is rows
  5000 t … 5000 t + 4999 of the [100000, 96] output. The body stores the perceptron of its block followed by relu. The
  perceptron is computed row by row, so the block point t writes back is block t of the perceptron of the whole feature
  array; row r of the output lies in the block of point r / 5000, and 20 · 5000 = 100000, so the blocks cover the array.
  The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of every access of the body, as a constant function. -/
theorem r2_zeros : (![0, 0] : Fin 2 → Nat) = fun _ => 0 := funext fun a => by fin_cases a <;> rfl

/-- What the body leaves in the output's staging buffer, as a function of the contents of the five input buffers: every
    load reads a whole buffer and the one store writes the whole output buffer, so it is the perceptron of the block. -/
theorem r2_stored_eq (x0 : Vec Ideal S5000x96 .f32) (x1 : Vec Ideal S96x96 .f32) (x2 : Vec Ideal S1x96 .f32)
    (x3 : Vec Ideal S96x96 .f32) (x4 : Vec Ideal S1x96 .f32) :
    Gen.out2_5 (F := Ideal) x0 x1 x2 x3 x4 = Cert.GinSpec.conv true x0 x1 x2 x3 x4 := by
  unfold Gen.out2_5
  rw [View.canon_unit_zero r2_zeros]
  simp only [View.ld_unit_zero (S := S5000x96) r2_zeros, View.ld_unit_zero (S := S96x96) r2_zeros, View.ld_unit_zero (S := S1x96) r2_zeros]
  exact pay2 x0 x1 x3 x2 x4

/-! ## The block indices, decided over the grid's twenty points -/

/-- The feature window is at block (t, 0). -/
theorem r2_idx_0 : ∀ t : Fin cfg2.N, win2_0.index t (0 : Fin 2) = t.val ∧ win2_0.index t (1 : Fin 2) = 0 :=
  (by decide +kernel : ∀ t : Fin grid2.N, _)

/-- The output window is at block (t, 0). -/
theorem r2_idx_5 : ∀ t : Fin cfg2.N, win2_5.index t (0 : Fin 2) = t.val ∧ win2_5.index t (1 : Fin 2) = 0 :=
  (by decide +kernel : ∀ t : Fin grid2.N, _)

/-- Window 1 is at block (0, 0). -/
theorem r2_idx_1 : ∀ t : Fin cfg2.N, win2_1.index t (0 : Fin 2) = 0 ∧ win2_1.index t (1 : Fin 2) = 0 :=
  (by decide +kernel : ∀ t : Fin grid2.N, _)

/-- Window 2 is at block (0, 0). -/
theorem r2_idx_2 : ∀ t : Fin cfg2.N, win2_2.index t (0 : Fin 2) = 0 ∧ win2_2.index t (1 : Fin 2) = 0 :=
  (by decide +kernel : ∀ t : Fin grid2.N, _)

/-- Window 3 is at block (0, 0). -/
theorem r2_idx_3 : ∀ t : Fin cfg2.N, win2_3.index t (0 : Fin 2) = 0 ∧ win2_3.index t (1 : Fin 2) = 0 :=
  (by decide +kernel : ∀ t : Fin grid2.N, _)

/-- Window 4 is at block (0, 0). -/
theorem r2_idx_4 : ∀ t : Fin cfg2.N, win2_4.index t (0 : Fin 2) = 0 ∧ win2_4.index t (1 : Fin 2) = 0 :=
  (by decide +kernel : ∀ t : Fin grid2.N, _)

/-! ## The weight and bias windows' blocks are their whole arrays, at every point -/

/-- Window 1's block is its whole array at every point. -/
theorem r2_whole_1 (c : Dev nD) (t : Fin cfg2.N) :
    (iblk2 V c 1 t : Vec Ideal S96x96 .f32) = (V c (Pipeline.arrRef spec2 1) : Vec Ideal S96x96 .f32) := by
  obtain ⟨e0, e1⟩ := r2_idx_1 t
  unfold iblk2
  have hz' : (fun a => win2_1.index t a * main_v41.ty.shape.size a) = fun _ => 0 := funext fun a => by
    match a with
    | ⟨0, _⟩ => show win2_1.index t (0 : Fin 2) * _ = 0; rw [e0, Nat.zero_mul]
    | ⟨1, _⟩ => show win2_1.index t (1 : Fin 2) * _ = 0; rw [e1, Nat.zero_mul]
  exact Memref.read_access_unit_zero (Elt Ideal) main_v41 hz' (fun a => by rw [congrFun hz' a]; simp) (V c (Pipeline.arrRef spec2 1))

/-- Window 2's block is its whole array at every point. -/
theorem r2_whole_2 (c : Dev nD) (t : Fin cfg2.N) :
    (iblk2 V c 2 t : Vec Ideal S1x96 .f32) = (V c (Pipeline.arrRef spec2 2) : Vec Ideal S1x96 .f32) := by
  obtain ⟨e0, e1⟩ := r2_idx_2 t
  unfold iblk2
  have hz' : (fun a => win2_2.index t a * main_v59.ty.shape.size a) = fun _ => 0 := funext fun a => by
    match a with
    | ⟨0, _⟩ => show win2_2.index t (0 : Fin 2) * _ = 0; rw [e0, Nat.zero_mul]
    | ⟨1, _⟩ => show win2_2.index t (1 : Fin 2) * _ = 0; rw [e1, Nat.zero_mul]
  exact Memref.read_access_unit_zero (Elt Ideal) main_v59 hz' (fun a => by rw [congrFun hz' a]; simp) (V c (Pipeline.arrRef spec2 2))

/-- Window 3's block is its whole array at every point. -/
theorem r2_whole_3 (c : Dev nD) (t : Fin cfg2.N) :
    (iblk2 V c 3 t : Vec Ideal S96x96 .f32) = (V c (Pipeline.arrRef spec2 3) : Vec Ideal S96x96 .f32) := by
  obtain ⟨e0, e1⟩ := r2_idx_3 t
  unfold iblk2
  have hz' : (fun a => win2_3.index t a * main_v45.ty.shape.size a) = fun _ => 0 := funext fun a => by
    match a with
    | ⟨0, _⟩ => show win2_3.index t (0 : Fin 2) * _ = 0; rw [e0, Nat.zero_mul]
    | ⟨1, _⟩ => show win2_3.index t (1 : Fin 2) * _ = 0; rw [e1, Nat.zero_mul]
  exact Memref.read_access_unit_zero (Elt Ideal) main_v45 hz' (fun a => by rw [congrFun hz' a]; simp) (V c (Pipeline.arrRef spec2 3))

/-- Window 4's block is its whole array at every point. -/
theorem r2_whole_4 (c : Dev nD) (t : Fin cfg2.N) :
    (iblk2 V c 4 t : Vec Ideal S1x96 .f32) = (V c (Pipeline.arrRef spec2 4) : Vec Ideal S1x96 .f32) := by
  obtain ⟨e0, e1⟩ := r2_idx_4 t
  unfold iblk2
  have hz' : (fun a => win2_4.index t a * main_v60.ty.shape.size a) = fun _ => 0 := funext fun a => by
    match a with
    | ⟨0, _⟩ => show win2_4.index t (0 : Fin 2) * _ = 0; rw [e0, Nat.zero_mul]
    | ⟨1, _⟩ => show win2_4.index t (1 : Fin 2) * _ = 0; rw [e1, Nat.zero_mul]
  exact Memref.read_access_unit_zero (Elt Ideal) main_v60 hz' (fun a => by rw [congrFun hz' a]; simp) (V c (Pipeline.arrRef spec2 4))

/-! ## The feature window's block and the output window's block, entry by entry -/

/-- Entry (y, a) of the feature window's block at point t is entry (5000 t + y, a) of the feature array. -/
theorem r2_feature_apply (c : Dev nD) (t : Fin cfg2.N) (y0 : Fin 5000) (a : Fin 96) (i : S100000x96.Idx)
    (h0 : (i 0).val = t.val * 5000 + y0.val) (h1 : (i 1).val = a.val) :
    (iblk2 V c 0 t : Vec Ideal S5000x96 .f32) (ix2 y0 a) = (V c (Pipeline.arrRef spec2 0) : Vec Ideal S100000x96 .f32) i := by
  obtain ⟨e0, e1⟩ := r2_idx_0 t
  show V c (Pipeline.arrRef spec2 0) (((cfg2.win 0).blk t).view.emb (ix2 y0 a)) = V c (Pipeline.arrRef spec2 0) i
  refine congrArg _ (funext fun ax => Fin.ext ?_)
  match ax with
  | ⟨0, _⟩ =>
    show win2_0.index t (0 : Fin 2) * 5000 + 1 * y0.val = (i 0).val
    rw [e0, h0]; omega
  | ⟨1, _⟩ =>
    show win2_0.index t (1 : Fin 2) * 96 + 1 * a.val = (i 1).val
    rw [e1, h1]; omega

/-- Entry y of the output window's block at point t sits at row 5000 t + y 0 and column y 1 of the output array. -/
theorem r2_out_emb (t : Fin cfg2.N) (y : S5000x96.Idx) :
    ((((cfg2.win 5).blk t).view.emb y) 0).val = t.val * 5000 + (y 0).val
      ∧ ((((cfg2.win 5).blk t).view.emb y) 1).val = (y 1).val := by
  obtain ⟨e0, e1⟩ := r2_idx_5 t
  constructor
  · show win2_5.index t (0 : Fin 2) * 5000 + 1 * (y 0).val = _
    rw [e0]; omega
  · show win2_5.index t (1 : Fin 2) * 96 + 1 * (y 1).val = _
    rw [e1]; omega

/-! ## What a point writes back, and the array after the run -/

/-- What the body leaves at point t is the perceptron of the five blocks. -/
theorem r2_after_eq (c : Dev nD) (t : Fin cfg2.N) :
    (dat2 V c).after 5 t = Cert.GinSpec.conv true (iblk2 V c 0 t) (iblk2 V c 1 t) (iblk2 V c 2 t) (iblk2 V c 3 t) (iblk2 V c 4 t) := by
  rw [after2_5, r2_stored_eq]

/-- The perceptron of the blocks at entry y is the perceptron of the whole arrays at the entry's place in the output
    array: the perceptron is row by row, row y of block t of the features is row 5000 t + y of the array, and the
    weights and biases are whole at every point. -/
theorem r2_block_entry (c : Dev nD) (t : Fin cfg2.N) (y : S5000x96.Idx) :
    Cert.GinSpec.conv true (iblk2 V c 0 t) (iblk2 V c 1 t) (iblk2 V c 2 t) (iblk2 V c 3 t) (iblk2 V c 4 t) y
      = Cert.GinSpec.conv true (V c (Pipeline.arrRef spec2 0)) (V c (Pipeline.arrRef spec2 1)) (V c (Pipeline.arrRef spec2 2)) (V c (Pipeline.arrRef spec2 3)) (V c (Pipeline.arrRef spec2 4)) (((cfg2.win 5).blk t).view.emb y) := by
  obtain ⟨h0, h1⟩ := r2_out_emb t y
  exact conv_rows true _ _ _ _ _ _ _ _ _ _ y _ (fun a => r2_feature_apply V c t (y 0) a _ h0 rfl) (r2_whole_1 V c t)
    (r2_whole_2 V c t) (r2_whole_3 V c t) (r2_whole_4 V c t) (Fin.ext h1.symm)

/-- Point t writes back block t of the perceptron of the whole feature array. -/
theorem r2_writeback_eq (c : Dev nD) (t : Fin cfg2.N) :
    (dat2 V c).flushed 5 t = ((cfg2.win 5).blk t).view.read (Elt Ideal)
      (Cert.GinSpec.conv true (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [r2_after_eq]
  funext y
  exact r2_block_entry V c t y

/-- An index of the output array is in point t's block iff each coordinate is in the block's range on its axis. -/
theorem r2_mem_blk (t : Fin cfg2.N) (i : S100000x96.Idx) :
    i ∈ ((cfg2.win 5).blk t).view.set ↔ ∀ a : Fin 2, win2_5.index t a * S5000x96.size a ≤ (i a).val
      ∧ (i a).val < win2_5.index t a * S5000x96.size a + S5000x96.size a := by
  show i ∈ ((View.whole main_v61).slice (win2_5.rect t)).set ↔ _
  rw [View.set_slice_whole, Rect.mem_set_unit]
  exact Iff.rfl

/-- Row r of the output lies in the block of point r / 5000: the twenty blocks of 5000 rows cover the 100000 rows. -/
theorem r2_cover (i : S100000x96.Idx) :
    ∃ t : Fin cfg2.N, (cfg2.win 5).flush t = true ∧ i ∈ ((cfg2.win 5).blk t).view.set := by
  have hN : cfg2.N = 20 := N_2
  have hi0 : (i 0).val < 100000 := (i 0).isLt
  have hi1 : (i 1).val < 96 := (i 1).isLt
  refine ⟨⟨(i 0).val / 5000, by rw [hN]; omega⟩, flush2_5 _, ?_⟩
  obtain ⟨e50, e51⟩ := r2_idx_5 ⟨(i 0).val / 5000, by rw [hN]; omega⟩
  rw [r2_mem_blk]
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 96 ≤ (i 1).val ∧ (i 1).val < win2_5.index _ (1 : Fin 2) * 96 + 96
    rw [e51]; omega

/-- The output array after the region: the perceptron, followed by relu, of the feature array, the weights and the bias
    rows as the region finds them. -/
theorem final2 (c : Dev nD) :
    (Gen.dat2 (F := Ideal) V c).arrAt 5 cfg2.N = Cert.GinSpec.conv true (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => r2_writeback_eq V c t) (r2_cover)

end Cert.KernelIdeal.ConvValue

end
-- ==== Proof.ConvFinal3.lean ====
/-
  The output array of the third 96-feature node-perceptron region of the first tower after the region, as a function of
  its five input arrays.

  The grid has twenty points. At point t the feature window holds rows 5000 t … 5000 t + 4999 of the [100000, 96] feature
  array, the two weight matrices and the two bias rows are whole at every point, and the output window is rows
  5000 t … 5000 t + 4999 of the [100000, 96] output. The body stores the perceptron of its block, with no final relu. The
  perceptron is computed row by row, so the block point t writes back is block t of the perceptron of the whole feature
  array; row r of the output lies in the block of point r / 5000, and 20 · 5000 = 100000, so the blocks cover the array.
  The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of every access of the body, as a constant function. -/
theorem r3_zeros : (![0, 0] : Fin 2 → Nat) = fun _ => 0 := funext fun a => by fin_cases a <;> rfl

/-- What the body leaves in the output's staging buffer, as a function of the contents of the five input buffers: every
    load reads a whole buffer and the one store writes the whole output buffer, so it is the perceptron of the block. -/
theorem r3_stored_eq (x0 : Vec Ideal S5000x96 .f32) (x1 : Vec Ideal S96x96 .f32) (x2 : Vec Ideal S1x96 .f32)
    (x3 : Vec Ideal S96x96 .f32) (x4 : Vec Ideal S1x96 .f32) :
    Gen.out3_5 (F := Ideal) x0 x1 x2 x3 x4 = Cert.GinSpec.conv false x0 x1 x2 x3 x4 := by
  unfold Gen.out3_5
  rw [View.canon_unit_zero r3_zeros]
  simp only [View.ld_unit_zero (S := S5000x96) r3_zeros, View.ld_unit_zero (S := S96x96) r3_zeros, View.ld_unit_zero (S := S1x96) r3_zeros]
  exact pay3 x0 x1 x3 x2 x4

/-! ## The block indices, decided over the grid's twenty points -/

/-- The feature window is at block (t, 0). -/
theorem r3_idx_0 : ∀ t : Fin cfg3.N, win3_0.index t (0 : Fin 2) = t.val ∧ win3_0.index t (1 : Fin 2) = 0 :=
  (by decide +kernel : ∀ t : Fin grid3.N, _)

/-- The output window is at block (t, 0). -/
theorem r3_idx_5 : ∀ t : Fin cfg3.N, win3_5.index t (0 : Fin 2) = t.val ∧ win3_5.index t (1 : Fin 2) = 0 :=
  (by decide +kernel : ∀ t : Fin grid3.N, _)

/-- Window 1 is at block (0, 0). -/
theorem r3_idx_1 : ∀ t : Fin cfg3.N, win3_1.index t (0 : Fin 2) = 0 ∧ win3_1.index t (1 : Fin 2) = 0 :=
  (by decide +kernel : ∀ t : Fin grid3.N, _)

/-- Window 2 is at block (0, 0). -/
theorem r3_idx_2 : ∀ t : Fin cfg3.N, win3_2.index t (0 : Fin 2) = 0 ∧ win3_2.index t (1 : Fin 2) = 0 :=
  (by decide +kernel : ∀ t : Fin grid3.N, _)

/-- Window 3 is at block (0, 0). -/
theorem r3_idx_3 : ∀ t : Fin cfg3.N, win3_3.index t (0 : Fin 2) = 0 ∧ win3_3.index t (1 : Fin 2) = 0 :=
  (by decide +kernel : ∀ t : Fin grid3.N, _)

/-- Window 4 is at block (0, 0). -/
theorem r3_idx_4 : ∀ t : Fin cfg3.N, win3_4.index t (0 : Fin 2) = 0 ∧ win3_4.index t (1 : Fin 2) = 0 :=
  (by decide +kernel : ∀ t : Fin grid3.N, _)

/-! ## The weight and bias windows' blocks are their whole arrays, at every point -/

/-- Window 1's block is its whole array at every point. -/
theorem r3_whole_1 (c : Dev nD) (t : Fin cfg3.N) :
    (iblk3 V c 1 t : Vec Ideal S96x96 .f32) = (V c (Pipeline.arrRef spec3 1) : Vec Ideal S96x96 .f32) := by
  obtain ⟨e0, e1⟩ := r3_idx_1 t
  unfold iblk3
  have hz' : (fun a => win3_1.index t a * main_v63.ty.shape.size a) = fun _ => 0 := funext fun a => by
    match a with
    | ⟨0, _⟩ => show win3_1.index t (0 : Fin 2) * _ = 0; rw [e0, Nat.zero_mul]
    | ⟨1, _⟩ => show win3_1.index t (1 : Fin 2) * _ = 0; rw [e1, Nat.zero_mul]
  exact Memref.read_access_unit_zero (Elt Ideal) main_v63 hz' (fun a => by rw [congrFun hz' a]; simp) (V c (Pipeline.arrRef spec3 1))

/-- Window 2's block is its whole array at every point. -/
theorem r3_whole_2 (c : Dev nD) (t : Fin cfg3.N) :
    (iblk3 V c 2 t : Vec Ideal S1x96 .f32) = (V c (Pipeline.arrRef spec3 2) : Vec Ideal S1x96 .f32) := by
  obtain ⟨e0, e1⟩ := r3_idx_2 t
  unfold iblk3
  have hz' : (fun a => win3_2.index t a * main_v81.ty.shape.size a) = fun _ => 0 := funext fun a => by
    match a with
    | ⟨0, _⟩ => show win3_2.index t (0 : Fin 2) * _ = 0; rw [e0, Nat.zero_mul]
    | ⟨1, _⟩ => show win3_2.index t (1 : Fin 2) * _ = 0; rw [e1, Nat.zero_mul]
  exact Memref.read_access_unit_zero (Elt Ideal) main_v81 hz' (fun a => by rw [congrFun hz' a]; simp) (V c (Pipeline.arrRef spec3 2))

/-- Window 3's block is its whole array at every point. -/
theorem r3_whole_3 (c : Dev nD) (t : Fin cfg3.N) :
    (iblk3 V c 3 t : Vec Ideal S96x96 .f32) = (V c (Pipeline.arrRef spec3 3) : Vec Ideal S96x96 .f32) := by
  obtain ⟨e0, e1⟩ := r3_idx_3 t
  unfold iblk3
  have hz' : (fun a => win3_3.index t a * main_v67.ty.shape.size a) = fun _ => 0 := funext fun a => by
    match a with
    | ⟨0, _⟩ => show win3_3.index t (0 : Fin 2) * _ = 0; rw [e0, Nat.zero_mul]
    | ⟨1, _⟩ => show win3_3.index t (1 : Fin 2) * _ = 0; rw [e1, Nat.zero_mul]
  exact Memref.read_access_unit_zero (Elt Ideal) main_v67 hz' (fun a => by rw [congrFun hz' a]; simp) (V c (Pipeline.arrRef spec3 3))

/-- Window 4's block is its whole array at every point. -/
theorem r3_whole_4 (c : Dev nD) (t : Fin cfg3.N) :
    (iblk3 V c 4 t : Vec Ideal S1x96 .f32) = (V c (Pipeline.arrRef spec3 4) : Vec Ideal S1x96 .f32) := by
  obtain ⟨e0, e1⟩ := r3_idx_4 t
  unfold iblk3
  have hz' : (fun a => win3_4.index t a * main_v82.ty.shape.size a) = fun _ => 0 := funext fun a => by
    match a with
    | ⟨0, _⟩ => show win3_4.index t (0 : Fin 2) * _ = 0; rw [e0, Nat.zero_mul]
    | ⟨1, _⟩ => show win3_4.index t (1 : Fin 2) * _ = 0; rw [e1, Nat.zero_mul]
  exact Memref.read_access_unit_zero (Elt Ideal) main_v82 hz' (fun a => by rw [congrFun hz' a]; simp) (V c (Pipeline.arrRef spec3 4))

/-! ## The feature window's block and the output window's block, entry by entry -/

/-- Entry (y, a) of the feature window's block at point t is entry (5000 t + y, a) of the feature array. -/
theorem r3_feature_apply (c : Dev nD) (t : Fin cfg3.N) (y0 : Fin 5000) (a : Fin 96) (i : S100000x96.Idx)
    (h0 : (i 0).val = t.val * 5000 + y0.val) (h1 : (i 1).val = a.val) :
    (iblk3 V c 0 t : Vec Ideal S5000x96 .f32) (ix2 y0 a) = (V c (Pipeline.arrRef spec3 0) : Vec Ideal S100000x96 .f32) i := by
  obtain ⟨e0, e1⟩ := r3_idx_0 t
  show V c (Pipeline.arrRef spec3 0) (((cfg3.win 0).blk t).view.emb (ix2 y0 a)) = V c (Pipeline.arrRef spec3 0) i
  refine congrArg _ (funext fun ax => Fin.ext ?_)
  match ax with
  | ⟨0, _⟩ =>
    show win3_0.index t (0 : Fin 2) * 5000 + 1 * y0.val = (i 0).val
    rw [e0, h0]; omega
  | ⟨1, _⟩ =>
    show win3_0.index t (1 : Fin 2) * 96 + 1 * a.val = (i 1).val
    rw [e1, h1]; omega

/-- Entry y of the output window's block at point t sits at row 5000 t + y 0 and column y 1 of the output array. -/
theorem r3_out_emb (t : Fin cfg3.N) (y : S5000x96.Idx) :
    ((((cfg3.win 5).blk t).view.emb y) 0).val = t.val * 5000 + (y 0).val
      ∧ ((((cfg3.win 5).blk t).view.emb y) 1).val = (y 1).val := by
  obtain ⟨e0, e1⟩ := r3_idx_5 t
  constructor
  · show win3_5.index t (0 : Fin 2) * 5000 + 1 * (y 0).val = _
    rw [e0]; omega
  · show win3_5.index t (1 : Fin 2) * 96 + 1 * (y 1).val = _
    rw [e1]; omega

/-! ## What a point writes back, and the array after the run -/

/-- What the body leaves at point t is the perceptron of the five blocks. -/
theorem r3_after_eq (c : Dev nD) (t : Fin cfg3.N) :
    (dat3 V c).after 5 t = Cert.GinSpec.conv false (iblk3 V c 0 t) (iblk3 V c 1 t) (iblk3 V c 2 t) (iblk3 V c 3 t) (iblk3 V c 4 t) := by
  rw [after3_5, r3_stored_eq]

/-- The perceptron of the blocks at entry y is the perceptron of the whole arrays at the entry's place in the output
    array: the perceptron is row by row, row y of block t of the features is row 5000 t + y of the array, and the
    weights and biases are whole at every point. -/
theorem r3_block_entry (c : Dev nD) (t : Fin cfg3.N) (y : S5000x96.Idx) :
    Cert.GinSpec.conv false (iblk3 V c 0 t) (iblk3 V c 1 t) (iblk3 V c 2 t) (iblk3 V c 3 t) (iblk3 V c 4 t) y
      = Cert.GinSpec.conv false (V c (Pipeline.arrRef spec3 0)) (V c (Pipeline.arrRef spec3 1)) (V c (Pipeline.arrRef spec3 2)) (V c (Pipeline.arrRef spec3 3)) (V c (Pipeline.arrRef spec3 4)) (((cfg3.win 5).blk t).view.emb y) := by
  obtain ⟨h0, h1⟩ := r3_out_emb t y
  exact conv_rows false _ _ _ _ _ _ _ _ _ _ y _ (fun a => r3_feature_apply V c t (y 0) a _ h0 rfl) (r3_whole_1 V c t)
    (r3_whole_2 V c t) (r3_whole_3 V c t) (r3_whole_4 V c t) (Fin.ext h1.symm)

/-- Point t writes back block t of the perceptron of the whole feature array. -/
theorem r3_writeback_eq (c : Dev nD) (t : Fin cfg3.N) :
    (dat3 V c).flushed 5 t = ((cfg3.win 5).blk t).view.read (Elt Ideal)
      (Cert.GinSpec.conv false (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [r3_after_eq]
  funext y
  exact r3_block_entry V c t y

/-- An index of the output array is in point t's block iff each coordinate is in the block's range on its axis. -/
theorem r3_mem_blk (t : Fin cfg3.N) (i : S100000x96.Idx) :
    i ∈ ((cfg3.win 5).blk t).view.set ↔ ∀ a : Fin 2, win3_5.index t a * S5000x96.size a ≤ (i a).val
      ∧ (i a).val < win3_5.index t a * S5000x96.size a + S5000x96.size a := by
  show i ∈ ((View.whole main_v83).slice (win3_5.rect t)).set ↔ _
  rw [View.set_slice_whole, Rect.mem_set_unit]
  exact Iff.rfl

/-- Row r of the output lies in the block of point r / 5000: the twenty blocks of 5000 rows cover the 100000 rows. -/
theorem r3_cover (i : S100000x96.Idx) :
    ∃ t : Fin cfg3.N, (cfg3.win 5).flush t = true ∧ i ∈ ((cfg3.win 5).blk t).view.set := by
  have hN : cfg3.N = 20 := N_3
  have hi0 : (i 0).val < 100000 := (i 0).isLt
  have hi1 : (i 1).val < 96 := (i 1).isLt
  refine ⟨⟨(i 0).val / 5000, by rw [hN]; omega⟩, flush3_5 _, ?_⟩
  obtain ⟨e50, e51⟩ := r3_idx_5 ⟨(i 0).val / 5000, by rw [hN]; omega⟩
  rw [r3_mem_blk]
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 96 ≤ (i 1).val ∧ (i 1).val < win3_5.index _ (1 : Fin 2) * 96 + 96
    rw [e51]; omega

/-- The output array after the region: the perceptron (with no final relu) of the feature array, the weights and the bias
    rows as the region finds them. -/
theorem final3 (c : Dev nD) :
    (Gen.dat3 (F := Ideal) V c).arrAt 5 cfg3.N = Cert.GinSpec.conv false (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => r3_writeback_eq V c t) (r3_cover)

end Cert.KernelIdeal.ConvValue

end
-- ==== Proof.KChainP.lean ====
/-
  The first tower of the idealized kernel program, boundary by boundary: what each host stretch leaves in the buffers the
  next region reads (the aggregated features, the layer's weights, its biases as rows), and each region's output array as
  the layer's function of the previous layer's output. The edge numbers are computed once and carried.
-/
import proofs.«178575_j10024453669558_1_alg».proof.Proof.KKeep
import proofs.«178575_j10024453669558_1_alg».proof.Proof.KTerm
import proofs.«178575_j10024453669558_1_alg».proof.Proof.Congr
import proofs.«178575_j10024453669558_1_alg».proof.Proof.ConvFinal0
import proofs.«178575_j10024453669558_1_alg».proof.Proof.ConvFinal1
import proofs.«178575_j10024453669558_1_alg».proof.Proof.ConvFinal2
import proofs.«178575_j10024453669558_1_alg».proof.Proof.ConvFinal3

set_option maxRecDepth 16384

noncomputable section

namespace Cert.KernelIdeal.Chain

open Cert.KernelIdeal Cert.KernelIdeal.Gen Cert.KernelIdeal.KTerm Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer (host stretch 0, region 0) -/

theorem p0_src (c : Dev nD) : W1 m ρ c (Proc.devRef .tc main_v1) = srcRaw (m ((c : Thread nD τ).loc main_arg28)) := by
  show StableHlo.after hostOps0 (W0 m ρ c) (Proc.devRef .tc main_v1) = _
  after_results
  rfl
theorem p0_dst (c : Dev nD) : W1 m ρ c (Proc.devRef .tc main_v3) = dstRaw (m ((c : Thread nD τ).loc main_arg28)) := by
  show StableHlo.after hostOps0 (W0 m ρ c) (Proc.devRef .tc main_v3) = _
  after_results
  rfl
theorem p0_z (c : Dev nD) : W1 m ρ c (Proc.devRef .tc main_v14) = agg64 (m ((c : Thread nD τ).loc main_arg0)) (srcRaw (m ((c : Thread nD τ).loc main_arg28))) (dstRaw (m ((c : Thread nD τ).loc main_arg28))) := by
  show StableHlo.after hostOps0 (W0 m ρ c) (Proc.devRef .tc main_v14) = _
  after_results_simp
  rfl
theorem p0_b1 (c : Dev nD) : W1 m ρ c (Proc.devRef .tc main_v15) = row (m ((c : Thread nD τ).loc main_arg5)) := by
  show StableHlo.after hostOps0 (W0 m ρ c) (Proc.devRef .tc main_v15) = _
  after_results
  rfl
theorem p0_b2 (c : Dev nD) : W1 m ρ c (Proc.devRef .tc main_v16) = row (m ((c : Thread nD τ).loc main_arg7)) := by
  show StableHlo.after hostOps0 (W0 m ρ c) (Proc.devRef .tc main_v16) = _
  after_results
  rfl
/-- Region 0's output array: the first layer of the tower. -/
theorem p0_outE (c : Dev nD) : W2 m ρ c (Proc.devRef .tc main_v17) = lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7)) :=
  (W2_arr m ρ c 5).trans ((Cert.KernelIdeal.ConvValue.final0 (V1 m ρ) c).trans
    (conv_congr true (p0_z m ρ c) (args1 m ρ c main_arg4 (by decide)) (p0_b1 m ρ c)
      (args1 m ρ c main_arg6 (by decide)) (p0_b2 m ρ c)))
theorem p0_srcE (c : Dev nD) : W2 m ρ c (Proc.devRef .tc main_v1) = srcRaw (m ((c : Thread nD τ).loc main_arg28)) :=
  (W2_of_ne m ρ c main_v1 (by decide)).trans (p0_src m ρ c)
theorem p0_dstE (c : Dev nD) : W2 m ρ c (Proc.devRef .tc main_v3) = dstRaw (m ((c : Thread nD τ).loc main_arg28)) :=
  (W2_of_ne m ρ c main_v3 (by decide)).trans (p0_dst m ρ c)

/-! ## Layer 2 of the tower (host stretch 1, region 1) -/

theorem p1_z (c : Dev nD) : W3 m ρ c (Proc.devRef .tc main_v36) = agg96 (W2 m ρ c (Proc.devRef .tc main_v17)) (W2 m ρ c (Proc.devRef .tc main_v1)) (W2 m ρ c (Proc.devRef .tc main_v3)) := by
  show StableHlo.after hostOps1 (W2 m ρ c) (Proc.devRef .tc main_v36) = _
  after_results_simp
  rfl
theorem p1_w1 (c : Dev nD) : W3 m ρ c (Proc.devRef .tc main_v19) = mat0 (W2 m ρ c (Proc.devRef .tc main_arg8)) := by
  show StableHlo.after hostOps1 (W2 m ρ c) (Proc.devRef .tc main_v19) = _
  after_results
  rfl
theorem p1_b1 (c : Dev nD) : W3 m ρ c (Proc.devRef .tc main_v37) = row (vec0 (W2 m ρ c (Proc.devRef .tc main_arg9))) := by
  show StableHlo.after hostOps1 (W2 m ρ c) (Proc.devRef .tc main_v37) = _
  after_results
  rfl
theorem p1_w2 (c : Dev nD) : W3 m ρ c (Proc.devRef .tc main_v23) = mat0 (W2 m ρ c (Proc.devRef .tc main_arg10)) := by
  show StableHlo.after hostOps1 (W2 m ρ c) (Proc.devRef .tc main_v23) = _
  after_results
  rfl
theorem p1_b2 (c : Dev nD) : W3 m ρ c (Proc.devRef .tc main_v38) = row (vec0 (W2 m ρ c (Proc.devRef .tc main_arg11))) := by
  show StableHlo.after hostOps1 (W2 m ρ c) (Proc.devRef .tc main_v38) = _
  after_results
  rfl
theorem p1_srcS (c : Dev nD) : W3 m ρ c (Proc.devRef .tc main_v1) = W2 m ρ c (Proc.devRef .tc main_v1) := by
  show StableHlo.after hostOps1 (W2 m ρ c) (Proc.devRef .tc main_v1) = _
  after_results
theorem p1_dstS (c : Dev nD) : W3 m ρ c (Proc.devRef .tc main_v3) = W2 m ρ c (Proc.devRef .tc main_v3) := by
  show StableHlo.after hostOps1 (W2 m ρ c) (Proc.devRef .tc main_v3) = _
  after_results
theorem p1_srcE (c : Dev nD) : W4 m ρ c (Proc.devRef .tc main_v1) = srcRaw (m ((c : Thread nD τ).loc main_arg28)) :=
  (W4_of_ne m ρ c main_v1 (by decide)).trans ((p1_srcS m ρ c).trans (p0_srcE m ρ c))
theorem p1_dstE (c : Dev nD) : W4 m ρ c (Proc.devRef .tc main_v3) = dstRaw (m ((c : Thread nD τ).loc main_arg28)) :=
  (W4_of_ne m ρ c main_v3 (by decide)).trans ((p1_dstS m ρ c).trans (p0_dstE m ρ c))
/-- What region 1 reads, in terms of the arguments. -/
theorem p1_zV (c : Dev nD) : W3 m ρ c (Proc.devRef .tc main_v36) = agg96 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (srcRaw (m ((c : Thread nD τ).loc main_arg28))) (dstRaw (m ((c : Thread nD τ).loc main_arg28))) :=
  (p1_z m ρ c).trans (agg96_congr (p0_outE m ρ c) (p0_srcE m ρ c) (p0_dstE m ρ c))
theorem p1_w1V (c : Dev nD) : W3 m ρ c (Proc.devRef .tc main_v19) = mat0 (m ((c : Thread nD τ).loc main_arg8)) :=
  (p1_w1 m ρ c).trans (congrArg mat0 (args2 m ρ c main_arg8 (by decide)))
theorem p1_b1V (c : Dev nD) : W3 m ρ c (Proc.devRef .tc main_v37) = row (vec0 (m ((c : Thread nD τ).loc main_arg9))) :=
  (p1_b1 m ρ c).trans (congrArg (fun v => row (vec0 v)) (args2 m ρ c main_arg9 (by decide)))
theorem p1_w2V (c : Dev nD) : W3 m ρ c (Proc.devRef .tc main_v23) = mat0 (m ((c : Thread nD τ).loc main_arg10)) :=
  (p1_w2 m ρ c).trans (congrArg mat0 (args2 m ρ c main_arg10 (by decide)))
theorem p1_b2V (c : Dev nD) : W3 m ρ c (Proc.devRef .tc main_v38) = row (vec0 (m ((c : Thread nD τ).loc main_arg11))) :=
  (p1_b2 m ρ c).trans (congrArg (fun v => row (vec0 v)) (args2 m ρ c main_arg11 (by decide)))
/-- Region 1's output array: layer 2 applied to the previous layer's output. -/
theorem p1_outE (c : Dev nD) : W4 m ρ c (Proc.devRef .tc main_v39) = lay2 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (m ((c : Thread nD τ).loc main_arg28)) (m ((c : Thread nD τ).loc main_arg8)) (m ((c : Thread nD τ).loc main_arg9)) (m ((c : Thread nD τ).loc main_arg10)) (m ((c : Thread nD τ).loc main_arg11)) :=
  (W4_arr m ρ c 5).trans ((Cert.KernelIdeal.ConvValue.final1 (V3 m ρ) c).trans
    (conv_congr true (p1_zV m ρ c) (p1_w1V m ρ c) (p1_b1V m ρ c) (p1_w2V m ρ c) (p1_b2V m ρ c)))

/-! ## Layer 3 of the tower (host stretch 2, region 2) -/

theorem p2_z (c : Dev nD) : W5 m ρ c (Proc.devRef .tc main_v58) = agg96 (W4 m ρ c (Proc.devRef .tc main_v39)) (W4 m ρ c (Proc.devRef .tc main_v1)) (W4 m ρ c (Proc.devRef .tc main_v3)) := by
  show StableHlo.after hostOps2 (W4 m ρ c) (Proc.devRef .tc main_v58) = _
  after_results_simp
  rfl
theorem p2_w1 (c : Dev nD) : W5 m ρ c (Proc.devRef .tc main_v41) = mat1 (W4 m ρ c (Proc.devRef .tc main_arg8)) := by
  show StableHlo.after hostOps2 (W4 m ρ c) (Proc.devRef .tc main_v41) = _
  after_results
  rfl
theorem p2_b1 (c : Dev nD) : W5 m ρ c (Proc.devRef .tc main_v59) = row (vec1 (W4 m ρ c (Proc.devRef .tc main_arg9))) := by
  show StableHlo.after hostOps2 (W4 m ρ c) (Proc.devRef .tc main_v59) = _
  after_results
  rfl
theorem p2_w2 (c : Dev nD) : W5 m ρ c (Proc.devRef .tc main_v45) = mat1 (W4 m ρ c (Proc.devRef .tc main_arg10)) := by
  show StableHlo.after hostOps2 (W4 m ρ c) (Proc.devRef .tc main_v45) = _
  after_results
  rfl
theorem p2_b2 (c : Dev nD) : W5 m ρ c (Proc.devRef .tc main_v60) = row (vec1 (W4 m ρ c (Proc.devRef .tc main_arg11))) := by
  show StableHlo.after hostOps2 (W4 m ρ c) (Proc.devRef .tc main_v60) = _
  after_results
  rfl
theorem p2_srcS (c : Dev nD) : W5 m ρ c (Proc.devRef .tc main_v1) = W4 m ρ c (Proc.devRef .tc main_v1) := by
  show StableHlo.after hostOps2 (W4 m ρ c) (Proc.devRef .tc main_v1) = _
  after_results
theorem p2_dstS (c : Dev nD) : W5 m ρ c (Proc.devRef .tc main_v3) = W4 m ρ c (Proc.devRef .tc main_v3) := by
  show StableHlo.after hostOps2 (W4 m ρ c) (Proc.devRef .tc main_v3) = _
  after_results
theorem p2_srcE (c : Dev nD) : W6 m ρ c (Proc.devRef .tc main_v1) = srcRaw (m ((c : Thread nD τ).loc main_arg28)) :=
  (W6_of_ne m ρ c main_v1 (by decide)).trans ((p2_srcS m ρ c).trans (p1_srcE m ρ c))
theorem p2_dstE (c : Dev nD) : W6 m ρ c (Proc.devRef .tc main_v3) = dstRaw (m ((c : Thread nD τ).loc main_arg28)) :=
  (W6_of_ne m ρ c main_v3 (by decide)).trans ((p2_dstS m ρ c).trans (p1_dstE m ρ c))
/-- What region 2 reads, in terms of the arguments. -/
theorem p2_zV (c : Dev nD) : W5 m ρ c (Proc.devRef .tc main_v58) = agg96 (lay2 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (m ((c : Thread nD τ).loc main_arg28)) (m ((c : Thread nD τ).loc main_arg8)) (m ((c : Thread nD τ).loc main_arg9)) (m ((c : Thread nD τ).loc main_arg10)) (m ((c : Thread nD τ).loc main_arg11))) (srcRaw (m ((c : Thread nD τ).loc main_arg28))) (dstRaw (m ((c : Thread nD τ).loc main_arg28))) :=
  (p2_z m ρ c).trans (agg96_congr (p1_outE m ρ c) (p1_srcE m ρ c) (p1_dstE m ρ c))
theorem p2_w1V (c : Dev nD) : W5 m ρ c (Proc.devRef .tc main_v41) = mat1 (m ((c : Thread nD τ).loc main_arg8)) :=
  (p2_w1 m ρ c).trans (congrArg mat1 (args4 m ρ c main_arg8 (by decide)))
theorem p2_b1V (c : Dev nD) : W5 m ρ c (Proc.devRef .tc main_v59) = row (vec1 (m ((c : Thread nD τ).loc main_arg9))) :=
  (p2_b1 m ρ c).trans (congrArg (fun v => row (vec1 v)) (args4 m ρ c main_arg9 (by decide)))
theorem p2_w2V (c : Dev nD) : W5 m ρ c (Proc.devRef .tc main_v45) = mat1 (m ((c : Thread nD τ).loc main_arg10)) :=
  (p2_w2 m ρ c).trans (congrArg mat1 (args4 m ρ c main_arg10 (by decide)))
theorem p2_b2V (c : Dev nD) : W5 m ρ c (Proc.devRef .tc main_v60) = row (vec1 (m ((c : Thread nD τ).loc main_arg11))) :=
  (p2_b2 m ρ c).trans (congrArg (fun v => row (vec1 v)) (args4 m ρ c main_arg11 (by decide)))
/-- Region 2's output array: layer 3 applied to the previous layer's output. -/
theorem p2_outE (c : Dev nD) : W6 m ρ c (Proc.devRef .tc main_v61) = lay3 (lay2 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (m ((c : Thread nD τ).loc main_arg28)) (m ((c : Thread nD τ).loc main_arg8)) (m ((c : Thread nD τ).loc main_arg9)) (m ((c : Thread nD τ).loc main_arg10)) (m ((c : Thread nD τ).loc main_arg11))) (m ((c : Thread nD τ).loc main_arg28)) (m ((c : Thread nD τ).loc main_arg8)) (m ((c : Thread nD τ).loc main_arg9)) (m ((c : Thread nD τ).loc main_arg10)) (m ((c : Thread nD τ).loc main_arg11)) :=
  (W6_arr m ρ c 5).trans ((Cert.KernelIdeal.ConvValue.final2 (V5 m ρ) c).trans
    (conv_congr true (p2_zV m ρ c) (p2_w1V m ρ c) (p2_b1V m ρ c) (p2_w2V m ρ c) (p2_b2V m ρ c)))

/-! ## Layer 4 of the tower (host stretch 3, region 3) -/

theorem p3_z (c : Dev nD) : W7 m ρ c (Proc.devRef .tc main_v80) = agg96 (W6 m ρ c (Proc.devRef .tc main_v61)) (W6 m ρ c (Proc.devRef .tc main_v1)) (W6 m ρ c (Proc.devRef .tc main_v3)) := by
  show StableHlo.after hostOps3 (W6 m ρ c) (Proc.devRef .tc main_v80) = _
  after_results_simp
  rfl
theorem p3_w1 (c : Dev nD) : W7 m ρ c (Proc.devRef .tc main_v63) = mat2 (W6 m ρ c (Proc.devRef .tc main_arg8)) := by
  show StableHlo.after hostOps3 (W6 m ρ c) (Proc.devRef .tc main_v63) = _
  after_results
  rfl
theorem p3_b1 (c : Dev nD) : W7 m ρ c (Proc.devRef .tc main_v81) = row (vec2 (W6 m ρ c (Proc.devRef .tc main_arg9))) := by
  show StableHlo.after hostOps3 (W6 m ρ c) (Proc.devRef .tc main_v81) = _
  after_results
  rfl
theorem p3_w2 (c : Dev nD) : W7 m ρ c (Proc.devRef .tc main_v67) = mat2 (W6 m ρ c (Proc.devRef .tc main_arg10)) := by
  show StableHlo.after hostOps3 (W6 m ρ c) (Proc.devRef .tc main_v67) = _
  after_results
  rfl
theorem p3_b2 (c : Dev nD) : W7 m ρ c (Proc.devRef .tc main_v82) = row (vec2 (W6 m ρ c (Proc.devRef .tc main_arg11))) := by
  show StableHlo.after hostOps3 (W6 m ρ c) (Proc.devRef .tc main_v82) = _
  after_results
  rfl
theorem p3_srcS (c : Dev nD) : W7 m ρ c (Proc.devRef .tc main_v1) = W6 m ρ c (Proc.devRef .tc main_v1) := by
  show StableHlo.after hostOps3 (W6 m ρ c) (Proc.devRef .tc main_v1) = _
  after_results
theorem p3_dstS (c : Dev nD) : W7 m ρ c (Proc.devRef .tc main_v3) = W6 m ρ c (Proc.devRef .tc main_v3) := by
  show StableHlo.after hostOps3 (W6 m ρ c) (Proc.devRef .tc main_v3) = _
  after_results
theorem p3_srcE (c : Dev nD) : W8 m ρ c (Proc.devRef .tc main_v1) = srcRaw (m ((c : Thread nD τ).loc main_arg28)) :=
  (W8_of_ne m ρ c main_v1 (by decide)).trans ((p3_srcS m ρ c).trans (p2_srcE m ρ c))
theorem p3_dstE (c : Dev nD) : W8 m ρ c (Proc.devRef .tc main_v3) = dstRaw (m ((c : Thread nD τ).loc main_arg28)) :=
  (W8_of_ne m ρ c main_v3 (by decide)).trans ((p3_dstS m ρ c).trans (p2_dstE m ρ c))
/-- What region 3 reads, in terms of the arguments. -/
theorem p3_zV (c : Dev nD) : W7 m ρ c (Proc.devRef .tc main_v80) = agg96 (lay3 (lay2 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (m ((c : Thread nD τ).loc main_arg28)) (m ((c : Thread nD τ).loc main_arg8)) (m ((c : Thread nD τ).loc main_arg9)) (m ((c : Thread nD τ).loc main_arg10)) (m ((c : Thread nD τ).loc main_arg11))) (m ((c : Thread nD τ).loc main_arg28)) (m ((c : Thread nD τ).loc main_arg8)) (m ((c : Thread nD τ).loc main_arg9)) (m ((c : Thread nD τ).loc main_arg10)) (m ((c : Thread nD τ).loc main_arg11))) (srcRaw (m ((c : Thread nD τ).loc main_arg28))) (dstRaw (m ((c : Thread nD τ).loc main_arg28))) :=
  (p3_z m ρ c).trans (agg96_congr (p2_outE m ρ c) (p2_srcE m ρ c) (p2_dstE m ρ c))
theorem p3_w1V (c : Dev nD) : W7 m ρ c (Proc.devRef .tc main_v63) = mat2 (m ((c : Thread nD τ).loc main_arg8)) :=
  (p3_w1 m ρ c).trans (congrArg mat2 (args6 m ρ c main_arg8 (by decide)))
theorem p3_b1V (c : Dev nD) : W7 m ρ c (Proc.devRef .tc main_v81) = row (vec2 (m ((c : Thread nD τ).loc main_arg9))) :=
  (p3_b1 m ρ c).trans (congrArg (fun v => row (vec2 v)) (args6 m ρ c main_arg9 (by decide)))
theorem p3_w2V (c : Dev nD) : W7 m ρ c (Proc.devRef .tc main_v67) = mat2 (m ((c : Thread nD τ).loc main_arg10)) :=
  (p3_w2 m ρ c).trans (congrArg mat2 (args6 m ρ c main_arg10 (by decide)))
theorem p3_b2V (c : Dev nD) : W7 m ρ c (Proc.devRef .tc main_v82) = row (vec2 (m ((c : Thread nD τ).loc main_arg11))) :=
  (p3_b2 m ρ c).trans (congrArg (fun v => row (vec2 v)) (args6 m ρ c main_arg11 (by decide)))
/-- Region 3's output array: layer 4 applied to the previous layer's output. -/
theorem p3_outE (c : Dev nD) : W8 m ρ c (Proc.devRef .tc main_v83) = lay4 (lay3 (lay2 (lay1 (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7))) (m ((c : Thread nD τ).loc main_arg28)) (m ((c : Thread nD τ).loc main_arg8)) (m ((c : Thread nD τ).loc main_arg9)) (m ((c : Thread nD τ).loc main_arg10)) (m ((c : Thread nD τ).loc main_arg11))) (m ((c : Thread nD τ).loc main_arg28)) (m ((c : Thread nD τ).loc main_arg8)) (m ((c : Thread nD τ).loc main_arg9)) (m ((c : Thread nD τ).loc main_arg10)) (m ((c : Thread nD τ).loc main_arg11))) (m ((c : Thread nD τ).loc main_arg28)) (m ((c : Thread nD τ).loc main_arg8)) (m ((c : Thread nD τ).loc main_arg9)) (m ((c : Thread nD τ).loc main_arg10)) (m ((c : Thread nD τ).loc main_arg11)) :=
  (W8_arr m ρ c 5).trans ((Cert.KernelIdeal.ConvValue.final3 (V7 m ρ) c).trans
    (conv_congr false (p3_zV m ρ c) (p3_w1V m ρ c) (p3_b1V m ρ c) (p3_w2V m ρ c) (p3_b2V m ρ c)))

end Cert.KernelIdeal.Chain

end
-- ==== Proof.ConvFinal4.lean ====
/-
  The output array of the second 64-feature node-perceptron region after the region, as a function of its five input arrays.

  The grid has twenty points. At point t the feature window holds rows 5000 t … 5000 t + 4999 of the [100000, 64] feature
  array, the two weight matrices and the two bias rows are whole at every point, and the output window is rows
  5000 t … 5000 t + 4999 of the [100000, 96] output. The body stores the perceptron (followed by relu) of its block. The
  perceptron is computed row by row, so the block point t writes back is block t of the perceptron of the whole feature
  array; row r of the output lies in the block of point r / 5000, and 20 · 5000 = 100000, so the blocks cover the array.
  The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of every access of the body, as a constant function. -/
theorem r4_zeros : (![0, 0] : Fin 2 → Nat) = fun _ => 0 := funext fun a => by fin_cases a <;> rfl

/-- What the body leaves in the output's staging buffer, as a function of the contents of the five input buffers: every
    load reads a whole buffer and the one store writes the whole output buffer, so it is the perceptron of the block. -/
theorem r4_stored_eq (x0 : Vec Ideal S5000x64 .f32) (x1 : Vec Ideal S64x96 .f32) (x2 : Vec Ideal S1x96 .f32)
    (x3 : Vec Ideal S96x96 .f32) (x4 : Vec Ideal S1x96 .f32) :
    Gen.out4_5 (F := Ideal) x0 x1 x2 x3 x4 = Cert.GinSpec.conv true x0 x1 x2 x3 x4 := by
  unfold Gen.out4_5
  rw [View.canon_unit_zero r4_zeros]
  simp only [View.ld_unit_zero (S := S5000x64) r4_zeros, View.ld_unit_zero (S := S64x96) r4_zeros,
    View.ld_unit_zero (S := S96x96) r4_zeros, View.ld_unit_zero (S := S1x96) r4_zeros]
  exact pay4 x0 x1 x3 x2 x4

/-- The block indices, decided over the grid's twenty points: the feature window and the output window are at block
    (t, 0), the weight and bias windows at block (0, 0). -/
theorem r4_idx_facts : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-! ## The weight and bias windows' blocks are their whole arrays, at every point -/

/-- Window 1's block is its whole array at every point. -/
theorem r4_whole_1 (c : Dev nD) (t : Fin cfg4.N) :
    (iblk4 V c 1 t : Vec Ideal S64x96 .f32) = (V c (Pipeline.arrRef spec4 1) : Vec Ideal S64x96 .f32) := by
  obtain ⟨-, -, -, -, e0, e1, -, -, -, -, -, -⟩ := r4_idx_facts t
  unfold iblk4
  have hz' : (fun a => win4_1.index t a * main_arg12.ty.shape.size a) = fun _ => 0 := funext fun a => by
    match a with
    | ⟨0, _⟩ => show win4_1.index t (0 : Fin 2) * _ = 0; rw [e0, Nat.zero_mul]
    | ⟨1, _⟩ => show win4_1.index t (1 : Fin 2) * _ = 0; rw [e1, Nat.zero_mul]
  exact Memref.read_access_unit_zero (Elt Ideal) main_arg12 hz' (fun a => by rw [congrFun hz' a]; simp) (V c (Pipeline.arrRef spec4 1))

/-- Window 2's block is its whole array at every point. -/
theorem r4_whole_2 (c : Dev nD) (t : Fin cfg4.N) :
    (iblk4 V c 2 t : Vec Ideal S1x96 .f32) = (V c (Pipeline.arrRef spec4 2) : Vec Ideal S1x96 .f32) := by
  obtain ⟨-, -, -, -, -, -, e0, e1, -, -, -, -⟩ := r4_idx_facts t
  unfold iblk4
  have hz' : (fun a => win4_2.index t a * main_v99.ty.shape.size a) = fun _ => 0 := funext fun a => by
    match a with
    | ⟨0, _⟩ => show win4_2.index t (0 : Fin 2) * _ = 0; rw [e0, Nat.zero_mul]
    | ⟨1, _⟩ => show win4_2.index t (1 : Fin 2) * _ = 0; rw [e1, Nat.zero_mul]
  exact Memref.read_access_unit_zero (Elt Ideal) main_v99 hz' (fun a => by rw [congrFun hz' a]; simp) (V c (Pipeline.arrRef spec4 2))

/-- Window 3's block is its whole array at every point. -/
theorem r4_whole_3 (c : Dev nD) (t : Fin cfg4.N) :
    (iblk4 V c 3 t : Vec Ideal S96x96 .f32) = (V c (Pipeline.arrRef spec4 3) : Vec Ideal S96x96 .f32) := by
  obtain ⟨-, -, -, -, -, -, -, -, e0, e1, -, -⟩ := r4_idx_facts t
  unfold iblk4
  have hz' : (fun a => win4_3.index t a * main_arg14.ty.shape.size a) = fun _ => 0 := funext fun a => by
    match a with
    | ⟨0, _⟩ => show win4_3.index t (0 : Fin 2) * _ = 0; rw [e0, Nat.zero_mul]
    | ⟨1, _⟩ => show win4_3.index t (1 : Fin 2) * _ = 0; rw [e1, Nat.zero_mul]
  exact Memref.read_access_unit_zero (Elt Ideal) main_arg14 hz' (fun a => by rw [congrFun hz' a]; simp) (V c (Pipeline.arrRef spec4 3))

/-- Window 4's block is its whole array at every point. -/
theorem r4_whole_4 (c : Dev nD) (t : Fin cfg4.N) :
    (iblk4 V c 4 t : Vec Ideal S1x96 .f32) = (V c (Pipeline.arrRef spec4 4) : Vec Ideal S1x96 .f32) := by
  obtain ⟨-, -, -, -, -, -, -, -, -, -, e0, e1⟩ := r4_idx_facts t
  unfold iblk4
  have hz' : (fun a => win4_4.index t a * main_v100.ty.shape.size a) = fun _ => 0 := funext fun a => by
    match a with
    | ⟨0, _⟩ => show win4_4.index t (0 : Fin 2) * _ = 0; rw [e0, Nat.zero_mul]
    | ⟨1, _⟩ => show win4_4.index t (1 : Fin 2) * _ = 0; rw [e1, Nat.zero_mul]
  exact Memref.read_access_unit_zero (Elt Ideal) main_v100 hz' (fun a => by rw [congrFun hz' a]; simp) (V c (Pipeline.arrRef spec4 4))

/-! ## What a point writes back, and the array after the run -/

/-- Point t writes back block t of the perceptron of the whole feature array: the perceptron is row by row, row y of
    block t of the features is row 5000 t + y of the array, and the weights and biases are whole at every point. -/
theorem r4_writeback_eq (c : Dev nD) (t : Fin cfg4.N) :
    (dat4 V c).flushed 5 t = ((cfg4.win 5).blk t).view.read (Elt Ideal)
      (Cert.GinSpec.conv true (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5, r4_stored_eq]
  obtain ⟨e00, e01, e50, e51, -⟩ := r4_idx_facts t
  funext y
  show Cert.GinSpec.conv true (iblk4 V c 0 t) (iblk4 V c 1 t) (iblk4 V c 2 t) (iblk4 V c 3 t) (iblk4 V c 4 t) y
      = Cert.GinSpec.conv true (V c (Pipeline.arrRef spec4 0)) (V c (Pipeline.arrRef spec4 1)) (V c (Pipeline.arrRef spec4 2)) (V c (Pipeline.arrRef spec4 3)) (V c (Pipeline.arrRef spec4 4)) (((cfg4.win 5).blk t).view.emb y)
  refine conv_rows true _ _ _ _ _ _ _ _ _ _ y _ (fun a => ?_) (r4_whole_1 V c t) (r4_whole_2 V c t) (r4_whole_3 V c t)
    (r4_whole_4 V c t) ?_
  · show V c (Pipeline.arrRef spec4 0) (((cfg4.win 0).blk t).view.emb (ix2 (y 0) a))
      = V c (Pipeline.arrRef spec4 0) (ix2 ((((cfg4.win 5).blk t).view.emb y) 0) a)
    refine congrArg _ (funext fun ax => Fin.ext ?_)
    match ax with
    | ⟨0, _⟩ =>
      show win4_0.index t (0 : Fin 2) * 5000 + 1 * (y 0).val = win4_5.index t (0 : Fin 2) * 5000 + 1 * (y 0).val
      rw [e00, e50]
    | ⟨1, _⟩ =>
      show win4_0.index t (1 : Fin 2) * 64 + 1 * a.val = a.val
      rw [e01]; omega
  · apply Fin.ext
    show (y 1).val = win4_5.index t (1 : Fin 2) * 96 + 1 * (y 1).val
    rw [e51]; omega

/-- An index of the output array is in point t's block iff each coordinate is in the block's range on its axis. -/
theorem r4_mem_blk (t : Fin cfg4.N) (i : S100000x96.Idx) :
    i ∈ ((cfg4.win 5).blk t).view.set ↔ ∀ a : Fin 2, win4_5.index t a * S5000x96.size a ≤ (i a).val
      ∧ (i a).val < win4_5.index t a * S5000x96.size a + S5000x96.size a := by
  show i ∈ ((View.whole main_v101).slice (win4_5.rect t)).set ↔ _
  rw [View.set_slice_whole, Rect.mem_set_unit]
  exact Iff.rfl

/-- Row r of the output lies in the block of point r / 5000: the twenty blocks of 5000 rows cover the 100000 rows. -/
theorem r4_cover (i : S100000x96.Idx) :
    ∃ t : Fin cfg4.N, (cfg4.win 5).flush t = true ∧ i ∈ ((cfg4.win 5).blk t).view.set := by
  have hN : cfg4.N = 20 := N_4
  have hi0 : (i 0).val < 100000 := (i 0).isLt
  have hi1 : (i 1).val < 96 := (i 1).isLt
  refine ⟨⟨(i 0).val / 5000, by rw [hN]; omega⟩, flush4_5 _, ?_⟩
  obtain ⟨-, -, e50, e51, -⟩ := r4_idx_facts ⟨(i 0).val / 5000, by rw [hN]; omega⟩
  rw [r4_mem_blk]
  intro a
  match a with
  | ⟨0, _⟩ =>
    show win4_5.index _ (0 : Fin 2) * 5000 ≤ (i 0).val ∧ (i 0).val < win4_5.index _ (0 : Fin 2) * 5000 + 5000
    rw [e50]; show (i 0).val / 5000 * 5000 ≤ (i 0).val ∧ (i 0).val < (i 0).val / 5000 * 5000 + 5000; omega
  | ⟨1, _⟩ =>
    show win4_5.index _ (1 : Fin 2) * 96 ≤ (i 1).val ∧ (i 1).val < win4_5.index _ (1 : Fin 2) * 96 + 96
    rw [e51]; omega

/-- The output array after the region: the perceptron, followed by relu, of the feature array, the weights and the bias
    rows as the region finds them. -/
theorem final4 (c : Dev nD) :
    (Gen.dat4 (F := Ideal) V c).arrAt 5 cfg4.N = Cert.GinSpec.conv true (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 _ (fun t _ => r4_writeback_eq V c t) (r4_cover)

end Cert.KernelIdeal.ConvValue

end
-- ==== Proof.ConvFinal5.lean ====
/-
  The output array of the second tower's second 96-feature node-perceptron region, after the region, as a function of
  its five input arrays.

  The grid has twenty points. At point t the feature window holds rows 5000 t … 5000 t + 4999 of the [100000, 96] feature
  array, the two weight matrices and the two bias rows are staged whole at every point, and the output window is rows
  5000 t … 5000 t + 4999 of the [100000, 96] output. The body stores the perceptron of its block, followed by relu. An entry
  of the perceptron depends only on its own row of the features, so what point t writes back is block t of the
  perceptron of the whole feature array; row r of the output lies in the block of point r / 5000, and 20 · 5000 = 100000,
  so the blocks cover the array. The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of every access of the body, as a constant function. -/
theorem r5_origin : (![0, 0] : Fin 2 → Nat) = fun _ => 0 := funext fun a => by fin_cases a <;> rfl

/-- The block indices, decided over the grid's twenty points: the feature window and the output window are at block
    (t, 0), the weight and bias windows at block (0, 0). -/
theorem r5_block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! ## The weight and bias windows' blocks are their whole arrays, at every point -/

/-- Window 1's block is its whole array at every point: its block index is (0, 0) and the block has the array's extents. -/
theorem r5_whole_1 (c : Dev nD) (t : Fin cfg5.N) :
    (iblk5 V c 1 t : Vec Ideal S96x96 .f32) = (V c (Pipeline.arrRef spec5 1) : Vec Ideal S96x96 .f32) := by
  obtain ⟨-, -, e10, e11, e20, e21, e30, e31, e40, e41, -, -⟩ := r5_block_index t
  funext x
  show V c (Pipeline.arrRef spec5 1) (((cfg5.win 1).blk t).view.emb x) = V c (Pipeline.arrRef spec5 1) x
  refine congrArg _ ?_
  funext a; apply Fin.ext
  match a with
  | ⟨0, _⟩ => show win5_1.index t (0 : Fin 2) * 96 + 1 * (x 0).val = (x 0).val; omega
  | ⟨1, _⟩ => show win5_1.index t (1 : Fin 2) * 96 + 1 * (x 1).val = (x 1).val; omega

/-- Window 2's block is its whole array at every point: its block index is (0, 0) and the block has the array's extents. -/
theorem r5_whole_2 (c : Dev nD) (t : Fin cfg5.N) :
    (iblk5 V c 2 t : Vec Ideal S1x96 .f32) = (V c (Pipeline.arrRef spec5 2) : Vec Ideal S1x96 .f32) := by
  obtain ⟨-, -, e10, e11, e20, e21, e30, e31, e40, e41, -, -⟩ := r5_block_index t
  funext x
  show V c (Pipeline.arrRef spec5 2) (((cfg5.win 2).blk t).view.emb x) = V c (Pipeline.arrRef spec5 2) x
  refine congrArg _ ?_
  funext a; apply Fin.ext
  match a with
  | ⟨0, _⟩ => show win5_2.index t (0 : Fin 2) * 1 + 1 * (x 0).val = (x 0).val; omega
  | ⟨1, _⟩ => show win5_2.index t (1 : Fin 2) * 96 + 1 * (x 1).val = (x 1).val; omega

/-- Window 3's block is its whole array at every point: its block index is (0, 0) and the block has the array's extents. -/
theorem r5_whole_3 (c : Dev nD) (t : Fin cfg5.N) :
    (iblk5 V c 3 t : Vec Ideal S96x96 .f32) = (V c (Pipeline.arrRef spec5 3) : Vec Ideal S96x96 .f32) := by
  obtain ⟨-, -, e10, e11, e20, e21, e30, e31, e40, e41, -, -⟩ := r5_block_index t
  funext x
  show V c (Pipeline.arrRef spec5 3) (((cfg5.win 3).blk t).view.emb x) = V c (Pipeline.arrRef spec5 3) x
  refine congrArg _ ?_
  funext a; apply Fin.ext
  match a with
  | ⟨0, _⟩ => show win5_3.index t (0 : Fin 2) * 96 + 1 * (x 0).val = (x 0).val; omega
  | ⟨1, _⟩ => show win5_3.index t (1 : Fin 2) * 96 + 1 * (x 1).val = (x 1).val; omega

/-- Window 4's block is its whole array at every point: its block index is (0, 0) and the block has the array's extents. -/
theorem r5_whole_4 (c : Dev nD) (t : Fin cfg5.N) :
    (iblk5 V c 4 t : Vec Ideal S1x96 .f32) = (V c (Pipeline.arrRef spec5 4) : Vec Ideal S1x96 .f32) := by
  obtain ⟨-, -, e10, e11, e20, e21, e30, e31, e40, e41, -, -⟩ := r5_block_index t
  funext x
  show V c (Pipeline.arrRef spec5 4) (((cfg5.win 4).blk t).view.emb x) = V c (Pipeline.arrRef spec5 4) x
  refine congrArg _ ?_
  funext a; apply Fin.ext
  match a with
  | ⟨0, _⟩ => show win5_4.index t (0 : Fin 2) * 1 + 1 * (x 0).val = (x 0).val; omega
  | ⟨1, _⟩ => show win5_4.index t (1 : Fin 2) * 96 + 1 * (x 1).val = (x 1).val; omega

/-! ## The feature window's block is a block of rows -/

/-- Window 0 stages rows 5000 t … 5000 t + 4999 of its array: entry x of the block is entry i of the array whenever
    i's row is 5000 t plus x's row and the columns agree. -/
theorem r5_row_block (c : Dev nD) (t : Fin cfg5.N) (x : S5000x96.Idx) (i : S100000x96.Idx)
    (h0 : (i 0).val = t.val * 5000 + (x 0).val) (h1 : (i 1).val = (x 1).val) :
    (iblk5 V c 0 t : Vec Ideal S5000x96 .f32) x = (V c (Pipeline.arrRef spec5 0) : Vec Ideal S100000x96 .f32) i := by
  obtain ⟨e00, e01, -⟩ := r5_block_index t
  show V c (Pipeline.arrRef spec5 0) (((cfg5.win 0).blk t).view.emb x) = V c (Pipeline.arrRef spec5 0) i
  refine congrArg _ ?_
  funext a; apply Fin.ext
  match a with
  | ⟨0, _⟩ => show win5_0.index t (0 : Fin 2) * 5000 + 1 * (x 0).val = (i 0).val; omega
  | ⟨1, _⟩ => show win5_0.index t (1 : Fin 2) * 96 + 1 * (x 1).val = (i 1).val; omega

/-! ## What a point writes back, and the array after the run -/

/-- Point t writes back block t of the perceptron of the whole feature array: every load of the body reads a whole staging
    buffer and its one store writes the whole output buffer, so the body leaves the perceptron of its block; row y of block
    t of the features is row 5000 t + y of the array, and the weights and biases are whole at every point. -/
theorem r5_flushed (c : Dev nD) (t : Fin cfg5.N) :
    (dat5 (F := Ideal) V c).flushed 5 t = ((cfg5.win 5).blk t).view.read (Elt Ideal)
      (Cert.GinSpec.conv true (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero r5_origin]
  simp only [View.ld_unit_zero (S := S5000x96) r5_origin, View.ld_unit_zero (S := S96x96) r5_origin,
    View.ld_unit_zero (S := S1x96) r5_origin]
  rw [pay5]
  obtain ⟨e00, e01, -, -, -, -, -, -, -, -, e50, e51⟩ := r5_block_index t
  funext y
  show Cert.GinSpec.conv true (iblk5 V c 0 t) (iblk5 V c 1 t) (iblk5 V c 2 t) (iblk5 V c 3 t) (iblk5 V c 4 t) y
    = Cert.GinSpec.conv true (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb y)
  refine conv_rows true _ _ _ _ _ _ _ _ _ _ y _ (fun a => ?_) (r5_whole_1 V c t) (r5_whole_2 V c t)
    (r5_whole_3 V c t) (r5_whole_4 V c t) ?_
  · refine r5_row_block V c t _ _ ?_ ?_
    · show win5_5.index t (0 : Fin 2) * 5000 + 1 * (y 0).val = t.val * 5000 + (y 0).val
      omega
    · rfl
  · apply Fin.ext
    show (y 1).val = win5_5.index t (1 : Fin 2) * 96 + 1 * (y 1).val
    omega

/-- The output array after the region: the perceptron, followed by relu, of the feature array, the weights and the bias rows as
    the region finds them. Row r of the output lies in the block of point r / 5000. -/
theorem final5 (c : Dev nD) :
    (Gen.dat5 (F := Ideal) V c).arrAt 5 cfg5.N = Cert.GinSpec.conv true (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => r5_flushed V c t) fun i => by
    have hN : cfg5.N = 20 := N_5
    have hi0 : (i 0).val < 100000 := (i 0).isLt
    have hi1 : (i 1).val < 96 := (i 1).isLt
    obtain ⟨t, ht⟩ : ∃ t : Fin cfg5.N, t.val = (i 0).val / 5000 := ⟨⟨(i 0).val / 5000, by rw [hN]; omega⟩, rfl⟩
    obtain ⟨-, -, -, -, -, -, -, -, -, -, e50, e51⟩ := r5_block_index t
    refine ⟨t, flush5_5 t, ?_⟩
    show i ∈ ((View.whole main_v123).slice (win5_5.rect t)).set
    rw [View.set_slice_whole, Rect.mem_set_unit]
    intro a
    match a with
    | ⟨0, _⟩ => show win5_5.index t (0 : Fin 2) * 5000 ≤ (i 0).val ∧ (i 0).val < win5_5.index t (0 : Fin 2) * 5000 + 5000; omega
    | ⟨1, _⟩ => show win5_5.index t (1 : Fin 2) * 96 ≤ (i 1).val ∧ (i 1).val < win5_5.index t (1 : Fin 2) * 96 + 96; omega

end Cert.KernelIdeal.ConvValue

end
-- ==== Proof.ConvFinal6.lean ====
/-
  The output array of the second tower's third 96-feature node-perceptron region, after the region, as a function of
  its five input arrays.

  The grid has twenty points. At point t the feature window holds rows 5000 t … 5000 t + 4999 of the [100000, 96] feature
  array, the two weight matrices and the two bias rows are staged whole at every point, and the output window is rows
  5000 t … 5000 t + 4999 of the [100000, 96] output. The body stores the perceptron of its block, followed by relu. An entry
  of the perceptron depends only on its own row of the features, so what point t writes back is block t of the
  perceptron of the whole feature array; row r of the output lies in the block of point r / 5000, and 20 · 5000 = 100000,
  so the blocks cover the array. The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of every access of the body, as a constant function. -/
theorem r6_origin : (![0, 0] : Fin 2 → Nat) = fun _ => 0 := funext fun a => by fin_cases a <;> rfl

/-- The block indices, decided over the grid's twenty points: the feature window and the output window are at block
    (t, 0), the weight and bias windows at block (0, 0). -/
theorem r6_block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-! ## The weight and bias windows' blocks are their whole arrays, at every point -/

/-- Window 1's block is its whole array at every point: its block index is (0, 0) and the block has the array's extents. -/
theorem r6_whole_1 (c : Dev nD) (t : Fin cfg6.N) :
    (iblk6 V c 1 t : Vec Ideal S96x96 .f32) = (V c (Pipeline.arrRef spec6 1) : Vec Ideal S96x96 .f32) := by
  obtain ⟨-, -, e10, e11, e20, e21, e30, e31, e40, e41, -, -⟩ := r6_block_index t
  funext x
  show V c (Pipeline.arrRef spec6 1) (((cfg6.win 1).blk t).view.emb x) = V c (Pipeline.arrRef spec6 1) x
  refine congrArg _ ?_
  funext a; apply Fin.ext
  match a with
  | ⟨0, _⟩ => show win6_1.index t (0 : Fin 2) * 96 + 1 * (x 0).val = (x 0).val; omega
  | ⟨1, _⟩ => show win6_1.index t (1 : Fin 2) * 96 + 1 * (x 1).val = (x 1).val; omega

/-- Window 2's block is its whole array at every point: its block index is (0, 0) and the block has the array's extents. -/
theorem r6_whole_2 (c : Dev nD) (t : Fin cfg6.N) :
    (iblk6 V c 2 t : Vec Ideal S1x96 .f32) = (V c (Pipeline.arrRef spec6 2) : Vec Ideal S1x96 .f32) := by
  obtain ⟨-, -, e10, e11, e20, e21, e30, e31, e40, e41, -, -⟩ := r6_block_index t
  funext x
  show V c (Pipeline.arrRef spec6 2) (((cfg6.win 2).blk t).view.emb x) = V c (Pipeline.arrRef spec6 2) x
  refine congrArg _ ?_
  funext a; apply Fin.ext
  match a with
  | ⟨0, _⟩ => show win6_2.index t (0 : Fin 2) * 1 + 1 * (x 0).val = (x 0).val; omega
  | ⟨1, _⟩ => show win6_2.index t (1 : Fin 2) * 96 + 1 * (x 1).val = (x 1).val; omega

/-- Window 3's block is its whole array at every point: its block index is (0, 0) and the block has the array's extents. -/
theorem r6_whole_3 (c : Dev nD) (t : Fin cfg6.N) :
    (iblk6 V c 3 t : Vec Ideal S96x96 .f32) = (V c (Pipeline.arrRef spec6 3) : Vec Ideal S96x96 .f32) := by
  obtain ⟨-, -, e10, e11, e20, e21, e30, e31, e40, e41, -, -⟩ := r6_block_index t
  funext x
  show V c (Pipeline.arrRef spec6 3) (((cfg6.win 3).blk t).view.emb x) = V c (Pipeline.arrRef spec6 3) x
  refine congrArg _ ?_
  funext a; apply Fin.ext
  match a with
  | ⟨0, _⟩ => show win6_3.index t (0 : Fin 2) * 96 + 1 * (x 0).val = (x 0).val; omega
  | ⟨1, _⟩ => show win6_3.index t (1 : Fin 2) * 96 + 1 * (x 1).val = (x 1).val; omega

/-- Window 4's block is its whole array at every point: its block index is (0, 0) and the block has the array's extents. -/
theorem r6_whole_4 (c : Dev nD) (t : Fin cfg6.N) :
    (iblk6 V c 4 t : Vec Ideal S1x96 .f32) = (V c (Pipeline.arrRef spec6 4) : Vec Ideal S1x96 .f32) := by
  obtain ⟨-, -, e10, e11, e20, e21, e30, e31, e40, e41, -, -⟩ := r6_block_index t
  funext x
  show V c (Pipeline.arrRef spec6 4) (((cfg6.win 4).blk t).view.emb x) = V c (Pipeline.arrRef spec6 4) x
  refine congrArg _ ?_
  funext a; apply Fin.ext
  match a with
  | ⟨0, _⟩ => show win6_4.index t (0 : Fin 2) * 1 + 1 * (x 0).val = (x 0).val; omega
  | ⟨1, _⟩ => show win6_4.index t (1 : Fin 2) * 96 + 1 * (x 1).val = (x 1).val; omega

/-! ## The feature window's block is a block of rows -/

/-- Window 0 stages rows 5000 t … 5000 t + 4999 of its array: entry x of the block is entry i of the array whenever
    i's row is 5000 t plus x's row and the columns agree. -/
theorem r6_row_block (c : Dev nD) (t : Fin cfg6.N) (x : S5000x96.Idx) (i : S100000x96.Idx)
    (h0 : (i 0).val = t.val * 5000 + (x 0).val) (h1 : (i 1).val = (x 1).val) :
    (iblk6 V c 0 t : Vec Ideal S5000x96 .f32) x = (V c (Pipeline.arrRef spec6 0) : Vec Ideal S100000x96 .f32) i := by
  obtain ⟨e00, e01, -⟩ := r6_block_index t
  show V c (Pipeline.arrRef spec6 0) (((cfg6.win 0).blk t).view.emb x) = V c (Pipeline.arrRef spec6 0) i
  refine congrArg _ ?_
  funext a; apply Fin.ext
  match a with
  | ⟨0, _⟩ => show win6_0.index t (0 : Fin 2) * 5000 + 1 * (x 0).val = (i 0).val; omega
  | ⟨1, _⟩ => show win6_0.index t (1 : Fin 2) * 96 + 1 * (x 1).val = (i 1).val; omega

/-! ## What a point writes back, and the array after the run -/

/-- Point t writes back block t of the perceptron of the whole feature array: every load of the body reads a whole staging
    buffer and its one store writes the whole output buffer, so the body leaves the perceptron of its block; row y of block
    t of the features is row 5000 t + y of the array, and the weights and biases are whole at every point. -/
theorem r6_flushed (c : Dev nD) (t : Fin cfg6.N) :
    (dat6 (F := Ideal) V c).flushed 5 t = ((cfg6.win 5).blk t).view.read (Elt Ideal)
      (Cert.GinSpec.conv true (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero r6_origin]
  simp only [View.ld_unit_zero (S := S5000x96) r6_origin, View.ld_unit_zero (S := S96x96) r6_origin,
    View.ld_unit_zero (S := S1x96) r6_origin]
  rw [pay6]
  obtain ⟨e00, e01, -, -, -, -, -, -, -, -, e50, e51⟩ := r6_block_index t
  funext y
  show Cert.GinSpec.conv true (iblk6 V c 0 t) (iblk6 V c 1 t) (iblk6 V c 2 t) (iblk6 V c 3 t) (iblk6 V c 4 t) y
    = Cert.GinSpec.conv true (V c (Pipeline.arrRef spec6 0)) (V c (Pipeline.arrRef spec6 1)) (V c (Pipeline.arrRef spec6 2))
        (V c (Pipeline.arrRef spec6 3)) (V c (Pipeline.arrRef spec6 4)) (((cfg6.win 5).blk t).view.emb y)
  refine conv_rows true _ _ _ _ _ _ _ _ _ _ y _ (fun a => ?_) (r6_whole_1 V c t) (r6_whole_2 V c t)
    (r6_whole_3 V c t) (r6_whole_4 V c t) ?_
  · refine r6_row_block V c t _ _ ?_ ?_
    · show win6_5.index t (0 : Fin 2) * 5000 + 1 * (y 0).val = t.val * 5000 + (y 0).val
      omega
    · rfl
  · apply Fin.ext
    show (y 1).val = win6_5.index t (1 : Fin 2) * 96 + 1 * (y 1).val
    omega

/-- The output array after the region: the perceptron, followed by relu, of the feature array, the weights and the bias rows as
    the region finds them. Row r of the output lies in the block of point r / 5000. -/
theorem final6 (c : Dev nD) :
    (Gen.dat6 (F := Ideal) V c).arrAt 5 cfg6.N = Cert.GinSpec.conv true (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => r6_flushed V c t) fun i => by
    have hN : cfg6.N = 20 := N_6
    have hi0 : (i 0).val < 100000 := (i 0).isLt
    have hi1 : (i 1).val < 96 := (i 1).isLt
    obtain ⟨t, ht⟩ : ∃ t : Fin cfg6.N, t.val = (i 0).val / 5000 := ⟨⟨(i 0).val / 5000, by rw [hN]; omega⟩, rfl⟩
    obtain ⟨-, -, -, -, -, -, -, -, -, -, e50, e51⟩ := r6_block_index t
    refine ⟨t, flush6_5 t, ?_⟩
    show i ∈ ((View.whole main_v145).slice (win6_5.rect t)).set
    rw [View.set_slice_whole, Rect.mem_set_unit]
    intro a
    match a with
    | ⟨0, _⟩ => show win6_5.index t (0 : Fin 2) * 5000 ≤ (i 0).val ∧ (i 0).val < win6_5.index t (0 : Fin 2) * 5000 + 5000; omega
    | ⟨1, _⟩ => show win6_5.index t (1 : Fin 2) * 96 ≤ (i 1).val ∧ (i 1).val < win6_5.index t (1 : Fin 2) * 96 + 96; omega

end Cert.KernelIdeal.ConvValue

end
-- ==== Proof.ConvFinal7.lean ====
/-
  The output array of the second tower's fourth and last 96-feature node-perceptron region, after the region, as a function of
  its five input arrays.

  The grid has twenty points. At point t the feature window holds rows 5000 t … 5000 t + 4999 of the [100000, 96] feature
  array, the two weight matrices and the two bias rows are staged whole at every point, and the output window is rows
  5000 t … 5000 t + 4999 of the [100000, 96] output. The body stores the perceptron of its block, with no relu after it. An entry
  of the perceptron depends only on its own row of the features, so what point t writes back is block t of the
  perceptron of the whole feature array; row r of the output lies in the block of point r / 5000, and 20 · 5000 = 100000,
  so the blocks cover the array. The arrays are those the region finds on entry, a parameter here.
-/
import proofs.«178575_j10024453669558_1_alg».proof.Proof.ConvPay
import proofs.«178575_j10024453669558_1_alg».proof.Proof.ConvRows
import proofs.«178575_j10024453669558_1_alg».proof.Proof.Gen.KernelIdeal.Frame
import Idealize.ShloMosaic.Lib.Pipeline.Value

noncomputable section

namespace Cert.KernelIdeal.ConvValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of every access of the body, as a constant function. -/
theorem r7_origin : (![0, 0] : Fin 2 → Nat) = fun _ => 0 := funext fun a => by fin_cases a <;> rfl

/-- The block indices, decided over the grid's twenty points: the feature window and the output window are at block
    (t, 0), the weight and bias windows at block (0, 0). -/
theorem r7_block_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-! ## The weight and bias windows' blocks are their whole arrays, at every point -/

/-- Window 1's block is its whole array at every point: its block index is (0, 0) and the block has the array's extents. -/
theorem r7_whole_1 (c : Dev nD) (t : Fin cfg7.N) :
    (iblk7 V c 1 t : Vec Ideal S96x96 .f32) = (V c (Pipeline.arrRef spec7 1) : Vec Ideal S96x96 .f32) := by
  obtain ⟨-, -, e10, e11, e20, e21, e30, e31, e40, e41, -, -⟩ := r7_block_index t
  funext x
  show V c (Pipeline.arrRef spec7 1) (((cfg7.win 1).blk t).view.emb x) = V c (Pipeline.arrRef spec7 1) x
  refine congrArg _ ?_
  funext a; apply Fin.ext
  match a with
  | ⟨0, _⟩ => show win7_1.index t (0 : Fin 2) * 96 + 1 * (x 0).val = (x 0).val; omega
  | ⟨1, _⟩ => show win7_1.index t (1 : Fin 2) * 96 + 1 * (x 1).val = (x 1).val; omega

/-- Window 2's block is its whole array at every point: its block index is (0, 0) and the block has the array's extents. -/
theorem r7_whole_2 (c : Dev nD) (t : Fin cfg7.N) :
    (iblk7 V c 2 t : Vec Ideal S1x96 .f32) = (V c (Pipeline.arrRef spec7 2) : Vec Ideal S1x96 .f32) := by
  obtain ⟨-, -, e10, e11, e20, e21, e30, e31, e40, e41, -, -⟩ := r7_block_index t
  funext x
  show V c (Pipeline.arrRef spec7 2) (((cfg7.win 2).blk t).view.emb x) = V c (Pipeline.arrRef spec7 2) x
  refine congrArg _ ?_
  funext a; apply Fin.ext
  match a with
  | ⟨0, _⟩ => show win7_2.index t (0 : Fin 2) * 1 + 1 * (x 0).val = (x 0).val; omega
  | ⟨1, _⟩ => show win7_2.index t (1 : Fin 2) * 96 + 1 * (x 1).val = (x 1).val; omega

/-- Window 3's block is its whole array at every point: its block index is (0, 0) and the block has the array's extents. -/
theorem r7_whole_3 (c : Dev nD) (t : Fin cfg7.N) :
    (iblk7 V c 3 t : Vec Ideal S96x96 .f32) = (V c (Pipeline.arrRef spec7 3) : Vec Ideal S96x96 .f32) := by
  obtain ⟨-, -, e10, e11, e20, e21, e30, e31, e40, e41, -, -⟩ := r7_block_index t
  funext x
  show V c (Pipeline.arrRef spec7 3) (((cfg7.win 3).blk t).view.emb x) = V c (Pipeline.arrRef spec7 3) x
  refine congrArg _ ?_
  funext a; apply Fin.ext
  match a with
  | ⟨0, _⟩ => show win7_3.index t (0 : Fin 2) * 96 + 1 * (x 0).val = (x 0).val; omega
  | ⟨1, _⟩ => show win7_3.index t (1 : Fin 2) * 96 + 1 * (x 1).val = (x 1).val; omega

/-- Window 4's block is its whole array at every point: its block index is (0, 0) and the block has the array's extents. -/
theorem r7_whole_4 (c : Dev nD) (t : Fin cfg7.N) :
    (iblk7 V c 4 t : Vec Ideal S1x96 .f32) = (V c (Pipeline.arrRef spec7 4) : Vec Ideal S1x96 .f32) := by
  obtain ⟨-, -, e10, e11, e20, e21, e30, e31, e40, e41, -, -⟩ := r7_block_index t
  funext x
  show V c (Pipeline.arrRef spec7 4) (((cfg7.win 4).blk t).view.emb x) = V c (Pipeline.arrRef spec7 4) x
  refine congrArg _ ?_
  funext a; apply Fin.ext
  match a with
  | ⟨0, _⟩ => show win7_4.index t (0 : Fin 2) * 1 + 1 * (x 0).val = (x 0).val; omega
  | ⟨1, _⟩ => show win7_4.index t (1 : Fin 2) * 96 + 1 * (x 1).val = (x 1).val; omega

/-! ## The feature window's block is a block of rows -/

/-- Window 0 stages rows 5000 t … 5000 t + 4999 of its array: entry x of the block is entry i of the array whenever
    i's row is 5000 t plus x's row and the columns agree. -/
theorem r7_row_block (c : Dev nD) (t : Fin cfg7.N) (x : S5000x96.Idx) (i : S100000x96.Idx)
    (h0 : (i 0).val = t.val * 5000 + (x 0).val) (h1 : (i 1).val = (x 1).val) :
    (iblk7 V c 0 t : Vec Ideal S5000x96 .f32) x = (V c (Pipeline.arrRef spec7 0) : Vec Ideal S100000x96 .f32) i := by
  obtain ⟨e00, e01, -⟩ := r7_block_index t
  show V c (Pipeline.arrRef spec7 0) (((cfg7.win 0).blk t).view.emb x) = V c (Pipeline.arrRef spec7 0) i
  refine congrArg _ ?_
  funext a; apply Fin.ext
  match a with
  | ⟨0, _⟩ => show win7_0.index t (0 : Fin 2) * 5000 + 1 * (x 0).val = (i 0).val; omega
  | ⟨1, _⟩ => show win7_0.index t (1 : Fin 2) * 96 + 1 * (x 1).val = (i 1).val; omega

/-! ## What a point writes back, and the array after the run -/

/-- The perceptron of the staged blocks at point t is block t of the perceptron of the whole arrays, with or without the
    final relu: an entry of the perceptron depends only on its own row of the features, row y of block t of the features is
    row 5000 t + y of the array, and the weights and biases are whole at every point. -/
theorem r7_blocks (relu : Bool) (c : Dev nD) (t : Fin cfg7.N) :
    Cert.GinSpec.conv relu (iblk7 V c 0 t : Vec Ideal S5000x96 .f32) (iblk7 V c 1 t : Vec Ideal S96x96 .f32)
        (iblk7 V c 2 t : Vec Ideal S1x96 .f32) (iblk7 V c 3 t : Vec Ideal S96x96 .f32) (iblk7 V c 4 t : Vec Ideal S1x96 .f32)
      = ((cfg7.win 5).blk t).view.read (Elt Ideal)
          (Cert.GinSpec.conv relu (V c (Pipeline.arrRef spec7 0)) (V c (Pipeline.arrRef spec7 1)) (V c (Pipeline.arrRef spec7 2))
            (V c (Pipeline.arrRef spec7 3)) (V c (Pipeline.arrRef spec7 4))) := by
  obtain ⟨e00, e01, -, -, -, -, -, -, -, -, e50, e51⟩ := r7_block_index t
  funext y
  show Cert.GinSpec.conv relu (iblk7 V c 0 t) (iblk7 V c 1 t) (iblk7 V c 2 t) (iblk7 V c 3 t) (iblk7 V c 4 t) y
    = Cert.GinSpec.conv relu (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb y)
  refine conv_rows relu _ _ _ _ _ _ _ _ _ _ y _ (fun a => ?_) (r7_whole_1 V c t) (r7_whole_2 V c t)
    (r7_whole_3 V c t) (r7_whole_4 V c t) ?_
  · refine r7_row_block V c t _ _ ?_ ?_
    · show win7_5.index t (0 : Fin 2) * 5000 + 1 * (y 0).val = t.val * 5000 + (y 0).val
      omega
    · rfl
  · apply Fin.ext
    show (y 1).val = win7_5.index t (1 : Fin 2) * 96 + 1 * (y 1).val
    omega

/-- Point t writes back block t of the perceptron of the whole feature array: every load of the body reads a whole staging
    buffer and its one store writes the whole output buffer, so the body leaves the perceptron of its blocks. -/
theorem r7_flushed (c : Dev nD) (t : Fin cfg7.N) :
    (dat7 (F := Ideal) V c).flushed 5 t = ((cfg7.win 5).blk t).view.read (Elt Ideal)
      (Cert.GinSpec.conv false (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero r7_origin]
  simp only [View.ld_unit_zero (S := S5000x96) r7_origin, View.ld_unit_zero (S := S96x96) r7_origin,
    View.ld_unit_zero (S := S1x96) r7_origin]
  rw [pay7]
  exact r7_blocks V false c t

/-- The output array after the region: the perceptron, with no relu after it, of the feature array, the weights and the bias rows as
    the region finds them. Row r of the output lies in the block of point r / 5000. -/
theorem final7 (c : Dev nD) :
    (Gen.dat7 (F := Ideal) V c).arrAt 5 cfg7.N = Cert.GinSpec.conv false (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => r7_flushed V c t) fun i => by
    have hN : cfg7.N = 20 := N_7
    have hi0 : (i 0).val < 100000 := (i 0).isLt
    have hi1 : (i 1).val < 96 := (i 1).isLt
    obtain ⟨t, ht⟩ : ∃ t : Fin cfg7.N, t.val = (i 0).val / 5000 := ⟨⟨(i 0).val / 5000, by rw [hN]; omega⟩, rfl⟩
    obtain ⟨-, -, -, -, -, -, -, -, -, -, e50, e51⟩ := r7_block_index t
    refine ⟨t, flush7_5 t, ?_⟩
    show i ∈ ((View.whole main_v167).slice (win7_5.rect t)).set
    rw [View.set_slice_whole, Rect.mem_set_unit]
    intro a
    match a with
    | ⟨0, _⟩ => show win7_5.index t (0 : Fin 2) * 5000 ≤ (i 0).val ∧ (i 0).val < win7_5.index t (0 : Fin 2) * 5000 + 5000; omega
    | ⟨1, _⟩ => show win7_5.index t (1 : Fin 2) * 96 ≤ (i 1).val ∧ (i 1).val < win7_5.index t (1 : Fin 2) * 96 + 96; omega

end Cert.KernelIdeal.ConvValue

end
-- ==== Proof.KChainD.lean ====
/-
  The second tower of the idealized kernel program, boundary by boundary, exactly as the first: the arguments it reads
  have come unchanged through the first tower's segments.
-/
import proofs.«178575_j10024453669558_1_alg».proof.Proof.KKeep
import proofs.«178575_j10024453669558_1_alg».proof.Proof.KTerm
import proofs.«178575_j10024453669558_1_alg».proof.Proof.Congr
import proofs.«178575_j10024453669558_1_alg».proof.Proof.ConvFinal4
import proofs.«178575_j10024453669558_1_alg».proof.Proof.ConvFinal5
import proofs.«178575_j10024453669558_1_alg».proof.Proof.ConvFinal6
import proofs.«178575_j10024453669558_1_alg».proof.Proof.ConvFinal7

set_option maxRecDepth 16384

noncomputable section

namespace Cert.KernelIdeal.Chain

open Cert.KernelIdeal Cert.KernelIdeal.Gen Cert.KernelIdeal.KTerm Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer (host stretch 4, region 4) -/

theorem d0_src (c : Dev nD) : W9 m ρ c (Proc.devRef .tc main_v85) = srcRaw (m ((c : Thread nD τ).loc main_arg29)) := by
  show StableHlo.after hostOps4 (W8 m ρ c) (Proc.devRef .tc main_v85) = _
  after_results
  rw [args8 m ρ c main_arg29 (by decide)]
  rfl
theorem d0_dst (c : Dev nD) : W9 m ρ c (Proc.devRef .tc main_v87) = dstRaw (m ((c : Thread nD τ).loc main_arg29)) := by
  show StableHlo.after hostOps4 (W8 m ρ c) (Proc.devRef .tc main_v87) = _
  after_results
  rw [args8 m ρ c main_arg29 (by decide)]
  rfl
theorem d0_z (c : Dev nD) : W9 m ρ c (Proc.devRef .tc main_v98) = agg64 (m ((c : Thread nD τ).loc main_arg1)) (srcRaw (m ((c : Thread nD τ).loc main_arg29))) (dstRaw (m ((c : Thread nD τ).loc main_arg29))) := by
  show StableHlo.after hostOps4 (W8 m ρ c) (Proc.devRef .tc main_v98) = _
  after_results_simp
  rw [args8 m ρ c main_arg1 (by decide), args8 m ρ c main_arg29 (by decide)]
  rfl
theorem d0_b1 (c : Dev nD) : W9 m ρ c (Proc.devRef .tc main_v99) = row (m ((c : Thread nD τ).loc main_arg13)) := by
  show StableHlo.after hostOps4 (W8 m ρ c) (Proc.devRef .tc main_v99) = _
  after_results
  rw [args8 m ρ c main_arg13 (by decide)]
  rfl
theorem d0_b2 (c : Dev nD) : W9 m ρ c (Proc.devRef .tc main_v100) = row (m ((c : Thread nD τ).loc main_arg15)) := by
  show StableHlo.after hostOps4 (W8 m ρ c) (Proc.devRef .tc main_v100) = _
  after_results
  rw [args8 m ρ c main_arg15 (by decide)]
  rfl
/-- Region 4's output array: the first layer of the tower. -/
theorem d0_outE (c : Dev nD) : W10 m ρ c (Proc.devRef .tc main_v101) = lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15)) :=
  (W10_arr m ρ c 5).trans ((Cert.KernelIdeal.ConvValue.final4 (V9 m ρ) c).trans
    (conv_congr true (d0_z m ρ c) (args9 m ρ c main_arg12 (by decide)) (d0_b1 m ρ c)
      (args9 m ρ c main_arg14 (by decide)) (d0_b2 m ρ c)))
theorem d0_srcE (c : Dev nD) : W10 m ρ c (Proc.devRef .tc main_v85) = srcRaw (m ((c : Thread nD τ).loc main_arg29)) :=
  (W10_of_ne m ρ c main_v85 (by decide)).trans (d0_src m ρ c)
theorem d0_dstE (c : Dev nD) : W10 m ρ c (Proc.devRef .tc main_v87) = dstRaw (m ((c : Thread nD τ).loc main_arg29)) :=
  (W10_of_ne m ρ c main_v87 (by decide)).trans (d0_dst m ρ c)

/-! ## Layer 2 of the tower (host stretch 5, region 5) -/

theorem d1_z (c : Dev nD) : W11 m ρ c (Proc.devRef .tc main_v120) = agg96 (W10 m ρ c (Proc.devRef .tc main_v101)) (W10 m ρ c (Proc.devRef .tc main_v85)) (W10 m ρ c (Proc.devRef .tc main_v87)) := by
  show StableHlo.after hostOps5 (W10 m ρ c) (Proc.devRef .tc main_v120) = _
  after_results_simp
  rfl
theorem d1_w1 (c : Dev nD) : W11 m ρ c (Proc.devRef .tc main_v103) = mat0 (W10 m ρ c (Proc.devRef .tc main_arg16)) := by
  show StableHlo.after hostOps5 (W10 m ρ c) (Proc.devRef .tc main_v103) = _
  after_results
  rfl
theorem d1_b1 (c : Dev nD) : W11 m ρ c (Proc.devRef .tc main_v121) = row (vec0 (W10 m ρ c (Proc.devRef .tc main_arg17))) := by
  show StableHlo.after hostOps5 (W10 m ρ c) (Proc.devRef .tc main_v121) = _
  after_results
  rfl
theorem d1_w2 (c : Dev nD) : W11 m ρ c (Proc.devRef .tc main_v107) = mat0 (W10 m ρ c (Proc.devRef .tc main_arg18)) := by
  show StableHlo.after hostOps5 (W10 m ρ c) (Proc.devRef .tc main_v107) = _
  after_results
  rfl
theorem d1_b2 (c : Dev nD) : W11 m ρ c (Proc.devRef .tc main_v122) = row (vec0 (W10 m ρ c (Proc.devRef .tc main_arg19))) := by
  show StableHlo.after hostOps5 (W10 m ρ c) (Proc.devRef .tc main_v122) = _
  after_results
  rfl
theorem d1_srcS (c : Dev nD) : W11 m ρ c (Proc.devRef .tc main_v85) = W10 m ρ c (Proc.devRef .tc main_v85) := by
  show StableHlo.after hostOps5 (W10 m ρ c) (Proc.devRef .tc main_v85) = _
  after_results
theorem d1_dstS (c : Dev nD) : W11 m ρ c (Proc.devRef .tc main_v87) = W10 m ρ c (Proc.devRef .tc main_v87) := by
  show StableHlo.after hostOps5 (W10 m ρ c) (Proc.devRef .tc main_v87) = _
  after_results
theorem d1_srcE (c : Dev nD) : W12 m ρ c (Proc.devRef .tc main_v85) = srcRaw (m ((c : Thread nD τ).loc main_arg29)) :=
  (W12_of_ne m ρ c main_v85 (by decide)).trans ((d1_srcS m ρ c).trans (d0_srcE m ρ c))
theorem d1_dstE (c : Dev nD) : W12 m ρ c (Proc.devRef .tc main_v87) = dstRaw (m ((c : Thread nD τ).loc main_arg29)) :=
  (W12_of_ne m ρ c main_v87 (by decide)).trans ((d1_dstS m ρ c).trans (d0_dstE m ρ c))
/-- What region 5 reads, in terms of the arguments. -/
theorem d1_zV (c : Dev nD) : W11 m ρ c (Proc.devRef .tc main_v120) = agg96 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (srcRaw (m ((c : Thread nD τ).loc main_arg29))) (dstRaw (m ((c : Thread nD τ).loc main_arg29))) :=
  (d1_z m ρ c).trans (agg96_congr (d0_outE m ρ c) (d0_srcE m ρ c) (d0_dstE m ρ c))
theorem d1_w1V (c : Dev nD) : W11 m ρ c (Proc.devRef .tc main_v103) = mat0 (m ((c : Thread nD τ).loc main_arg16)) :=
  (d1_w1 m ρ c).trans (congrArg mat0 (args10 m ρ c main_arg16 (by decide)))
theorem d1_b1V (c : Dev nD) : W11 m ρ c (Proc.devRef .tc main_v121) = row (vec0 (m ((c : Thread nD τ).loc main_arg17))) :=
  (d1_b1 m ρ c).trans (congrArg (fun v => row (vec0 v)) (args10 m ρ c main_arg17 (by decide)))
theorem d1_w2V (c : Dev nD) : W11 m ρ c (Proc.devRef .tc main_v107) = mat0 (m ((c : Thread nD τ).loc main_arg18)) :=
  (d1_w2 m ρ c).trans (congrArg mat0 (args10 m ρ c main_arg18 (by decide)))
theorem d1_b2V (c : Dev nD) : W11 m ρ c (Proc.devRef .tc main_v122) = row (vec0 (m ((c : Thread nD τ).loc main_arg19))) :=
  (d1_b2 m ρ c).trans (congrArg (fun v => row (vec0 v)) (args10 m ρ c main_arg19 (by decide)))
/-- Region 5's output array: layer 2 applied to the previous layer's output. -/
theorem d1_outE (c : Dev nD) : W12 m ρ c (Proc.devRef .tc main_v123) = lay2 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (m ((c : Thread nD τ).loc main_arg29)) (m ((c : Thread nD τ).loc main_arg16)) (m ((c : Thread nD τ).loc main_arg17)) (m ((c : Thread nD τ).loc main_arg18)) (m ((c : Thread nD τ).loc main_arg19)) :=
  (W12_arr m ρ c 5).trans ((Cert.KernelIdeal.ConvValue.final5 (V11 m ρ) c).trans
    (conv_congr true (d1_zV m ρ c) (d1_w1V m ρ c) (d1_b1V m ρ c) (d1_w2V m ρ c) (d1_b2V m ρ c)))

/-! ## Layer 3 of the tower (host stretch 6, region 6) -/

theorem d2_z (c : Dev nD) : W13 m ρ c (Proc.devRef .tc main_v142) = agg96 (W12 m ρ c (Proc.devRef .tc main_v123)) (W12 m ρ c (Proc.devRef .tc main_v85)) (W12 m ρ c (Proc.devRef .tc main_v87)) := by
  show StableHlo.after hostOps6 (W12 m ρ c) (Proc.devRef .tc main_v142) = _
  after_results_simp
  rfl
theorem d2_w1 (c : Dev nD) : W13 m ρ c (Proc.devRef .tc main_v125) = mat1 (W12 m ρ c (Proc.devRef .tc main_arg16)) := by
  show StableHlo.after hostOps6 (W12 m ρ c) (Proc.devRef .tc main_v125) = _
  after_results
  rfl
theorem d2_b1 (c : Dev nD) : W13 m ρ c (Proc.devRef .tc main_v143) = row (vec1 (W12 m ρ c (Proc.devRef .tc main_arg17))) := by
  show StableHlo.after hostOps6 (W12 m ρ c) (Proc.devRef .tc main_v143) = _
  after_results
  rfl
theorem d2_w2 (c : Dev nD) : W13 m ρ c (Proc.devRef .tc main_v129) = mat1 (W12 m ρ c (Proc.devRef .tc main_arg18)) := by
  show StableHlo.after hostOps6 (W12 m ρ c) (Proc.devRef .tc main_v129) = _
  after_results
  rfl
theorem d2_b2 (c : Dev nD) : W13 m ρ c (Proc.devRef .tc main_v144) = row (vec1 (W12 m ρ c (Proc.devRef .tc main_arg19))) := by
  show StableHlo.after hostOps6 (W12 m ρ c) (Proc.devRef .tc main_v144) = _
  after_results
  rfl
theorem d2_srcS (c : Dev nD) : W13 m ρ c (Proc.devRef .tc main_v85) = W12 m ρ c (Proc.devRef .tc main_v85) := by
  show StableHlo.after hostOps6 (W12 m ρ c) (Proc.devRef .tc main_v85) = _
  after_results
theorem d2_dstS (c : Dev nD) : W13 m ρ c (Proc.devRef .tc main_v87) = W12 m ρ c (Proc.devRef .tc main_v87) := by
  show StableHlo.after hostOps6 (W12 m ρ c) (Proc.devRef .tc main_v87) = _
  after_results
theorem d2_srcE (c : Dev nD) : W14 m ρ c (Proc.devRef .tc main_v85) = srcRaw (m ((c : Thread nD τ).loc main_arg29)) :=
  (W14_of_ne m ρ c main_v85 (by decide)).trans ((d2_srcS m ρ c).trans (d1_srcE m ρ c))
theorem d2_dstE (c : Dev nD) : W14 m ρ c (Proc.devRef .tc main_v87) = dstRaw (m ((c : Thread nD τ).loc main_arg29)) :=
  (W14_of_ne m ρ c main_v87 (by decide)).trans ((d2_dstS m ρ c).trans (d1_dstE m ρ c))
/-- What region 6 reads, in terms of the arguments. -/
theorem d2_zV (c : Dev nD) : W13 m ρ c (Proc.devRef .tc main_v142) = agg96 (lay2 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (m ((c : Thread nD τ).loc main_arg29)) (m ((c : Thread nD τ).loc main_arg16)) (m ((c : Thread nD τ).loc main_arg17)) (m ((c : Thread nD τ).loc main_arg18)) (m ((c : Thread nD τ).loc main_arg19))) (srcRaw (m ((c : Thread nD τ).loc main_arg29))) (dstRaw (m ((c : Thread nD τ).loc main_arg29))) :=
  (d2_z m ρ c).trans (agg96_congr (d1_outE m ρ c) (d1_srcE m ρ c) (d1_dstE m ρ c))
theorem d2_w1V (c : Dev nD) : W13 m ρ c (Proc.devRef .tc main_v125) = mat1 (m ((c : Thread nD τ).loc main_arg16)) :=
  (d2_w1 m ρ c).trans (congrArg mat1 (args12 m ρ c main_arg16 (by decide)))
theorem d2_b1V (c : Dev nD) : W13 m ρ c (Proc.devRef .tc main_v143) = row (vec1 (m ((c : Thread nD τ).loc main_arg17))) :=
  (d2_b1 m ρ c).trans (congrArg (fun v => row (vec1 v)) (args12 m ρ c main_arg17 (by decide)))
theorem d2_w2V (c : Dev nD) : W13 m ρ c (Proc.devRef .tc main_v129) = mat1 (m ((c : Thread nD τ).loc main_arg18)) :=
  (d2_w2 m ρ c).trans (congrArg mat1 (args12 m ρ c main_arg18 (by decide)))
theorem d2_b2V (c : Dev nD) : W13 m ρ c (Proc.devRef .tc main_v144) = row (vec1 (m ((c : Thread nD τ).loc main_arg19))) :=
  (d2_b2 m ρ c).trans (congrArg (fun v => row (vec1 v)) (args12 m ρ c main_arg19 (by decide)))
/-- Region 6's output array: layer 3 applied to the previous layer's output. -/
theorem d2_outE (c : Dev nD) : W14 m ρ c (Proc.devRef .tc main_v145) = lay3 (lay2 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (m ((c : Thread nD τ).loc main_arg29)) (m ((c : Thread nD τ).loc main_arg16)) (m ((c : Thread nD τ).loc main_arg17)) (m ((c : Thread nD τ).loc main_arg18)) (m ((c : Thread nD τ).loc main_arg19))) (m ((c : Thread nD τ).loc main_arg29)) (m ((c : Thread nD τ).loc main_arg16)) (m ((c : Thread nD τ).loc main_arg17)) (m ((c : Thread nD τ).loc main_arg18)) (m ((c : Thread nD τ).loc main_arg19)) :=
  (W14_arr m ρ c 5).trans ((Cert.KernelIdeal.ConvValue.final6 (V13 m ρ) c).trans
    (conv_congr true (d2_zV m ρ c) (d2_w1V m ρ c) (d2_b1V m ρ c) (d2_w2V m ρ c) (d2_b2V m ρ c)))

/-! ## Layer 4 of the tower (host stretch 7, region 7) -/

theorem d3_z (c : Dev nD) : W15 m ρ c (Proc.devRef .tc main_v164) = agg96 (W14 m ρ c (Proc.devRef .tc main_v145)) (W14 m ρ c (Proc.devRef .tc main_v85)) (W14 m ρ c (Proc.devRef .tc main_v87)) := by
  show StableHlo.after hostOps7 (W14 m ρ c) (Proc.devRef .tc main_v164) = _
  after_results_simp
  rfl
theorem d3_w1 (c : Dev nD) : W15 m ρ c (Proc.devRef .tc main_v147) = mat2 (W14 m ρ c (Proc.devRef .tc main_arg16)) := by
  show StableHlo.after hostOps7 (W14 m ρ c) (Proc.devRef .tc main_v147) = _
  after_results
  rfl
theorem d3_b1 (c : Dev nD) : W15 m ρ c (Proc.devRef .tc main_v165) = row (vec2 (W14 m ρ c (Proc.devRef .tc main_arg17))) := by
  show StableHlo.after hostOps7 (W14 m ρ c) (Proc.devRef .tc main_v165) = _
  after_results
  rfl
theorem d3_w2 (c : Dev nD) : W15 m ρ c (Proc.devRef .tc main_v151) = mat2 (W14 m ρ c (Proc.devRef .tc main_arg18)) := by
  show StableHlo.after hostOps7 (W14 m ρ c) (Proc.devRef .tc main_v151) = _
  after_results
  rfl
theorem d3_b2 (c : Dev nD) : W15 m ρ c (Proc.devRef .tc main_v166) = row (vec2 (W14 m ρ c (Proc.devRef .tc main_arg19))) := by
  show StableHlo.after hostOps7 (W14 m ρ c) (Proc.devRef .tc main_v166) = _
  after_results
  rfl
theorem d3_srcS (c : Dev nD) : W15 m ρ c (Proc.devRef .tc main_v85) = W14 m ρ c (Proc.devRef .tc main_v85) := by
  show StableHlo.after hostOps7 (W14 m ρ c) (Proc.devRef .tc main_v85) = _
  after_results
theorem d3_dstS (c : Dev nD) : W15 m ρ c (Proc.devRef .tc main_v87) = W14 m ρ c (Proc.devRef .tc main_v87) := by
  show StableHlo.after hostOps7 (W14 m ρ c) (Proc.devRef .tc main_v87) = _
  after_results
theorem d3_srcE (c : Dev nD) : W16 m ρ c (Proc.devRef .tc main_v85) = srcRaw (m ((c : Thread nD τ).loc main_arg29)) :=
  (W16_of_ne m ρ c main_v85 (by decide)).trans ((d3_srcS m ρ c).trans (d2_srcE m ρ c))
theorem d3_dstE (c : Dev nD) : W16 m ρ c (Proc.devRef .tc main_v87) = dstRaw (m ((c : Thread nD τ).loc main_arg29)) :=
  (W16_of_ne m ρ c main_v87 (by decide)).trans ((d3_dstS m ρ c).trans (d2_dstE m ρ c))
/-- What region 7 reads, in terms of the arguments. -/
theorem d3_zV (c : Dev nD) : W15 m ρ c (Proc.devRef .tc main_v164) = agg96 (lay3 (lay2 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (m ((c : Thread nD τ).loc main_arg29)) (m ((c : Thread nD τ).loc main_arg16)) (m ((c : Thread nD τ).loc main_arg17)) (m ((c : Thread nD τ).loc main_arg18)) (m ((c : Thread nD τ).loc main_arg19))) (m ((c : Thread nD τ).loc main_arg29)) (m ((c : Thread nD τ).loc main_arg16)) (m ((c : Thread nD τ).loc main_arg17)) (m ((c : Thread nD τ).loc main_arg18)) (m ((c : Thread nD τ).loc main_arg19))) (srcRaw (m ((c : Thread nD τ).loc main_arg29))) (dstRaw (m ((c : Thread nD τ).loc main_arg29))) :=
  (d3_z m ρ c).trans (agg96_congr (d2_outE m ρ c) (d2_srcE m ρ c) (d2_dstE m ρ c))
theorem d3_w1V (c : Dev nD) : W15 m ρ c (Proc.devRef .tc main_v147) = mat2 (m ((c : Thread nD τ).loc main_arg16)) :=
  (d3_w1 m ρ c).trans (congrArg mat2 (args14 m ρ c main_arg16 (by decide)))
theorem d3_b1V (c : Dev nD) : W15 m ρ c (Proc.devRef .tc main_v165) = row (vec2 (m ((c : Thread nD τ).loc main_arg17))) :=
  (d3_b1 m ρ c).trans (congrArg (fun v => row (vec2 v)) (args14 m ρ c main_arg17 (by decide)))
theorem d3_w2V (c : Dev nD) : W15 m ρ c (Proc.devRef .tc main_v151) = mat2 (m ((c : Thread nD τ).loc main_arg18)) :=
  (d3_w2 m ρ c).trans (congrArg mat2 (args14 m ρ c main_arg18 (by decide)))
theorem d3_b2V (c : Dev nD) : W15 m ρ c (Proc.devRef .tc main_v166) = row (vec2 (m ((c : Thread nD τ).loc main_arg19))) :=
  (d3_b2 m ρ c).trans (congrArg (fun v => row (vec2 v)) (args14 m ρ c main_arg19 (by decide)))
/-- Region 7's output array: layer 4 applied to the previous layer's output. -/
theorem d3_outE (c : Dev nD) : W16 m ρ c (Proc.devRef .tc main_v167) = lay4 (lay3 (lay2 (lay1 (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15))) (m ((c : Thread nD τ).loc main_arg29)) (m ((c : Thread nD τ).loc main_arg16)) (m ((c : Thread nD τ).loc main_arg17)) (m ((c : Thread nD τ).loc main_arg18)) (m ((c : Thread nD τ).loc main_arg19))) (m ((c : Thread nD τ).loc main_arg29)) (m ((c : Thread nD τ).loc main_arg16)) (m ((c : Thread nD τ).loc main_arg17)) (m ((c : Thread nD τ).loc main_arg18)) (m ((c : Thread nD τ).loc main_arg19))) (m ((c : Thread nD τ).loc main_arg29)) (m ((c : Thread nD τ).loc main_arg16)) (m ((c : Thread nD τ).loc main_arg17)) (m ((c : Thread nD τ).loc main_arg18)) (m ((c : Thread nD τ).loc main_arg19)) :=
  (W16_arr m ρ c 5).trans ((Cert.KernelIdeal.ConvValue.final7 (V15 m ρ) c).trans
    (conv_congr false (d3_zV m ρ c) (d3_w1V m ρ c) (d3_b1V m ρ c) (d3_w2V m ρ c) (d3_b2V m ρ c)))

end Cert.KernelIdeal.Chain

end
-- ==== Proof.HeadPay.lean ====
/-
  The prediction head's arithmetic, read at an index.

  The kernel computes the head in two stretches. The first takes the two pooled arrays gp, gd and leaves, at row r
  and column k, the sum over a of h2(r, a) · W2(a, k), where h1(r, ·) = relu(gp(r, ·) · W0a + gd(r, ·) · W0b + b0) and
  h2(r, ·) = relu(h1(r, ·) · W1 + b1). The second adds the row b2, applies relu, multiplies by the one-column matrix
  Wf and adds the single entry of bf. Every matrix product is taken into a zero accumulator, so at an index it is the
  plain sum over the contracted coordinate; a change of float format is the identity on the extended reals; a bias is a
  one-row array repeated over the rows. Together the two stretches are the specification's head, row by row.
-/
import proofs.«178575_j10024453669558_1_alg».proof.Proof.Spec
import proofs.«178575_j10024453669558_1_alg».proof.Proof.LibPlainDot
import proofs.«178575_j10024453669558_1_alg».proof.Proof.Gen.KernelIdeal.Skeleton
import Idealize.ShloMosaic.Lib.ValueLayout

noncomputable section

namespace Cert.KernelIdeal.HeadValue

open Idealize.ShloMosaic Idealize.ShloMosaic.ValueIdx Cert.KernelIdeal Cert.GinSpec

/-! ## The operations of one layer, at an index, over any number of rows -/

section Layer

variable {B K n : ℕ}

/-- The product of X and W into the zero accumulator, both operands first changed to the narrower format, reads at
    (r, k) the sum over a of X(r, a) · W(a, k). -/
theorem prod_apply (w : DotDims.WF ⟨2, ![B, K]⟩ ⟨2, ![K, n]⟩ ⟨2, ![B, n]⟩ [1] [0] [0] [1] [] [])
    (X : FVec Ideal ⟨2, ![B, K]⟩ .f32) (W : FVec Ideal ⟨2, ![K, n]⟩ .f32)
    (h1 h2 : FTy.bits .bf16 < FTy.bits .f32) (r : Fin B) (k : Fin n) :
    matmul (⟨[1], [0], [0], [1], [], [], w⟩ : DotDims _ _ _) none (truncf .bf16 X h1) (truncf .bf16 W h2)
        (constant (F := Ideal) ⟨2, ![B, n]⟩ .f32 0x00000000#32) (ix2 r k)
      = ∑ a : Fin K, X (ix2 r a) * W (ix2 a k) :=
  Cert.LibPlainDot.matmul_zero_apply w none (truncf .bf16 X h1) (truncf .bf16 W h2) r k

/-- The zero a relu compares with. -/
theorem zero_eq : (Scalar.ofBits (F := Ideal) .f32 0x00000000#32 : EReal) = 0 := Ideal.ofBits_zero_f32

/-- A relu-linear layer on every row: at (r, k) it is the specification's layer on row r. The bias is a one-row
    array repeated over the rows. -/
theorem reluLayer_apply (w : DotDims.WF ⟨2, ![B, K]⟩ ⟨2, ![K, n]⟩ ⟨2, ![B, n]⟩ [1] [0] [0] [1] [] [])
    (X : FVec Ideal ⟨2, ![B, K]⟩ .f32) (W : FVec Ideal ⟨2, ![K, n]⟩ .f32) (b : FVec Ideal ⟨2, ![1, n]⟩ .f32)
    (h1 h2 : FTy.bits .bf16 < FTy.bits .f32) (hc : (⟨2, ![1, n]⟩ : Shape).ShapeCasts ⟨2, ![1, n]⟩)
    (hb : (⟨2, ![1, n]⟩ : Shape).Broadcasts ⟨2, ![B, n]⟩) (r : Fin B) (k : Fin n) :
    maximumf (addf (matmul (⟨[1], [0], [0], [1], [], [], w⟩ : DotDims _ _ _) none (truncf .bf16 X h1) (truncf .bf16 W h2)
          (constant (F := Ideal) ⟨2, ![B, n]⟩ .f32 0x00000000#32))
        (broadcastTo ⟨2, ![B, n]⟩ (shapeCast ⟨2, ![1, n]⟩ b hc) hb))
      (broadcast ⟨2, ![B, n]⟩ (Scalar.ofBits (F := Ideal) .f32 0x00000000#32)) (ix2 r k)
      = reluLin (fun a => X (ix2 r a)) (fun a k => W (ix2 a k)) (fun k => b (ix2 0 k)) k := by
  rw [maximumf_apply, addf_apply, broadcast_apply, shapeCast_self, prod_apply w, broadcastTo_1b_ab_apply, zero_eq]
  rfl

/-- The head's first hidden row: two products added, the bias row, relu. -/
theorem hidden0_apply (w : DotDims.WF ⟨2, ![B, 96]⟩ ⟨2, ![96, 96]⟩ ⟨2, ![B, 96]⟩ [1] [0] [0] [1] [] [])
    (gp gd : FVec Ideal ⟨2, ![B, 96]⟩ .f32) (Wa Wb : FVec Ideal ⟨2, ![96, 96]⟩ .f32) (b : FVec Ideal ⟨2, ![1, 96]⟩ .f32)
    (h1 h2 h3 h4 : FTy.bits .bf16 < FTy.bits .f32)
    (c1 c2 : (⟨2, ![B, 96]⟩ : Shape).ShapeCasts ⟨2, ![B, 96]⟩) (c3 c4 : (⟨2, ![96, 96]⟩ : Shape).ShapeCasts ⟨2, ![96, 96]⟩)
    (hc : (⟨2, ![1, 96]⟩ : Shape).ShapeCasts ⟨2, ![1, 96]⟩)
    (hb : (⟨2, ![1, 96]⟩ : Shape).Broadcasts ⟨2, ![B, 96]⟩) (r : Fin B) (k : Fin 96) :
    maximumf (addf (addf
          (matmul (⟨[1], [0], [0], [1], [], [], w⟩ : DotDims _ _ _) none (truncf .bf16 (shapeCast ⟨2, ![B, 96]⟩ gp c1) h1)
            (truncf .bf16 (shapeCast ⟨2, ![96, 96]⟩ Wa c3) h2) (constant (F := Ideal) ⟨2, ![B, 96]⟩ .f32 0x00000000#32))
          (matmul (⟨[1], [0], [0], [1], [], [], w⟩ : DotDims _ _ _) none (truncf .bf16 (shapeCast ⟨2, ![B, 96]⟩ gd c2) h3)
            (truncf .bf16 (shapeCast ⟨2, ![96, 96]⟩ Wb c4) h4) (constant (F := Ideal) ⟨2, ![B, 96]⟩ .f32 0x00000000#32)))
        (broadcastTo ⟨2, ![B, 96]⟩ (shapeCast ⟨2, ![1, 96]⟩ b hc) hb))
      (broadcast ⟨2, ![B, 96]⟩ (Scalar.ofBits (F := Ideal) .f32 0x00000000#32)) (ix2 r k)
      = head0 (fun a => gp (ix2 r a)) (fun a => gd (ix2 r a)) (fun a k => Wa (ix2 a k)) (fun a k => Wb (ix2 a k))
          (fun k => b (ix2 0 k)) k := by
  simp only [shapeCast_self]
  rw [maximumf_apply, addf_apply, addf_apply, broadcast_apply, prod_apply w, prod_apply w, broadcastTo_1b_ab_apply, zero_eq]
  rfl

/-- The last layer: the bias row and relu on what the first stretch left, the product with the one-column matrix,
    the single bias entry repeated over the rows. -/
theorem last_apply (w : DotDims.WF ⟨2, ![B, K]⟩ ⟨2, ![K, 1]⟩ ⟨2, ![B, 1]⟩ [1] [0] [0] [1] [] [])
    (Y : FVec Ideal ⟨2, ![B, K]⟩ .f32) (b2 : FVec Ideal ⟨2, ![1, K]⟩ .f32) (Wf : FVec Ideal ⟨2, ![K, 1]⟩ .f32)
    (bf : FVec Ideal ⟨2, ![1, 1]⟩ .f32) (h1 h2 : FTy.bits .bf16 < FTy.bits .f32)
    (hc : (⟨2, ![1, K]⟩ : Shape).ShapeCasts ⟨2, ![1, K]⟩) (hb : (⟨2, ![1, K]⟩ : Shape).Broadcasts ⟨2, ![B, K]⟩)
    (hc' : (⟨2, ![1, 1]⟩ : Shape).ShapeCasts ⟨2, ![1, 1]⟩) (hb' : (⟨2, ![1, 1]⟩ : Shape).Broadcasts ⟨2, ![B, 1]⟩)
    (r : Fin B) (u : Fin 1) :
    addf (matmul (⟨[1], [0], [0], [1], [], [], w⟩ : DotDims _ _ _) none
          (truncf .bf16 (maximumf (addf Y (broadcastTo ⟨2, ![B, K]⟩ (shapeCast ⟨2, ![1, K]⟩ b2 hc) hb))
            (broadcast ⟨2, ![B, K]⟩ (Scalar.ofBits (F := Ideal) .f32 0x00000000#32))) h1)
          (truncf .bf16 Wf h2) (constant (F := Ideal) ⟨2, ![B, 1]⟩ .f32 0x00000000#32))
        (broadcastTo ⟨2, ![B, 1]⟩ (shapeCast ⟨2, ![1, 1]⟩ bf hc') hb') (ix2 r u)
      = lin (fun a => max (Y (ix2 r a) + b2 (ix2 0 a)) 0) (fun a (_ : Fin 1) => Wf (ix2 a 0)) (fun _ => bf (ix2 0 0)) 0 := by
  obtain rfl : u = 0 := Subsingleton.elim _ _
  simp only [shapeCast_self]
  rw [addf_apply, prod_apply w, broadcastTo_1b_ab_apply]
  unfold lin
  refine congrArg (· + bf (ix2 0 0)) (Finset.sum_congr rfl fun a _ => ?_)
  rw [maximumf_apply, addf_apply, broadcast_apply, broadcastTo_1b_ab_apply, zero_eq]

end Layer

/-! ## The kernel's two stretches -/

/-- What the first stretch leaves at (r, k): the second hidden row of row r against column k of W2. -/
theorem pay2_apply (gp gd : Vec Ideal S1024x96 .f32) (w0a w0b : Vec Ideal S96x96 .f32) (b0 : Vec Ideal S1x96 .f32)
    (w1 : Vec Ideal S96x96 .f32) (b1 : Vec Ideal S1x96 .f32) (w2 : Vec Ideal S96x96 .f32) (r : Fin 1024) (k : Fin 96) :
    Gen.k8_pay2 (F := Ideal) gp gd w0a w0b b0 w1 b1 w2 (ix2 r k)
      = ∑ a : Fin 96, reluLin
          (head0 (fun a => gp (ix2 r a)) (fun a => gd (ix2 r a)) (fun a k => w0a (ix2 a k)) (fun a k => w0b (ix2 a k))
            (fun k => b0 (ix2 0 k)))
          (fun a k => w1 (ix2 a k)) (fun k => b1 (ix2 0 k)) a * w2 (ix2 a k) := by
  unfold Gen.k8_pay2
  refine (prod_apply _ _ _ _ _ r k).trans ?_
  refine Finset.sum_congr rfl fun a _ => ?_
  refine congrArg (· * w2 (ix2 a k)) ?_
  refine (reluLayer_apply _ _ _ _ _ _ _ _ r a).trans ?_
  refine congrArg (fun f => reluLin f (fun a k => w1 (ix2 a k)) (fun k => b1 (ix2 0 k)) a) (funext fun a' => ?_)
  exact hidden0_apply _ gp gd w0a w0b b0 _ _ _ _ _ _ _ _ _ _ r a'

/-- The two stretches together are the specification's head. -/
theorem pay8 (gp gd : Vec Ideal S1024x96 .f32) (w0a w0b : Vec Ideal S96x96 .f32) (b0 : Vec Ideal S1x96 .f32)
    (w1 : Vec Ideal S96x96 .f32) (b1 : Vec Ideal S1x96 .f32) (w2 : Vec Ideal S96x96 .f32) (b2 : Vec Ideal S1x96 .f32)
    (wf : Vec Ideal S96x1 .f32) (bf : Vec Ideal S1x1 .f32) :
    Gen.k8_pay1 (F := Ideal) (Gen.k8_pay2 (F := Ideal) gp gd w0a w0b b0 w1 b1 w2) b2 wf bf
      = Cert.GinSpec.head gp gd w0a w0b b0 w1 b1 w2 b2 wf bf := by
  funext j
  obtain ⟨r, u, rfl⟩ : ∃ (r : Fin 1024) (u : Fin 1), j = ix2 r u := ⟨j 0, j 1, eq_ix2 j⟩
  rw [head_ix2]
  unfold Gen.k8_pay1
  refine (last_apply _ _ b2 wf bf _ _ _ _ _ _ r u).trans ?_
  refine congrArg (fun f => lin f (fun a (_ : Fin 1) => wf (ix2 a 0)) (fun _ => bf (ix2 0 0)) 0) (funext fun a => ?_)
  rw [pay2_apply]
  rfl

end Cert.KernelIdeal.HeadValue

end
-- ==== Proof.HeadFinal.lean ====
/-
  The prediction head's output array after its region, as a function of the region's eleven input arrays.

  The region's grid has one point, and each of its twelve windows moves a block with the extents of its whole array at
  block index (0, 0). So each input's staging buffer holds its whole array, the body's one store fills the whole output
  buffer with the head of those contents (the payload read at an index), the one write-back copies that buffer over the
  whole [1024, 1] output array, and every index of the array is covered by that one block. The arrays are those the
  region finds on entry, a parameter here.
-/
import proofs.«178575_j10024453669558_1_alg».proof.Proof.HeadPay
import proofs.«178575_j10024453669558_1_alg».proof.Proof.Gen.KernelIdeal.Frame
import Idealize.ShloMosaic.Lib.Pipeline.Value

noncomputable section

namespace Cert.KernelIdeal.HeadValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of every access of the body, as a constant function. -/
theorem zeros : (![0, 0] : Fin 2 → Nat) = fun _ => 0 := funext fun a => by fin_cases a <;> rfl

/-- What the body leaves in the output's staging buffer, as a function of the contents of the eleven input buffers:
    every load reads a whole buffer and the one store writes the whole output buffer, so it is the head of the inputs. -/
theorem stored_eq_head (x0 x1 : Vec Ideal S1024x96 .f32) (x2 x3 : Vec Ideal S96x96 .f32) (x4 : Vec Ideal S1x96 .f32)
    (x5 : Vec Ideal S96x96 .f32) (x6 : Vec Ideal S1x96 .f32) (x7 : Vec Ideal S96x96 .f32) (x8 : Vec Ideal S1x96 .f32)
    (x9 : Vec Ideal S96x1 .f32) (x10 : Vec Ideal S1x1 .f32) :
    Gen.out8_11 (F := Ideal) x0 x1 x2 x3 x4 x5 x6 x7 x8 x9 x10 = Cert.GinSpec.head x0 x1 x2 x3 x4 x5 x6 x7 x8 x9 x10 := by
  unfold Gen.out8_11
  rw [View.canon_unit_zero zeros]
  simp only [View.ld_unit_zero (S := S1024x96) zeros, View.ld_unit_zero (S := S96x96) zeros,
    View.ld_unit_zero (S := S1x96) zeros, View.ld_unit_zero (S := S96x1) zeros, View.ld_unit_zero (S := S1x1) zeros]
  exact pay8 x0 x1 x2 x3 x4 x5 x6 x7 x8 x9 x10

/-- The head of equal arguments. -/
theorem head_congr {B : ℕ} {x0 y0 x1 y1 : FVec Ideal ⟨2, ![B, 96]⟩ .f32} {x2 y2 x3 y3 : FVec Ideal ⟨2, ![96, 96]⟩ .f32}
    {x4 y4 : FVec Ideal ⟨2, ![1, 96]⟩ .f32} {x5 y5 : FVec Ideal ⟨2, ![96, 96]⟩ .f32} {x6 y6 : FVec Ideal ⟨2, ![1, 96]⟩ .f32}
    {x7 y7 : FVec Ideal ⟨2, ![96, 96]⟩ .f32} {x8 y8 : FVec Ideal ⟨2, ![1, 96]⟩ .f32} {x9 y9 : FVec Ideal ⟨2, ![96, 1]⟩ .f32}
    {x10 y10 : FVec Ideal ⟨2, ![1, 1]⟩ .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) :
    Cert.GinSpec.head x0 x1 x2 x3 x4 x5 x6 x7 x8 x9 x10 = Cert.GinSpec.head y0 y1 y2 y3 y4 y5 y6 y7 y8 y9 y10 := by
  rw [h0, h1, h2, h3, h4, h5, h6, h7, h8, h9, h10]

/-! ## Each input window's block is its whole array

The grid has one point and every window's block has the extents of its array, at block index (0, 0): reading the array
through that block reads the array. -/

/-- Window 0's block at the grid's one point is its whole array. -/
theorem block_whole_0 (c : Dev nD) (t : Fin cfg8.N) :
    (iblk8 V c 0 t : Vec Ideal S1024x96 .f32) = (V c (Pipeline.arrRef spec8 0) : Vec Ideal S1024x96 .f32) := by
  obtain rfl := fin_N8 t
  unfold iblk8
  have hz' : (fun a => win8_0.index t8_0 a * main_v179.ty.shape.size a) = fun _ => 0 := funext fun a => by fin_cases a <;> decide
  exact Memref.read_access_unit_zero (Elt Ideal) main_v179 hz' (fun a => by rw [congrFun hz' a]; simp) (V c (Pipeline.arrRef spec8 0))

/-- Window 1's block at the grid's one point is its whole array. -/
theorem block_whole_1 (c : Dev nD) (t : Fin cfg8.N) :
    (iblk8 V c 1 t : Vec Ideal S1024x96 .f32) = (V c (Pipeline.arrRef spec8 1) : Vec Ideal S1024x96 .f32) := by
  obtain rfl := fin_N8 t
  unfold iblk8
  have hz' : (fun a => win8_1.index t8_0 a * main_v191.ty.shape.size a) = fun _ => 0 := funext fun a => by fin_cases a <;> decide
  exact Memref.read_access_unit_zero (Elt Ideal) main_v191 hz' (fun a => by rw [congrFun hz' a]; simp) (V c (Pipeline.arrRef spec8 1))

/-- Window 2's block at the grid's one point is its whole array. -/
theorem block_whole_2 (c : Dev nD) (t : Fin cfg8.N) :
    (iblk8 V c 2 t : Vec Ideal S96x96 .f32) = (V c (Pipeline.arrRef spec8 2) : Vec Ideal S96x96 .f32) := by
  obtain rfl := fin_N8 t
  unfold iblk8
  have hz' : (fun a => win8_2.index t8_0 a * main_v192.ty.shape.size a) = fun _ => 0 := funext fun a => by fin_cases a <;> decide
  exact Memref.read_access_unit_zero (Elt Ideal) main_v192 hz' (fun a => by rw [congrFun hz' a]; simp) (V c (Pipeline.arrRef spec8 2))

/-- Window 3's block at the grid's one point is its whole array. -/
theorem block_whole_3 (c : Dev nD) (t : Fin cfg8.N) :
    (iblk8 V c 3 t : Vec Ideal S96x96 .f32) = (V c (Pipeline.arrRef spec8 3) : Vec Ideal S96x96 .f32) := by
  obtain rfl := fin_N8 t
  unfold iblk8
  have hz' : (fun a => win8_3.index t8_0 a * main_v193.ty.shape.size a) = fun _ => 0 := funext fun a => by fin_cases a <;> decide
  exact Memref.read_access_unit_zero (Elt Ideal) main_v193 hz' (fun a => by rw [congrFun hz' a]; simp) (V c (Pipeline.arrRef spec8 3))

/-- Window 4's block at the grid's one point is its whole array. -/
theorem block_whole_4 (c : Dev nD) (t : Fin cfg8.N) :
    (iblk8 V c 4 t : Vec Ideal S1x96 .f32) = (V c (Pipeline.arrRef spec8 4) : Vec Ideal S1x96 .f32) := by
  obtain rfl := fin_N8 t
  unfold iblk8
  have hz' : (fun a => win8_4.index t8_0 a * main_v194.ty.shape.size a) = fun _ => 0 := funext fun a => by fin_cases a <;> decide
  exact Memref.read_access_unit_zero (Elt Ideal) main_v194 hz' (fun a => by rw [congrFun hz' a]; simp) (V c (Pipeline.arrRef spec8 4))

/-- Window 5's block at the grid's one point is its whole array. -/
theorem block_whole_5 (c : Dev nD) (t : Fin cfg8.N) :
    (iblk8 V c 5 t : Vec Ideal S96x96 .f32) = (V c (Pipeline.arrRef spec8 5) : Vec Ideal S96x96 .f32) := by
  obtain rfl := fin_N8 t
  unfold iblk8
  have hz' : (fun a => win8_5.index t8_0 a * main_arg22.ty.shape.size a) = fun _ => 0 := funext fun a => by fin_cases a <;> decide
  exact Memref.read_access_unit_zero (Elt Ideal) main_arg22 hz' (fun a => by rw [congrFun hz' a]; simp) (V c (Pipeline.arrRef spec8 5))

/-- Window 6's block at the grid's one point is its whole array. -/
theorem block_whole_6 (c : Dev nD) (t : Fin cfg8.N) :
    (iblk8 V c 6 t : Vec Ideal S1x96 .f32) = (V c (Pipeline.arrRef spec8 6) : Vec Ideal S1x96 .f32) := by
  obtain rfl := fin_N8 t
  unfold iblk8
  have hz' : (fun a => win8_6.index t8_0 a * main_v195.ty.shape.size a) = fun _ => 0 := funext fun a => by fin_cases a <;> decide
  exact Memref.read_access_unit_zero (Elt Ideal) main_v195 hz' (fun a => by rw [congrFun hz' a]; simp) (V c (Pipeline.arrRef spec8 6))

/-- Window 7's block at the grid's one point is its whole array. -/
theorem block_whole_7 (c : Dev nD) (t : Fin cfg8.N) :
    (iblk8 V c 7 t : Vec Ideal S96x96 .f32) = (V c (Pipeline.arrRef spec8 7) : Vec Ideal S96x96 .f32) := by
  obtain rfl := fin_N8 t
  unfold iblk8
  have hz' : (fun a => win8_7.index t8_0 a * main_arg24.ty.shape.size a) = fun _ => 0 := funext fun a => by fin_cases a <;> decide
  exact Memref.read_access_unit_zero (Elt Ideal) main_arg24 hz' (fun a => by rw [congrFun hz' a]; simp) (V c (Pipeline.arrRef spec8 7))

/-- Window 8's block at the grid's one point is its whole array. -/
theorem block_whole_8 (c : Dev nD) (t : Fin cfg8.N) :
    (iblk8 V c 8 t : Vec Ideal S1x96 .f32) = (V c (Pipeline.arrRef spec8 8) : Vec Ideal S1x96 .f32) := by
  obtain rfl := fin_N8 t
  unfold iblk8
  have hz' : (fun a => win8_8.index t8_0 a * main_v196.ty.shape.size a) = fun _ => 0 := funext fun a => by fin_cases a <;> decide
  exact Memref.read_access_unit_zero (Elt Ideal) main_v196 hz' (fun a => by rw [congrFun hz' a]; simp) (V c (Pipeline.arrRef spec8 8))

/-- Window 9's block at the grid's one point is its whole array. -/
theorem block_whole_9 (c : Dev nD) (t : Fin cfg8.N) :
    (iblk8 V c 9 t : Vec Ideal S96x1 .f32) = (V c (Pipeline.arrRef spec8 9) : Vec Ideal S96x1 .f32) := by
  obtain rfl := fin_N8 t
  unfold iblk8
  have hz' : (fun a => win8_9.index t8_0 a * main_arg26.ty.shape.size a) = fun _ => 0 := funext fun a => by fin_cases a <;> decide
  exact Memref.read_access_unit_zero (Elt Ideal) main_arg26 hz' (fun a => by rw [congrFun hz' a]; simp) (V c (Pipeline.arrRef spec8 9))

/-- Window 10's block at the grid's one point is its whole array. -/
theorem block_whole_10 (c : Dev nD) (t : Fin cfg8.N) :
    (iblk8 V c 10 t : Vec Ideal S1x1 .f32) = (V c (Pipeline.arrRef spec8 10) : Vec Ideal S1x1 .f32) := by
  obtain rfl := fin_N8 t
  unfold iblk8
  have hz' : (fun a => win8_10.index t8_0 a * main_v197.ty.shape.size a) = fun _ => 0 := funext fun a => by fin_cases a <;> decide
  exact Memref.read_access_unit_zero (Elt Ideal) main_v197 hz' (fun a => by rw [congrFun hz' a]; simp) (V c (Pipeline.arrRef spec8 10))

/-! ## The one write-back and the array after the run -/

/-- What the grid's one point writes back to the output array is the head of the eleven input arrays as the region
    finds them, read through the output's block — which is the whole [1024, 1] array. -/
theorem writeback_eq (c : Dev nD) (t : Fin cfg8.N) :
    (dat8 V c).flushed 11 t = ((cfg8.win 11).blk t).view.read (Elt Ideal)
      (Cert.GinSpec.head (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10))) := by
  obtain rfl := fin_N8 t
  show (cfg8.win 11).cut (grid8.coords t8_0) ((dat8 V c).after 11 t8_0) = _
  rw [after8_11, stored_eq_head, head_congr (block_whole_0 V c t8_0) (block_whole_1 V c t8_0) (block_whole_2 V c t8_0) (block_whole_3 V c t8_0) (block_whole_4 V c t8_0) (block_whole_5 V c t8_0) (block_whole_6 V c t8_0) (block_whole_7 V c t8_0) (block_whole_8 V c t8_0) (block_whole_9 V c t8_0) (block_whole_10 V c t8_0)]
  have hz' : (fun a => win8_11.index t8_0 a * main_v198.ty.shape.size a) = fun _ => 0 := funext fun a => by fin_cases a <;> decide
  exact (Memref.read_access_unit_zero (Elt Ideal) main_v198 hz' (fun a => by rw [congrFun hz' a]; simp) _).symm

/-- The output array after the region: the one point's block covers every index, so the array ends holding the head
    of the eleven input arrays as the region finds them. -/
theorem final8 (c : Dev nD) :
    (Gen.dat8 (F := Ideal) V c).arrAt 11 cfg8.N = Cert.GinSpec.head (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) :=
  (dat8 V c).arrAt_eq_of_cover 11 _ (fun t _ => writeback_eq V c t) fun i =>
    ⟨t8_0, flush8_11 t8_0, by
      show i ∈ ((View.whole main_v198).slice (win8_11.rect t8_0)).set
      rw [View.set_slice_whole, Rect.mem_set_unit]
      intro a
      have h0 : (i 0 : Nat) < 1024 := (i 0).isLt
      have h1 : (i 1 : Nat) < 1 := (i 1).isLt
      match a with
      | ⟨0, _⟩ => show win8_11.index t8_0 0 * win8_11.size 0 ≤ (i 0 : Nat) ∧ (i 0 : Nat) < win8_11.index t8_0 0 * win8_11.size 0 + win8_11.xsize (grid8.coords t8_0) 0
                  rw [show win8_11.index t8_0 0 * win8_11.size 0 = 0 from by decide +kernel, show win8_11.xsize (grid8.coords t8_0) 0 = 1024 from by decide +kernel]; omega
      | ⟨1, _⟩ => show win8_11.index t8_0 1 * win8_11.size 1 ≤ (i 1 : Nat) ∧ (i 1 : Nat) < win8_11.index t8_0 1 * win8_11.size 1 + win8_11.xsize (grid8.coords t8_0) 1
                  rw [show win8_11.index t8_0 1 * win8_11.size 1 = 0 from by decide +kernel, show win8_11.xsize (grid8.coords t8_0) 1 = 1 from by decide +kernel]; omega⟩

end Cert.KernelIdeal.HeadValue

end
-- ==== Proof.KChainOut.lean ====
/-
  The end of the idealized kernel program: the first tower's output is carried unchanged through the second tower's
  segments; the last host stretch pools both towers per graph, splits the head's first weight matrix in two and
  reshapes the head's biases; the head region writes the result buffer.
-/
import proofs.«178575_j10024453669558_1_alg».proof.Proof.KChainP
import proofs.«178575_j10024453669558_1_alg».proof.Proof.KChainD
import proofs.«178575_j10024453669558_1_alg».proof.Proof.HeadFinal
import proofs.«178575_j10024453669558_1_alg».proof.Proof.Congr

set_option maxRecDepth 16384

noncomputable section

namespace Cert.KernelIdeal.Chain

open Cert.KernelIdeal Cert.KernelIdeal.Gen Cert.KernelIdeal.KTerm Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first tower's output through the second tower's segments -/

theorem hp_s4 (c : Dev nD) : W9 m ρ c (Proc.devRef .tc main_v83) = W8 m ρ c (Proc.devRef .tc main_v83) := by
  show StableHlo.after hostOps4 (W8 m ρ c) (Proc.devRef .tc main_v83) = _
  after_results
theorem hp_r4 (c : Dev nD) : W10 m ρ c (Proc.devRef .tc main_v83) = W9 m ρ c (Proc.devRef .tc main_v83) :=
  W10_of_ne m ρ c main_v83 (by decide)
theorem hp_s5 (c : Dev nD) : W11 m ρ c (Proc.devRef .tc main_v83) = W10 m ρ c (Proc.devRef .tc main_v83) := by
  show StableHlo.after hostOps5 (W10 m ρ c) (Proc.devRef .tc main_v83) = _
  after_results
theorem hp_r5 (c : Dev nD) : W12 m ρ c (Proc.devRef .tc main_v83) = W11 m ρ c (Proc.devRef .tc main_v83) :=
  W12_of_ne m ρ c main_v83 (by decide)
theorem hp_s6 (c : Dev nD) : W13 m ρ c (Proc.devRef .tc main_v83) = W12 m ρ c (Proc.devRef .tc main_v83) := by
  show StableHlo.after hostOps6 (W12 m ρ c) (Proc.devRef .tc main_v83) = _
  after_results
theorem hp_r6 (c : Dev nD) : W14 m ρ c (Proc.devRef .tc main_v83) = W13 m ρ c (Proc.devRef .tc main_v83) :=
  W14_of_ne m ρ c main_v83 (by decide)
theorem hp_s7 (c : Dev nD) : W15 m ρ c (Proc.devRef .tc main_v83) = W14 m ρ c (Proc.devRef .tc main_v83) := by
  show StableHlo.after hostOps7 (W14 m ρ c) (Proc.devRef .tc main_v83) = _
  after_results
theorem hp_r7 (c : Dev nD) : W16 m ρ c (Proc.devRef .tc main_v83) = W15 m ρ c (Proc.devRef .tc main_v83) :=
  W16_of_ne m ρ c main_v83 (by decide)
/-- At the pooling stretch's entry the first tower's output is the tower's function of its arguments. -/
theorem hp (c : Dev nD) : W16 m ρ c (Proc.devRef .tc main_v83) = tower (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (hp_r7 m ρ c).trans ((hp_s7 m ρ c).trans ((hp_r6 m ρ c).trans ((hp_s6 m ρ c).trans ((hp_r5 m ρ c).trans ((hp_s5 m ρ c).trans
    ((hp_r4 m ρ c).trans ((hp_s4 m ρ c).trans (p3_outE m ρ c))))))))
/-- So is the second tower's. -/
theorem hd (c : Dev nD) : W16 m ρ c (Proc.devRef .tc main_v167) = tower (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := d3_outE m ρ c

/-! ## The last host stretch -/

theorem s8_gp (c : Dev nD) : W17 m ρ c (Proc.devRef .tc main_v179) = pool (W16 m ρ c (Proc.devRef .tc main_v83)) (W16 m ρ c (Proc.devRef .tc main_arg30)) := by
  show StableHlo.after hostOps8 (W16 m ρ c) (Proc.devRef .tc main_v179) = _
  after_results_simp
  rfl
theorem s8_gd (c : Dev nD) : W17 m ρ c (Proc.devRef .tc main_v191) = pool (W16 m ρ c (Proc.devRef .tc main_v167)) (W16 m ρ c (Proc.devRef .tc main_arg31)) := by
  show StableHlo.after hostOps8 (W16 m ρ c) (Proc.devRef .tc main_v191) = _
  after_results_simp
  rfl
theorem s8_top (c : Dev nD) : W17 m ρ c (Proc.devRef .tc main_v192) = top (W16 m ρ c (Proc.devRef .tc main_arg20)) := by
  show StableHlo.after hostOps8 (W16 m ρ c) (Proc.devRef .tc main_v192) = _
  after_results
  rfl
theorem s8_bot (c : Dev nD) : W17 m ρ c (Proc.devRef .tc main_v193) = bot (W16 m ρ c (Proc.devRef .tc main_arg20)) := by
  show StableHlo.after hostOps8 (W16 m ρ c) (Proc.devRef .tc main_v193) = _
  after_results
  rfl
theorem s8_b0 (c : Dev nD) : W17 m ρ c (Proc.devRef .tc main_v194) = row (W16 m ρ c (Proc.devRef .tc main_arg21)) := by
  show StableHlo.after hostOps8 (W16 m ρ c) (Proc.devRef .tc main_v194) = _
  after_results
  rfl
theorem s8_b1 (c : Dev nD) : W17 m ρ c (Proc.devRef .tc main_v195) = row (W16 m ρ c (Proc.devRef .tc main_arg23)) := by
  show StableHlo.after hostOps8 (W16 m ρ c) (Proc.devRef .tc main_v195) = _
  after_results
  rfl
theorem s8_b2 (c : Dev nD) : W17 m ρ c (Proc.devRef .tc main_v196) = row (W16 m ρ c (Proc.devRef .tc main_arg25)) := by
  show StableHlo.after hostOps8 (W16 m ρ c) (Proc.devRef .tc main_v196) = _
  after_results
  rfl
theorem s8_bf (c : Dev nD) : W17 m ρ c (Proc.devRef .tc main_v197) = row1 (W16 m ρ c (Proc.devRef .tc main_arg27)) := by
  show StableHlo.after hostOps8 (W16 m ρ c) (Proc.devRef .tc main_v197) = _
  after_results
  rfl

/-! ## The result -/

/-- The pooled towers, in terms of the arguments. -/
theorem s8_gpV (c : Dev nD) : W17 m ρ c (Proc.devRef .tc main_v179) = pool (tower (m ((c : Thread nD τ).loc main_arg0)) (m ((c : Thread nD τ).loc main_arg28)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg30)) :=
  (s8_gp m ρ c).trans (pool_congr (hp m ρ c) (args16 m ρ c main_arg30 (by decide)))
theorem s8_gdV (c : Dev nD) : W17 m ρ c (Proc.devRef .tc main_v191) = pool (tower (m ((c : Thread nD τ).loc main_arg1)) (m ((c : Thread nD τ).loc main_arg29)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg31)) :=
  (s8_gd m ρ c).trans (pool_congr (hd m ρ c) (args16 m ρ c main_arg31 (by decide)))

/-- The result buffer at the last boundary is the whole program's function of the argument arrays. -/
theorem result (c : Dev nD) : W18 m ρ c (Proc.devRef .tc main_v198) = KTerm.out (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) :=
  (W18_arr m ρ c 11).trans ((Cert.KernelIdeal.HeadValue.final8 (V17 m ρ) c).trans
    (head_congr (s8_gpV m ρ c) (s8_gdV m ρ c)
      ((s8_top m ρ c).trans (congrArg top (args16 m ρ c main_arg20 (by decide))))
      ((s8_bot m ρ c).trans (congrArg bot (args16 m ρ c main_arg20 (by decide))))
      ((s8_b0 m ρ c).trans (congrArg row (args16 m ρ c main_arg21 (by decide))))
      (args17 m ρ c main_arg22 (by decide))
      ((s8_b1 m ρ c).trans (congrArg row (args16 m ρ c main_arg23 (by decide))))
      (args17 m ρ c main_arg24 (by decide))
      ((s8_b2 m ρ c).trans (congrArg row (args16 m ρ c main_arg25 (by decide))))
      (args17 m ρ c main_arg26 (by decide))
      ((s8_bf m ρ c).trans (congrArg row1 (args16 m ρ c main_arg27 (by decide))))))

end Cert.KernelIdeal.Chain

end
-- ==== Proof.RefMlp.lean ====
/-
  The reference's node perceptron is the specification's.

  The reference computes a node perceptron on whole arrays: a matrix product with the first weights, the bias row
  repeated down the 100000 rows, a maximum with the all-zero array, a second product and bias, and (for all but the
  last layer of a stack) one more maximum with zero. Read at row r and column q this is
  max((∑ c, max((∑ a, z[r,a] · W1[a,c]) + b1[c], 0) · W2[c,q]) + b2[q], 0),
  which is the specification's perceptron on row r at output coordinate q, with or without the outer maximum.
  Nothing here needs finiteness: each step reads an array at an index.
-/
import proofs.«178575_j10024453669558_1_alg».proof.Proof.Spec
import proofs.«178575_j10024453669558_1_alg».proof.Proof.LibPlainDot
import proofs.«178575_j10024453669558_1_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-! ## The three broadcasts at an index -/

/-- A [1, 96] row repeated down 100000 rows: entry (r, k) is the row's entry (0, k). -/
theorem rows_apply (y : FVec Ideal S1x96 .f32) (r : Fin 100000) (k : Fin 96) :
    broadcastInDim S100000x96 ![0, 1] bcast_S1x96_S100000x96_0_1 y (ix2 r k) = y (ix2 0 k) :=
  broadcastInDim_apply _ bcast_S1x96_S100000x96_0_1 y (ix2 r k) (ix2 0 k) (fun a => match a with
    | ⟨0, _⟩ => by show 0 = if (1 : Nat) = 1 then 0 else r.val; rw [if_pos rfl]
    | ⟨1, _⟩ => by show k.val = if (96 : Nat) = 1 then 0 else k.val; rw [if_neg (by decide)])

/-- The all-zero [100000, 96] array: every entry is the extended real 0. -/
theorem zeros_apply (j : S100000x96.Idx) :
    broadcastInDim S100000x96 ![] bcast_S_S100000x96 (constant (F := Ideal) S_ .f32 0x00000000#32) j = 0 :=
  (broadcastInDim_apply _ bcast_S_S100000x96 (constant (F := Ideal) S_ .f32 0x00000000#32) j ix0
    (fun a => a.elim0)).trans Ideal.ofBits_zero_f32

/-! ## The two products at an index -/

/-- The [100000, 64] by [64, 96] product at (r, q) is the sum over the 64 contracted coordinates. -/
theorem dot64_apply (A : FVec Ideal S100000x64 .f32) (B : FVec Ideal S64x96 .f32) (r : Fin 100000) (q : Fin 96) :
    Host.dotGeneral (F := Ideal) dot_S100000x64_S64x96_S100000x96_1_0_0_1_n_n none A B (ix2 r q)
      = ∑ c : Fin 64, A (ix2 r c) * B (ix2 c q) :=
  Cert.LibPlainDot.dotGeneral_apply dot_S100000x64_S64x96_S100000x96_1_0_0_1_n_n_wf none A B r q

/-- The [100000, 96] by [96, 96] product at (r, q) is the sum over the 96 contracted coordinates. -/
theorem dot96_apply (A : FVec Ideal S100000x96 .f32) (B : FVec Ideal S96x96 .f32) (r : Fin 100000) (q : Fin 96) :
    Host.dotGeneral (F := Ideal) dot_S100000x96_S96x96_S100000x96_1_0_0_1_n_n none A B (ix2 r q)
      = ∑ c : Fin 96, A (ix2 r c) * B (ix2 c q) :=
  Cert.LibPlainDot.dotGeneral_apply dot_S100000x96_S96x96_S100000x96_1_0_0_1_n_n_wf none A B r q

/-! ## A layer at an index -/

/-- A product plus the repeated bias row, at (r, k). -/
theorem affine_apply (d : FVec Ideal S100000x96 .f32) (y : FVec Ideal S1x96 .f32) (r : Fin 100000) (k : Fin 96) :
    addf d (broadcastInDim S100000x96 ![0, 1] bcast_S1x96_S100000x96_0_1 y) (ix2 r k) = d (ix2 r k) + y (ix2 0 k) :=
  (addf_apply d _ (ix2 r k)).trans (congrArg (fun t => d (ix2 r k) + t) (rows_apply y r k))

/-- The same followed by the maximum with the all-zero array, at (r, k). -/
theorem relu_apply (d : FVec Ideal S100000x96 .f32) (y : FVec Ideal S1x96 .f32) (r : Fin 100000) (k : Fin 96) :
    maximumf (addf d (broadcastInDim S100000x96 ![0, 1] bcast_S1x96_S100000x96_0_1 y))
        (broadcastInDim S100000x96 ![] bcast_S_S100000x96 (constant (F := Ideal) S_ .f32 0x00000000#32)) (ix2 r k)
      = max (d (ix2 r k) + y (ix2 0 k)) 0 :=
  (maximumf_apply _ _ (ix2 r k)).trans (by rw [affine_apply, zeros_apply])

/-! ## The hidden layer as a whole array -/

/-- The hidden layer on [100000, 64] rows: row r of the result is relu(z[r, ·] · W + b). -/
theorem hidden64 (z : FVec Ideal S100000x64 .f32) (w : FVec Ideal S64x96 .f32) (y : FVec Ideal S1x96 .f32) :
    maximumf (addf (Host.dotGeneral (F := Ideal) dot_S100000x64_S64x96_S100000x96_1_0_0_1_n_n none z w) (broadcastInDim S100000x96 ![0, 1] bcast_S1x96_S100000x96_0_1 y)) (broadcastInDim S100000x96 ![] bcast_S_S100000x96 (constant (F := Ideal) S_ .f32 0x00000000#32))
      = fun j : S100000x96.Idx => Cert.GinSpec.reluLin (fun a => z (ix2 (j 0) a)) (fun a k => w (ix2 a k))
          (fun k => y (ix2 0 k)) (j 1) := by
  funext j
  obtain ⟨r, q, rfl⟩ : ∃ (r : Fin 100000) (q : Fin 96), j = ix2 r q := ⟨j 0, j 1, eq_ix2 j⟩
  rw [relu_apply, dot64_apply]
  rfl

/-- The hidden layer on [100000, 96] rows. -/
theorem hidden96 (z : FVec Ideal S100000x96 .f32) (w : FVec Ideal S96x96 .f32) (y : FVec Ideal S1x96 .f32) :
    maximumf (addf (Host.dotGeneral (F := Ideal) dot_S100000x96_S96x96_S100000x96_1_0_0_1_n_n none z w) (broadcastInDim S100000x96 ![0, 1] bcast_S1x96_S100000x96_0_1 y)) (broadcastInDim S100000x96 ![] bcast_S_S100000x96 (constant (F := Ideal) S_ .f32 0x00000000#32))
      = fun j : S100000x96.Idx => Cert.GinSpec.reluLin (fun a => z (ix2 (j 0) a)) (fun a k => w (ix2 a k))
          (fun k => y (ix2 0 k)) (j 1) := by
  funext j
  obtain ⟨r, q, rfl⟩ : ∃ (r : Fin 100000) (q : Fin 96), j = ix2 r q := ⟨j 0, j 1, eq_ix2 j⟩
  rw [relu_apply, dot96_apply]
  rfl

/-- The optional outer maximum of the specification, switched on. -/
theorem act_true (x : EReal) : Cert.GinSpec.act true x = max x 0 := if_pos rfl

/-- The optional outer maximum of the specification, switched off. -/
theorem act_false (x : EReal) : Cert.GinSpec.act false x = x := if_neg Bool.false_ne_true

/-! ## The perceptron -/

/-- The perceptron on [100000, 64] rows, with the outer maximum. -/
theorem mlp64_relu (z : FVec Ideal S100000x64 .f32) (w1 : FVec Ideal S64x96 .f32) (b1 : FVec Ideal S96 .f32)
    (w2 : FVec Ideal S96x96 .f32) (b2 : FVec Ideal S96 .f32) :
    maximumf (addf (Host.dotGeneral (F := Ideal) dot_S100000x96_S96x96_S100000x96_1_0_0_1_n_n none
        (maximumf (addf (Host.dotGeneral (F := Ideal) dot_S100000x64_S64x96_S100000x96_1_0_0_1_n_n none z w1)
            (broadcastInDim S100000x96 ![0, 1] bcast_S1x96_S100000x96_0_1 (broadcastInDim S1x96 ![1] bcast_S96_S1x96_1 b1)))
          (broadcastInDim S100000x96 ![] bcast_S_S100000x96 (constant (F := Ideal) S_ .f32 0x00000000#32))) w2)
        (broadcastInDim S100000x96 ![0, 1] bcast_S1x96_S100000x96_0_1 (broadcastInDim S1x96 ![1] bcast_S96_S1x96_1 b2)))
      (broadcastInDim S100000x96 ![] bcast_S_S100000x96 (constant (F := Ideal) S_ .f32 0x00000000#32))
    = Cert.GinSpec.conv true z w1 (broadcastInDim S1x96 ![1] bcast_S96_S1x96_1 b1) w2
        (broadcastInDim S1x96 ![1] bcast_S96_S1x96_1 b2) := by
  rw [hidden64 z w1, hidden96]
  funext j
  obtain ⟨r, q, rfl⟩ : ∃ (r : Fin 100000) (q : Fin 96), j = ix2 r q := ⟨j 0, j 1, eq_ix2 j⟩
  rw [Cert.GinSpec.conv_ix2, act_true]
  rfl

/-- The perceptron on [100000, 96] rows, with the outer maximum. -/
theorem mlp96_relu (z : FVec Ideal S100000x96 .f32) (w1 w2 : FVec Ideal S96x96 .f32) (b1 b2 : FVec Ideal S96 .f32) :
    maximumf (addf (Host.dotGeneral (F := Ideal) dot_S100000x96_S96x96_S100000x96_1_0_0_1_n_n none
        (maximumf (addf (Host.dotGeneral (F := Ideal) dot_S100000x96_S96x96_S100000x96_1_0_0_1_n_n none z w1)
            (broadcastInDim S100000x96 ![0, 1] bcast_S1x96_S100000x96_0_1 (broadcastInDim S1x96 ![1] bcast_S96_S1x96_1 b1)))
          (broadcastInDim S100000x96 ![] bcast_S_S100000x96 (constant (F := Ideal) S_ .f32 0x00000000#32))) w2)
        (broadcastInDim S100000x96 ![0, 1] bcast_S1x96_S100000x96_0_1 (broadcastInDim S1x96 ![1] bcast_S96_S1x96_1 b2)))
      (broadcastInDim S100000x96 ![] bcast_S_S100000x96 (constant (F := Ideal) S_ .f32 0x00000000#32))
    = Cert.GinSpec.conv true z w1 (broadcastInDim S1x96 ![1] bcast_S96_S1x96_1 b1) w2
        (broadcastInDim S1x96 ![1] bcast_S96_S1x96_1 b2) := by
  rw [hidden96 z w1, hidden96]
  funext j
  obtain ⟨r, q, rfl⟩ : ∃ (r : Fin 100000) (q : Fin 96), j = ix2 r q := ⟨j 0, j 1, eq_ix2 j⟩
  rw [Cert.GinSpec.conv_ix2, act_true]
  rfl

/-- The perceptron on [100000, 96] rows, without the outer maximum (the last layer of a stack). -/
theorem mlp96_lin (z : FVec Ideal S100000x96 .f32) (w1 w2 : FVec Ideal S96x96 .f32) (b1 b2 : FVec Ideal S96 .f32) :
    addf (Host.dotGeneral (F := Ideal) dot_S100000x96_S96x96_S100000x96_1_0_0_1_n_n none
        (maximumf (addf (Host.dotGeneral (F := Ideal) dot_S100000x96_S96x96_S100000x96_1_0_0_1_n_n none z w1)
            (broadcastInDim S100000x96 ![0, 1] bcast_S1x96_S100000x96_0_1 (broadcastInDim S1x96 ![1] bcast_S96_S1x96_1 b1)))
          (broadcastInDim S100000x96 ![] bcast_S_S100000x96 (constant (F := Ideal) S_ .f32 0x00000000#32))) w2)
        (broadcastInDim S100000x96 ![0, 1] bcast_S1x96_S100000x96_0_1 (broadcastInDim S1x96 ![1] bcast_S96_S1x96_1 b2))
    = Cert.GinSpec.conv false z w1 (broadcastInDim S1x96 ![1] bcast_S96_S1x96_1 b1) w2
        (broadcastInDim S1x96 ![1] bcast_S96_S1x96_1 b2) := by
  rw [hidden96 z w1]
  funext j
  obtain ⟨r, q, rfl⟩ : ∃ (r : Fin 100000) (q : Fin 96), j = ix2 r q := ⟨j 0, j 1, eq_ix2 j⟩
  rw [affine_apply, dot96_apply, Cert.GinSpec.conv_ix2, act_false]
  rfl

end Cert.ReferenceIdeal.RefValue

end
-- ==== Proof.RefHead.lean ====
/-
  The reference's prediction head is the specification's.

  The reference joins a graph's two pooled rows gp and gd side by side into one row of 192 entries, multiplies by the
  [192, 96] weights W0, adds the bias and takes the maximum with zero; two more layers of the same kind on 96 entries
  follow, and a last product with the [96, 1] weights plus the one-entry bias. The one law used: a sum over the 192
  joined coordinates is the sum over the first 96, where the joined row is gp and W0 is its upper half W0a, plus the
  sum over the last 96, where the joined row is gd and W0 is its lower half W0b. The extended reals are an additive
  commutative monoid, so the split needs no finiteness.
-/
import proofs.«178575_j10024453669558_1_alg».proof.Proof.Spec
import proofs.«178575_j10024453669558_1_alg».proof.Proof.LibPlainDot
import proofs.«178575_j10024453669558_1_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-! ## The broadcasts at an index -/

/-- A [1, 96] row repeated down 1024 rows: entry (r, k) is the row's entry (0, k). -/
theorem headRows_apply (y : FVec Ideal S1x96 .f32) (r : Fin 1024) (k : Fin 96) :
    broadcastInDim S1024x96 ![0, 1] bcast_S1x96_S1024x96_0_1 y (ix2 r k) = y (ix2 0 k) :=
  broadcastInDim_apply _ bcast_S1x96_S1024x96_0_1 y (ix2 r k) (ix2 0 k) (fun a => match a with
    | ⟨0, _⟩ => by show 0 = if (1 : Nat) = 1 then 0 else r.val; rw [if_pos rfl]
    | ⟨1, _⟩ => by show k.val = if (96 : Nat) = 1 then 0 else k.val; rw [if_neg (by decide)])

/-- A [1, 1] entry repeated down 1024 rows: every entry is the entry (0, 0). -/
theorem headOne_apply (y : FVec Ideal S1x1 .f32) (r : Fin 1024) (u : Fin 1) :
    broadcastInDim S1024x1 ![0, 1] bcast_S1x1_S1024x1_0_1 y (ix2 r u) = y (ix2 0 0) :=
  broadcastInDim_apply _ bcast_S1x1_S1024x1_0_1 y (ix2 r u) (ix2 0 0) (fun a => match a with
    | ⟨0, _⟩ => by show 0 = if (1 : Nat) = 1 then 0 else r.val; rw [if_pos rfl]
    | ⟨1, _⟩ => by show 0 = if (1 : Nat) = 1 then 0 else u.val; rw [if_pos rfl])

/-- The all-zero [1024, 96] array: every entry is the extended real 0. -/
theorem headZeros_apply (j : S1024x96.Idx) :
    broadcastInDim S1024x96 ![] bcast_S_S1024x96 (constant (F := Ideal) S_ .f32 0x00000000#32) j = 0 :=
  (broadcastInDim_apply _ bcast_S_S1024x96 (constant (F := Ideal) S_ .f32 0x00000000#32) j ix0
    (fun a => a.elim0)).trans Ideal.ofBits_zero_f32

/-! ## The three products at an index -/

/-- The [1024, 192] by [192, 96] product at (r, q) is the sum over the 192 contracted coordinates. -/
theorem dot192_apply (A : FVec Ideal S1024x192 .f32) (B : FVec Ideal S192x96 .f32) (r : Fin 1024) (q : Fin 96) :
    Host.dotGeneral (F := Ideal) dot_S1024x192_S192x96_S1024x96_1_0_0_1_n_n none A B (ix2 r q) = ∑ c : Fin 192, A (ix2 r c) * B (ix2 c q) :=
  Cert.LibPlainDot.dotGeneral_apply dot_S1024x192_S192x96_S1024x96_1_0_0_1_n_n_wf none A B r q

/-- The [1024, 96] by [96, 96] product at (r, q) is the sum over the 96 contracted coordinates. -/
theorem dotHead_apply (A : FVec Ideal S1024x96 .f32) (B : FVec Ideal S96x96 .f32) (r : Fin 1024) (q : Fin 96) :
    Host.dotGeneral (F := Ideal) dot_S1024x96_S96x96_S1024x96_1_0_0_1_n_n none A B (ix2 r q) = ∑ c : Fin 96, A (ix2 r c) * B (ix2 c q) :=
  Cert.LibPlainDot.dotGeneral_apply dot_S1024x96_S96x96_S1024x96_1_0_0_1_n_n_wf none A B r q

/-- The [1024, 96] by [96, 1] product at (r, u) is the sum over the 96 contracted coordinates. -/
theorem dotOut_apply (A : FVec Ideal S1024x96 .f32) (B : FVec Ideal S96x1 .f32) (r : Fin 1024) (u : Fin 1) :
    Host.dotGeneral (F := Ideal) dot_S1024x96_S96x1_S1024x1_1_0_0_1_n_n none A B (ix2 r u) = ∑ c : Fin 96, A (ix2 r c) * B (ix2 c u) :=
  Cert.LibPlainDot.dotGeneral_apply dot_S1024x96_S96x1_S1024x1_1_0_0_1_n_n_wf none A B r u

/-! ## The joined row at an index -/

/-- On the first 96 joined coordinates the joined array is gp. -/
theorem joined_left (gp gd : FVec Ideal S1024x96 .f32) (r : Fin 1024) (a : Fin 96) :
    (concatenate S1024x192 1 [⟨S1024x96, gp⟩, ⟨S1024x96, gd⟩] concatenates_S1024x96_S1024x96_S1024x192_d1) (ix2 r (Fin.castAdd 96 a)) = gp (ix2 r a) :=
  concatenate_pair_apply_left (1 : Fin S1024x192.rank) gp gd concatenates_S1024x96_S1024x96_S1024x192_d1
    (ix2 r (Fin.castAdd 96 a)) rfl (ix2 r a) (fun b => match b with
      | ⟨0, _⟩ => rfl
      | ⟨1, _⟩ => rfl)

/-- On the last 96 joined coordinates the joined array is gd. -/
theorem joined_right (gp gd : FVec Ideal S1024x96 .f32) (r : Fin 1024) (a : Fin 96) :
    (concatenate S1024x192 1 [⟨S1024x96, gp⟩, ⟨S1024x96, gd⟩] concatenates_S1024x96_S1024x96_S1024x192_d1) (ix2 r (Fin.natAdd 96 a)) = gd (ix2 r a) :=
  concatenate_pair_apply_right (1 : Fin S1024x192.rank) gp gd concatenates_S1024x96_S1024x96_S1024x192_d1
    (ix2 r (Fin.natAdd 96 a)) rfl rfl (ix2 r a) (fun b => match b with
      | ⟨0, _⟩ => fun _ => rfl
      | ⟨1, _⟩ => fun h => absurd rfl h)
    (by show a.val + 96 = 96 + a.val; omega)

/-! ## A layer at an index -/

/-- A product plus the repeated bias row, followed by the maximum with the all-zero array, at (r, k). -/
theorem headRelu_apply (d : FVec Ideal S1024x96 .f32) (y : FVec Ideal S1x96 .f32) (r : Fin 1024) (k : Fin 96) :
    maximumf (addf d (broadcastInDim S1024x96 ![0, 1] bcast_S1x96_S1024x96_0_1 y)) (broadcastInDim S1024x96 ![] bcast_S_S1024x96 (constant (F := Ideal) S_ .f32 0x00000000#32)) (ix2 r k)
      = max (d (ix2 r k) + y (ix2 0 k)) 0 :=
  (maximumf_apply _ _ (ix2 r k)).trans (by rw [addf_apply, headRows_apply, headZeros_apply])

/-- The last product plus the repeated one-entry bias, at (r, u). -/
theorem headAffine_apply (d : FVec Ideal S1024x1 .f32) (y : FVec Ideal S1x1 .f32) (r : Fin 1024) (u : Fin 1) :
    addf d (broadcastInDim S1024x1 ![0, 1] bcast_S1x1_S1024x1_0_1 y) (ix2 r u) = d (ix2 r u) + y (ix2 0 0) :=
  (addf_apply d _ (ix2 r u)).trans (congrArg (fun t => d (ix2 r u) + t) (headOne_apply y r u))

/-! ## The layers as whole arrays -/

/-- The first layer: the joined row through the [192, 96] weights is gp through the upper half plus gd through the lower. -/
theorem head_first (gp gd : FVec Ideal S1024x96 .f32) (W0 : FVec Ideal S192x96 .f32) (w0a w0b : FVec Ideal S96x96 .f32)
    (hA : ∀ a k : Fin 96, w0a (ix2 a k) = W0 (ix2 (Fin.castAdd 96 a) k))
    (hB : ∀ a k : Fin 96, w0b (ix2 a k) = W0 (ix2 (Fin.natAdd 96 a) k)) (y : FVec Ideal S1x96 .f32) :
    maximumf (addf (Host.dotGeneral (F := Ideal) dot_S1024x192_S192x96_S1024x96_1_0_0_1_n_n none (concatenate S1024x192 1 [⟨S1024x96, gp⟩, ⟨S1024x96, gd⟩] concatenates_S1024x96_S1024x96_S1024x192_d1) W0) (broadcastInDim S1024x96 ![0, 1] bcast_S1x96_S1024x96_0_1 y)) (broadcastInDim S1024x96 ![] bcast_S_S1024x96 (constant (F := Ideal) S_ .f32 0x00000000#32))
      = fun j : S1024x96.Idx => Cert.GinSpec.head0 (fun a => gp (ix2 (j 0) a)) (fun a => gd (ix2 (j 0) a))
          (fun a k => w0a (ix2 a k)) (fun a k => w0b (ix2 a k)) (fun k => y (ix2 0 k)) (j 1) := by
  funext j
  obtain ⟨r, q, rfl⟩ : ∃ (r : Fin 1024) (q : Fin 96), j = ix2 r q := ⟨j 0, j 1, eq_ix2 j⟩
  rw [headRelu_apply, dot192_apply]
  have hsum : (∑ c : Fin 192, (concatenate S1024x192 1 [⟨S1024x96, gp⟩, ⟨S1024x96, gd⟩] concatenates_S1024x96_S1024x96_S1024x192_d1) (ix2 r c) * W0 (ix2 c q))
      = (∑ a : Fin 96, gp (ix2 r a) * w0a (ix2 a q)) + (∑ a : Fin 96, gd (ix2 r a) * w0b (ix2 a q)) := by
    refine (Fin.sum_univ_add (fun c : Fin (96 + 96) =>
      (concatenate S1024x192 1 [⟨S1024x96, gp⟩, ⟨S1024x96, gd⟩] concatenates_S1024x96_S1024x96_S1024x192_d1) (ix2 r c) * W0 (ix2 c q))).trans ?_
    refine congrArg₂ (· + ·) (Finset.sum_congr rfl fun a _ => ?_) (Finset.sum_congr rfl fun a _ => ?_)
    · exact congrArg₂ (· * ·) (joined_left gp gd r a) (hA a q).symm
    · exact congrArg₂ (· * ·) (joined_right gp gd r a) (hB a q).symm
  rw [hsum]
  rfl

/-- A later hidden layer on [1024, 96] rows: row r of the result is relu(x[r, ·] · W + b). -/
theorem head_hidden (x : FVec Ideal S1024x96 .f32) (w : FVec Ideal S96x96 .f32) (y : FVec Ideal S1x96 .f32) :
    maximumf (addf (Host.dotGeneral (F := Ideal) dot_S1024x96_S96x96_S1024x96_1_0_0_1_n_n none x w) (broadcastInDim S1024x96 ![0, 1] bcast_S1x96_S1024x96_0_1 y)) (broadcastInDim S1024x96 ![] bcast_S_S1024x96 (constant (F := Ideal) S_ .f32 0x00000000#32))
      = fun j : S1024x96.Idx => Cert.GinSpec.reluLin (fun a => x (ix2 (j 0) a)) (fun a k => w (ix2 a k))
          (fun k => y (ix2 0 k)) (j 1) := by
  funext j
  obtain ⟨r, q, rfl⟩ : ∃ (r : Fin 1024) (q : Fin 96), j = ix2 r q := ⟨j 0, j 1, eq_ix2 j⟩
  rw [headRelu_apply, dotHead_apply]
  rfl

/-- The last layer: row r of the result is x[r, ·] · Wf + bf, one entry. -/
theorem head_out (x : FVec Ideal S1024x96 .f32) (wf : FVec Ideal S96x1 .f32) (y : FVec Ideal S1x1 .f32) :
    addf (Host.dotGeneral (F := Ideal) dot_S1024x96_S96x1_S1024x1_1_0_0_1_n_n none x wf) (broadcastInDim S1024x1 ![0, 1] bcast_S1x1_S1024x1_0_1 y)
      = fun j : S1024x1.Idx => Cert.GinSpec.lin (fun a => x (ix2 (j 0) a)) (fun a (_ : Fin 1) => wf (ix2 a 0))
          (fun _ => y (ix2 0 0)) 0 := by
  funext j
  obtain ⟨r, u, rfl⟩ : ∃ (r : Fin 1024) (u : Fin 1), j = ix2 r u := ⟨j 0, j 1, eq_ix2 j⟩
  obtain rfl : u = 0 := Subsingleton.elim u 0
  rw [headAffine_apply, dotOut_apply]
  rfl

/-! ## The head -/

/-- The reference's head on the pooled rows is the specification's head, W0a and W0b being the two halves of W0. -/
theorem ref_head (gp gd : FVec Ideal S1024x96 .f32) (W0 : FVec Ideal S192x96 .f32) (w0a w0b : FVec Ideal S96x96 .f32)
    (hA : ∀ a k : Fin 96, w0a (ix2 a k) = W0 (ix2 (Fin.castAdd 96 a) k))
    (hB : ∀ a k : Fin 96, w0b (ix2 a k) = W0 (ix2 (Fin.natAdd 96 a) k))
    (b0 b1 b2 : FVec Ideal S96 .f32) (w1 w2 : FVec Ideal S96x96 .f32) (wf : FVec Ideal S96x1 .f32) (bf : FVec Ideal S1 .f32) :
    addf (Host.dotGeneral (F := Ideal) dot_S1024x96_S96x1_S1024x1_1_0_0_1_n_n none
      (maximumf (addf (Host.dotGeneral (F := Ideal) dot_S1024x96_S96x96_S1024x96_1_0_0_1_n_n none
        (maximumf (addf (Host.dotGeneral (F := Ideal) dot_S1024x96_S96x96_S1024x96_1_0_0_1_n_n none
          (maximumf (addf (Host.dotGeneral (F := Ideal) dot_S1024x192_S192x96_S1024x96_1_0_0_1_n_n none
            (concatenate S1024x192 1 [⟨S1024x96, gp⟩, ⟨S1024x96, gd⟩] concatenates_S1024x96_S1024x96_S1024x192_d1) W0)
            (broadcastInDim S1024x96 ![0, 1] bcast_S1x96_S1024x96_0_1 (broadcastInDim S1x96 ![1] bcast_S96_S1x96_1 b0))) (broadcastInDim S1024x96 ![] bcast_S_S1024x96 (constant (F := Ideal) S_ .f32 0x00000000#32))) w1)
          (broadcastInDim S1024x96 ![0, 1] bcast_S1x96_S1024x96_0_1 (broadcastInDim S1x96 ![1] bcast_S96_S1x96_1 b1))) (broadcastInDim S1024x96 ![] bcast_S_S1024x96 (constant (F := Ideal) S_ .f32 0x00000000#32))) w2)
        (broadcastInDim S1024x96 ![0, 1] bcast_S1x96_S1024x96_0_1 (broadcastInDim S1x96 ![1] bcast_S96_S1x96_1 b2))) (broadcastInDim S1024x96 ![] bcast_S_S1024x96 (constant (F := Ideal) S_ .f32 0x00000000#32))) wf)
      (broadcastInDim S1024x1 ![0, 1] bcast_S1x1_S1024x1_0_1 (broadcastInDim S1x1 ![1] bcast_S1_S1x1_1 bf))
    = Cert.GinSpec.head gp gd w0a w0b (broadcastInDim S1x96 ![1] bcast_S96_S1x96_1 b0) w1 (broadcastInDim S1x96 ![1] bcast_S96_S1x96_1 b1) w2 (broadcastInDim S1x96 ![1] bcast_S96_S1x96_1 b2) wf (broadcastInDim S1x1 ![1] bcast_S1_S1x1_1 bf) := by
  rw [head_first gp gd W0 w0a w0b hA hB, head_hidden _ w1, head_hidden _ w2, head_out]
  rfl

end Cert.ReferenceIdeal.RefValue

end
-- ==== Proof.Bridge.lean ====
/-
  The two programs prepare the same bias rows and the same halves of the head's first weight matrix.

  A bias vector b of 96 entries becomes a [1, 96] row: by a reshape in the kernel's program, by a broadcast along a new
  leading unit axis in the reference. Both rows hold b[k] at (0, k). The same for the head's one-entry last bias and its
  [1, 1] array. The kernel's program cuts the head's [192, 96] weight matrix W into an upper and a lower [96, 96] half:
  entry (a, k) of the upper half is W[a, k], of the lower half W[96 + a, k].
-/
import proofs.«178575_j10024453669558_1_alg».proof.Proof.KTerm
import proofs.«178575_j10024453669558_1_alg».proof.Proof.Gen.ReferenceIdeal
import Idealize.ShloMosaic.Lib.Pipeline.Value
import Idealize.ShloMosaic.Lib.ValueLayout
import Idealize.ShloMosaic.Lib.ValueIdx

noncomputable section

namespace Cert.Bridge

open Idealize.ShloMosaic Idealize.ShloMosaic.ValueIdx

/-- The reshaped bias row and the broadcast bias row are the same [1, 96] array. -/
theorem row_eq (b : FVec Ideal Cert.KernelIdeal.S96 .f32) :
    Cert.KernelIdeal.KTerm.row b
      = broadcastInDim Cert.ReferenceIdeal.S1x96 ![1] Cert.ReferenceIdeal.Gen.bcast_S96_S1x96_1 b := by
  funext j
  obtain ⟨u, k, rfl⟩ : ∃ (u : Fin 1) (k : Fin 96), j = ix2 u k := ⟨j 0, j 1, eq_ix2 j⟩
  refine (shapeCast_a_1a_apply b _ u k).trans ?_
  exact (broadcastInDim_apply _ Cert.ReferenceIdeal.Gen.bcast_S96_S1x96_1 b (ix2 u k) (ix1 k) (fun a => match a with
    | ⟨0, _⟩ => by show k.val = if (96 : Nat) = 1 then 0 else k.val; rw [if_neg (by decide)])).symm

/-- The reshaped one-entry bias and the broadcast one are the same [1, 1] array. -/
theorem row1_eq (b : FVec Ideal Cert.KernelIdeal.S1 .f32) :
    Cert.KernelIdeal.KTerm.row1 b
      = broadcastInDim Cert.ReferenceIdeal.S1x1 ![1] Cert.ReferenceIdeal.Gen.bcast_S1_S1x1_1 b := by
  funext j
  obtain ⟨u, k, rfl⟩ : ∃ (u : Fin 1) (k : Fin 1), j = ix2 u k := ⟨j 0, j 1, eq_ix2 j⟩
  refine (shapeCast_a_1a_apply b _ u k).trans ?_
  exact (broadcastInDim_apply _ Cert.ReferenceIdeal.Gen.bcast_S1_S1x1_1 b (ix2 u k) (ix1 k) (fun a => match a with
    | ⟨0, _⟩ => by
      have hk : k.val = 0 := by omega
      show k.val = if (1 : Nat) = 1 then 0 else k.val
      rw [if_pos rfl, hk])).symm

/-- Entry (a, k) of the upper half is W[a, k]. -/
theorem top_apply (W : FVec Ideal Cert.KernelIdeal.S192x96 .f32) (a k : Fin 96) :
    Cert.KernelIdeal.KTerm.top W (ix2 a k) = W (ix2 (Fin.castAdd 96 a) k) :=
  slice2_axis0_apply 0 W _ a k (Fin.castAdd 96 a) (by show a.val = 0 + a.val; omega)

/-- Entry (a, k) of the lower half is W[96 + a, k]. -/
theorem bot_apply (W : FVec Ideal Cert.KernelIdeal.S192x96 .f32) (a k : Fin 96) :
    Cert.KernelIdeal.KTerm.bot W (ix2 a k) = W (ix2 (Fin.natAdd 96 a) k) :=
  slice2_axis0_apply 96 W _ a k (Fin.natAdd 96 a) (by show 96 + a.val = 96 + a.val; rfl)

end Cert.Bridge

end
-- ==== Proof.RChain.lean ====
/-
  The reference program's result, written over the same stages as the kernel program's — the edge numbers, the
  neighbourhood sums, the stacked parameters' slices, the per-graph mean — with each node perceptron and the head in the
  host's own operations (matrix products, row broadcasts, maxima with zero, a join of the two pooled arrays along the
  feature axis). Each perceptron and the head is the specification's function; the two programs spell the remaining
  stages with records of their own that are the same records, and a bias row once as a reshape and once as a broadcast,
  which are the same row. So the reference's result is the kernel program's function of the arguments.
-/
import proofs.«178575_j10024453669558_1_alg».proof.Proof.RefRun
import proofs.«178575_j10024453669558_1_alg».proof.Proof.RefMlp
import proofs.«178575_j10024453669558_1_alg».proof.Proof.RefHead
import proofs.«178575_j10024453669558_1_alg».proof.Proof.Bridge
import proofs.«178575_j10024453669558_1_alg».proof.Proof.KTerm

noncomputable section

namespace Cert.ReferenceIdeal.RChain

open Cert.ReferenceIdeal Cert.ReferenceIdeal.Gen Idealize.ShloMosaic Idealize.ShloMosaic.TcCoe Idealize.SL.Sem

abbrev I32 (s : Shape) := IVec s 32
abbrev F32 (s : Shape) := FVec Ideal s .f32

/-- The source node of every edge (row 0 of the edge list). -/
def srcRaw (e : I32 S2x800000) : I32 S800000 :=
  shapeCast _ (extractStridedSlice S1x800000 ![0, 0] e slices_S2x800000_S1x800000_0_0) shapeCasts_S1x800000_S800000
/-- The destination node of every edge (row 1 of the edge list). -/
def dstRaw (e : I32 S2x800000) : I32 S800000 :=
  shapeCast _ (extractStridedSlice S1x800000 ![1, 0] e slices_S2x800000_S1x800000_1_0) shapeCasts_S1x800000_S800000
/-- The source numbers as gather indices: a negative number counts from the end. -/
def srcIdx (s : I32 S800000) : I32 S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)
/-- The destination numbers as scatter indices. -/
def dstIdx (d : I32 S800000) : I32 S800000x1 := broadcastInDim S800000x1 ![0] bcast_S800000_S800000x1_0 d

/-- h plus, at every node, the sum of the source rows of the edges into it (64 features). -/
def agg64 (h : F32 S100000x64) (s d : I32 S800000) : F32 S100000x64 :=
  addf h (Host.scatterAdd scatter_S100000x64_S800000x1_S800000x64_1_0_0_1
    (broadcastInDim S100000x64 ![] bcast_S_S100000x64 (constant (F := Ideal) S_ .f32 0x00000000#32)) (dstIdx d)
    (Host.gather gather_S100000x64_S800000x1_S800000x64_1_0_n_n_0_1_164 h (srcIdx s)))
/-- The same with 96 features. -/
def agg96 (h : F32 S100000x96) (s d : I32 S800000) : F32 S100000x96 :=
  addf h (Host.scatterAdd scatter_S100000x96_S800000x1_S800000x96_1_0_0_1
    (broadcastInDim S100000x96 ![] bcast_S_S100000x96 (constant (F := Ideal) S_ .f32 0x00000000#32)) (dstIdx d)
    (Host.gather gather_S100000x96_S800000x1_S800000x96_1_0_n_n_0_1_196 h (srcIdx s)))

/-- Layer k's weight matrix out of the stacked [3, 96, 96] array. -/
def mat0 (w : F32 S3x96x96) : F32 S96x96 :=
  shapeCast _ (extractStridedSlice S1x96x96 ![0, 0, 0] w slices_S3x96x96_S1x96x96_0_0_0) shapeCasts_S1x96x96_S96x96
def mat1 (w : F32 S3x96x96) : F32 S96x96 :=
  shapeCast _ (extractStridedSlice S1x96x96 ![1, 0, 0] w slices_S3x96x96_S1x96x96_1_0_0) shapeCasts_S1x96x96_S96x96
def mat2 (w : F32 S3x96x96) : F32 S96x96 :=
  shapeCast _ (extractStridedSlice S1x96x96 ![2, 0, 0] w slices_S3x96x96_S1x96x96_2_0_0) shapeCasts_S1x96x96_S96x96
/-- Layer k's bias out of the stacked [3, 96] array. -/
def vec0 (b : F32 S3x96) : F32 S96 :=
  shapeCast _ (extractStridedSlice S1x96 ![0, 0] b slices_S3x96_S1x96_0_0) shapeCasts_S1x96_S96
def vec1 (b : F32 S3x96) : F32 S96 :=
  shapeCast _ (extractStridedSlice S1x96 ![1, 0] b slices_S3x96_S1x96_1_0) shapeCasts_S1x96_S96
def vec2 (b : F32 S3x96) : F32 S96 :=
  shapeCast _ (extractStridedSlice S1x96 ![2, 0] b slices_S3x96_S1x96_2_0) shapeCasts_S1x96_S96

/-- The mean of the rows of h over each graph's nodes (bt: every node's graph number). -/
def pool (h : F32 S100000x96) (bt : I32 S100000) : F32 S1024x96 :=
  Host.divf
    (Host.scatterAdd scatter_S1024x96_S100000x1_S100000x96_1_0_0_1
      (broadcastInDim S1024x96 ![] bcast_S_S1024x96 (constant (F := Ideal) S_ .f32 0x00000000#32))
      (broadcastInDim S100000x1 ![0] bcast_S100000_S100000x1_0 bt) h)
    (broadcastInDim S1024x96 ![0, 1] bcast_S1024x1_S1024x96_0_1 (broadcastInDim S1024x1 ![0] bcast_S1024_S1024x1_0
      (maximumf
        (Host.scatterAdd scatter_S1024_S100000x1_S100000_n_0_0_1
          (broadcastInDim S1024 ![] bcast_S_S1024 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S1024 ![] bcast_S_S1024 (constant (F := Ideal) S_ .f32 0x3F800000#32)))))

/-- The node perceptron in host operations: 64 input features, relu after. -/
def mlp64r (z : F32 S100000x64) (w1 : F32 S64x96) (b1 : F32 S96) (w2 : F32 S96x96) (b2 : F32 S96) : F32 S100000x96 :=
  maximumf (addf (Host.dotGeneral (F := Ideal) dot_S100000x96_S96x96_S100000x96_1_0_0_1_n_n none
      (maximumf (addf (Host.dotGeneral (F := Ideal) dot_S100000x64_S64x96_S100000x96_1_0_0_1_n_n none z w1) (broadcastInDim S100000x96 ![0, 1] bcast_S1x96_S100000x96_0_1 (broadcastInDim S1x96 ![1] bcast_S96_S1x96_1 b1))) (broadcastInDim S100000x96 ![] bcast_S_S100000x96 (constant (F := Ideal) S_ .f32 0x00000000#32))) w2) (broadcastInDim S100000x96 ![0, 1] bcast_S1x96_S100000x96_0_1 (broadcastInDim S1x96 ![1] bcast_S96_S1x96_1 b2))) (broadcastInDim S100000x96 ![] bcast_S_S100000x96 (constant (F := Ideal) S_ .f32 0x00000000#32))
/-- 96 input features, relu after. -/
def mlp96r (z : F32 S100000x96) (w1 : F32 S96x96) (b1 : F32 S96) (w2 : F32 S96x96) (b2 : F32 S96) : F32 S100000x96 :=
  maximumf (addf (Host.dotGeneral (F := Ideal) dot_S100000x96_S96x96_S100000x96_1_0_0_1_n_n none
      (maximumf (addf (Host.dotGeneral (F := Ideal) dot_S100000x96_S96x96_S100000x96_1_0_0_1_n_n none z w1) (broadcastInDim S100000x96 ![0, 1] bcast_S1x96_S100000x96_0_1 (broadcastInDim S1x96 ![1] bcast_S96_S1x96_1 b1))) (broadcastInDim S100000x96 ![] bcast_S_S100000x96 (constant (F := Ideal) S_ .f32 0x00000000#32))) w2) (broadcastInDim S100000x96 ![0, 1] bcast_S1x96_S100000x96_0_1 (broadcastInDim S1x96 ![1] bcast_S96_S1x96_1 b2))) (broadcastInDim S100000x96 ![] bcast_S_S100000x96 (constant (F := Ideal) S_ .f32 0x00000000#32))
/-- 96 input features, no relu after. -/
def mlp96l (z : F32 S100000x96) (w1 : F32 S96x96) (b1 : F32 S96) (w2 : F32 S96x96) (b2 : F32 S96) : F32 S100000x96 :=
  addf (Host.dotGeneral (F := Ideal) dot_S100000x96_S96x96_S100000x96_1_0_0_1_n_n none
      (maximumf (addf (Host.dotGeneral (F := Ideal) dot_S100000x96_S96x96_S100000x96_1_0_0_1_n_n none z w1) (broadcastInDim S100000x96 ![0, 1] bcast_S1x96_S100000x96_0_1 (broadcastInDim S1x96 ![1] bcast_S96_S1x96_1 b1))) (broadcastInDim S100000x96 ![] bcast_S_S100000x96 (constant (F := Ideal) S_ .f32 0x00000000#32))) w2) (broadcastInDim S100000x96 ![0, 1] bcast_S1x96_S100000x96_0_1 (broadcastInDim S1x96 ![1] bcast_S96_S1x96_1 b2))

theorem mlp64r_eq (z : F32 S100000x64) (w1 : F32 S64x96) (b1 : F32 S96) (w2 : F32 S96x96) (b2 : F32 S96) :
    mlp64r z w1 b1 w2 b2 = Cert.GinSpec.conv true z w1 (broadcastInDim S1x96 ![1] bcast_S96_S1x96_1 b1) w2 (broadcastInDim S1x96 ![1] bcast_S96_S1x96_1 b2) :=
  Cert.ReferenceIdeal.RefValue.mlp64_relu z w1 b1 w2 b2
theorem mlp96r_eq (z : F32 S100000x96) (w1 : F32 S96x96) (b1 : F32 S96) (w2 : F32 S96x96) (b2 : F32 S96) :
    mlp96r z w1 b1 w2 b2 = Cert.GinSpec.conv true z w1 (broadcastInDim S1x96 ![1] bcast_S96_S1x96_1 b1) w2 (broadcastInDim S1x96 ![1] bcast_S96_S1x96_1 b2) :=
  Cert.ReferenceIdeal.RefValue.mlp96_relu z w1 w2 b1 b2
theorem mlp96l_eq (z : F32 S100000x96) (w1 : F32 S96x96) (b1 : F32 S96) (w2 : F32 S96x96) (b2 : F32 S96) :
    mlp96l z w1 b1 w2 b2 = Cert.GinSpec.conv false z w1 (broadcastInDim S1x96 ![1] bcast_S96_S1x96_1 b1) w2 (broadcastInDim S1x96 ![1] bcast_S96_S1x96_1 b2) :=
  Cert.ReferenceIdeal.RefValue.mlp96_lin z w1 w2 b1 b2

/-- One tower in host operations. -/
def towerR (x : F32 S100000x64) (e : I32 S2x800000) (w1 : F32 S64x96) (b1 : F32 S96) (w2 : F32 S96x96) (b2 : F32 S96)
    (cw1 : F32 S3x96x96) (cb1 : F32 S3x96) (cw2 : F32 S3x96x96) (cb2 : F32 S3x96) : F32 S100000x96 :=
  mlp96l (agg96
    (mlp96r (agg96
      (mlp96r (agg96
        (mlp64r (agg64 x (srcRaw e) (dstRaw e)) w1 b1 w2 b2)
        (srcRaw e) (dstRaw e)) (mat0 cw1) (vec0 cb1) (mat0 cw2) (vec0 cb2))
      (srcRaw e) (dstRaw e)) (mat1 cw1) (vec1 cb1) (mat1 cw2) (vec1 cb2))
    (srcRaw e) (dstRaw e)) (mat2 cw1) (vec2 cb1) (mat2 cw2) (vec2 cb2)

/-- The head in host operations, on the two pooled arrays joined along the feature axis. -/
def headR (gp gd : F32 S1024x96) (W0 : F32 S192x96) (b0 : F32 S96) (w1 : F32 S96x96) (b1 : F32 S96) (w2 : F32 S96x96)
    (b2 : F32 S96) (wf : F32 S96x1) (bf : F32 S1) : F32 S1024x1 :=
  addf (Host.dotGeneral (F := Ideal) dot_S1024x96_S96x1_S1024x1_1_0_0_1_n_n none
    (maximumf (addf (Host.dotGeneral (F := Ideal) dot_S1024x96_S96x96_S1024x96_1_0_0_1_n_n none
      (maximumf (addf (Host.dotGeneral (F := Ideal) dot_S1024x96_S96x96_S1024x96_1_0_0_1_n_n none
        (maximumf (addf (Host.dotGeneral (F := Ideal) dot_S1024x192_S192x96_S1024x96_1_0_0_1_n_n none
          (concatenate S1024x192 1 [⟨S1024x96, gp⟩, ⟨S1024x96, gd⟩] concatenates_S1024x96_S1024x96_S1024x192_d1) W0)
          (broadcastInDim S1024x96 ![0, 1] bcast_S1x96_S1024x96_0_1 (broadcastInDim S1x96 ![1] bcast_S96_S1x96_1 b0))) (broadcastInDim S1024x96 ![] bcast_S_S1024x96 (constant (F := Ideal) S_ .f32 0x00000000#32))) w1)
        (broadcastInDim S1024x96 ![0, 1] bcast_S1x96_S1024x96_0_1 (broadcastInDim S1x96 ![1] bcast_S96_S1x96_1 b1))) (broadcastInDim S1024x96 ![] bcast_S_S1024x96 (constant (F := Ideal) S_ .f32 0x00000000#32))) w2)
      (broadcastInDim S1024x96 ![0, 1] bcast_S1x96_S1024x96_0_1 (broadcastInDim S1x96 ![1] bcast_S96_S1x96_1 b2))) (broadcastInDim S1024x96 ![] bcast_S_S1024x96 (constant (F := Ideal) S_ .f32 0x00000000#32))) wf)
    (broadcastInDim S1024x1 ![0, 1] bcast_S1x1_S1024x1_0_1 (broadcastInDim S1x1 ![1] bcast_S1_S1x1_1 bf))

/-- The reference program's result as a function of its argument arrays. -/
def outR (xp xd : F32 S100000x64)
    (pw1 : F32 S64x96) (pb1 : F32 S96) (pw2 : F32 S96x96) (pb2 : F32 S96)
    (pcw1 : F32 S3x96x96) (pcb1 : F32 S3x96) (pcw2 : F32 S3x96x96) (pcb2 : F32 S3x96)
    (dw1 : F32 S64x96) (db1 : F32 S96) (dw2 : F32 S96x96) (db2 : F32 S96)
    (dcw1 : F32 S3x96x96) (dcb1 : F32 S3x96) (dcw2 : F32 S3x96x96) (dcb2 : F32 S3x96)
    (l0w : F32 S192x96) (l0b : F32 S96) (l1w : F32 S96x96) (l1b : F32 S96) (l2w : F32 S96x96) (l2b : F32 S96)
    (fw : F32 S96x1) (fb : F32 S1) (ep ed : I32 S2x800000) (bp bd : I32 S100000) : F32 S1024x1 :=
  headR (pool (towerR xp ep pw1 pb1 pw2 pb2 pcw1 pcb1 pcw2 pcb2) bp)
    (pool (towerR xd ed dw1 db1 dw2 db2 dcw1 dcb1 dcw2 dcb2) bd) l0w l0b l1w l1b l2w l2b fw fb

set_option maxRecDepth 16384 in
/-- The run's result term is that function of the launch contents. -/
theorem res_eq (m : (ℓ : Loc nD τ sig) → Buf (Elt Ideal) ℓ) (c : Dev nD) :
    Cert.ReferenceIdeal.ValueP.res_main_v276 (F := Ideal) m c = outR (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) := by
  unfold Cert.ReferenceIdeal.ValueP.res_main_v276; rfl

/-! ## The reference's function is the kernel program's -/

open Cert.KernelIdeal.KTerm in
/-- A tower: the perceptrons are the specification's, the bias rows and the shared stages the same. -/
theorem tower_eq (x : F32 S100000x64) (e : I32 S2x800000) (w1 : F32 S64x96) (b1 : F32 S96) (w2 : F32 S96x96) (b2 : F32 S96)
    (cw1 : F32 S3x96x96) (cb1 : F32 S3x96) (cw2 : F32 S3x96x96) (cb2 : F32 S3x96) :
    towerR x e w1 b1 w2 b2 cw1 cb1 cw2 cb2 = Cert.KernelIdeal.KTerm.tower x e w1 b1 w2 b2 cw1 cb1 cw2 cb2 := by
  unfold towerR Cert.KernelIdeal.KTerm.tower Cert.KernelIdeal.KTerm.lay4 Cert.KernelIdeal.KTerm.lay3
    Cert.KernelIdeal.KTerm.lay2 Cert.KernelIdeal.KTerm.lay1
  rw [mlp96l_eq, mlp96r_eq, mlp96r_eq, mlp64r_eq]
  simp only [Cert.Bridge.row_eq]
  rfl

/-- The whole program. -/
theorem out_eq (xp xd : F32 S100000x64)
    (pw1 : F32 S64x96) (pb1 : F32 S96) (pw2 : F32 S96x96) (pb2 : F32 S96)
    (pcw1 : F32 S3x96x96) (pcb1 : F32 S3x96) (pcw2 : F32 S3x96x96) (pcb2 : F32 S3x96)
    (dw1 : F32 S64x96) (db1 : F32 S96) (dw2 : F32 S96x96) (db2 : F32 S96)
    (dcw1 : F32 S3x96x96) (dcb1 : F32 S3x96) (dcw2 : F32 S3x96x96) (dcb2 : F32 S3x96)
    (l0w : F32 S192x96) (l0b : F32 S96) (l1w : F32 S96x96) (l1b : F32 S96) (l2w : F32 S96x96) (l2b : F32 S96)
    (fw : F32 S96x1) (fb : F32 S1) (ep ed : I32 S2x800000) (bp bd : I32 S100000) :
    outR xp xd pw1 pb1 pw2 pb2 pcw1 pcb1 pcw2 pcb2 dw1 db1 dw2 db2 dcw1 dcb1 dcw2 dcb2 l0w l0b l1w l1b l2w l2b fw fb ep ed bp bd = Cert.KernelIdeal.KTerm.out xp xd pw1 pb1 pw2 pb2 pcw1 pcb1 pcw2 pcb2 dw1 db1 dw2 db2 dcw1 dcb1 dcw2 dcb2 l0w l0b l1w l1b l2w l2b fw fb ep ed bp bd := by
  unfold outR Cert.KernelIdeal.KTerm.out headR
  rw [Cert.ReferenceIdeal.RefValue.ref_head _ _ l0w (Cert.KernelIdeal.KTerm.top l0w) (Cert.KernelIdeal.KTerm.bot l0w)
    (Cert.Bridge.top_apply l0w) (Cert.Bridge.bot_apply l0w) l0b l1b l2b l1w l2w fw fb, tower_eq, tower_eq]
  simp only [Cert.Bridge.row_eq, Cert.Bridge.row1_eq]
  rfl

end Cert.ReferenceIdeal.RChain

end
-- ==== Proof.lean ====
/-
  The certificate of the two-tower graph network against its reference, over the extended reals.

  Both programs send each tower's node features through four rounds of "add the neighbours' rows, then a two-layer
  perceptron", average the rows of each graph, and map the two averages through a small head. The kernel program computes
  each perceptron and the head in on-chip regions, block of rows by block of rows, with matrix products into zero
  accumulators after a change of float format that is the identity on the extended reals; the reference computes them
  with host matrix products. The neighbourhood sums and the averages are the same host operations in both.
  Row by row a region's block is the specification's perceptron of the same rows of the whole array, so the twenty blocks
  of a region tile the perceptron of the whole array; the reference's host operations are the same perceptron index by
  index; the head's product over the 192 joined features is the sum of the two products over 96. Composed along the
  program, both results are one function of the arguments. No finiteness is used: only sums and products are regrouped.
  The three frames are the programs' runs with the results dropped; the idealization rewrote nothing.
-/
import proofs.«178575_j10024453669558_1_alg».proof.Defs
import proofs.«178575_j10024453669558_1_alg».proof.Proof.Gen.Kernel
import proofs.«178575_j10024453669558_1_alg».proof.Proof.Gen.Kernel.Frame
import proofs.«178575_j10024453669558_1_alg».proof.Proof.Gen.KernelIdeal
import proofs.«178575_j10024453669558_1_alg».proof.Proof.Gen.KernelIdeal.Frame
import proofs.«178575_j10024453669558_1_alg».proof.Proof.Gen.ReferenceIdeal
import proofs.«178575_j10024453669558_1_alg».proof.Proof.Gen.Pre_finite_inputs
import proofs.«178575_j10024453669558_1_alg».proof.Proof.KRun
import proofs.«178575_j10024453669558_1_alg».proof.Proof.KChainOut
import proofs.«178575_j10024453669558_1_alg».proof.Proof.RefRun
import proofs.«178575_j10024453669558_1_alg».proof.Proof.RChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result buffer at one function of the arguments: the kernel program's run reads it at the
    last boundary's contents, which the chain of stages identifies; the reference's run states its composed term, which
    is the same function of arguments that agree. -/
theorem algebraic : Cert.algebraic_KernelIdeal_ReferenceIdeal := by
  intro m ρ m' ρ' _ hagree
  refine ⟨fun c => Cert.KernelIdeal.KTerm.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29))
      (m ((c.tc : Thread Cert.KernelIdeal.nD Cert.KernelIdeal.τ).loc Cert.KernelIdeal.main_arg30))
      (m ((c.tc : Thread Cert.KernelIdeal.nD Cert.KernelIdeal.τ).loc Cert.KernelIdeal.main_arg31)), ?_, ?_⟩
  · exact (θ_run Cert.KernelIdeal.defs _ _).mono
      (fun _ h c => ⟨(h c).1.trans (Cert.KernelIdeal.Chain.result m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.ValueP.run (F := Ideal) m' ρ')
    obtain ⟨h0, h1, _, _, h4, h5, h6, h7, h8, h9, h10, h11, h12, h13, h14, h15, h16, h17, h18, h19, h20, h21, h22, h23, h24, h25, h26, h27, h28, h29, h30, h31⟩ := hagree c
    rw [Cert.ReferenceIdeal.RChain.res_eq m' c, Cert.ReferenceIdeal.RChain.out_eq]
    simp only [h0, h1, h4, h5, h6, h7, h8, h9, h10, h11, h12, h13, h14, h15, h16, h17, h18, h19, h20, h21, h22, h23, h24, h25, h26, h27, h28, h29, h30, h31]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
